-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40x128 .f32) (main_arg6 : FVec F S40 .f32) (main_arg7 : FVec F S40x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S40x128 .f32 := Host.absf main_arg5
  let main_cst_6 : FVec F S_ .f32 := constant S_ .f32 0x7F800000#32
  let main_v20 : FVec F S40x128 .f32 := broadcastInDim S40x128 ![] bcast_S_S40x128 main_cst_6
  let main_v21 : IVec S40x128 1 := cmpf .olt main_v19 main_v20
  let main_c_7 : IVec S_ 1 := constantI S_ 1 1#1
  let main_v22 : IVec S_ 1 := (fun x v => Host.reduce IntOp.andi x v reducesTo_S40x128_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40x128 .f32 := Host.absf main_arg7
  let main_cst_10 : FVec F S_ .f32 := constant S_ .f32 0x7F800000#32
  let main_v30 : FVec F S40x128 .f32 := broadcastInDim S40x128 ![] bcast_S_S40x128 main_cst_10
  let main_v31 : IVec S40x128 1 := cmpf .olt main_v29 main_v30
  let main_c_11 : IVec S_ 1 := constantI S_ 1 1#1
  let main_v32 : IVec S_ 1 := (fun x v => Host.reduce IntOp.andi x v reducesTo_S40x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S40x128 .f32) (main_arg6 : FVec F S40 .f32) (main_arg7 : FVec F S40x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S5000 : Shape := ⟨1, ![5000]⟩
abbrev S128x40 : Shape := ⟨2, ![128, 40]⟩
abbrev S100000x40 : Shape := ⟨2, ![100000, 40]⟩
abbrev S1600000x40 : Shape := ⟨2, ![1600000, 40]⟩
abbrev S1x40 : Shape := ⟨2, ![1, 40]⟩
abbrev S5000x40 : Shape := ⟨2, ![5000, 40]⟩

abbrev nBuf : Space → Nat
  | .hbm => 64
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S40x128, .f32⟩
  | .hbm, ⟨6, _⟩ => ⟨S40, .f32⟩
  | .hbm, ⟨7, _⟩ => ⟨S40x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .bf16⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .bf16⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S128x128, .f32⟩
  | .hbm, ⟨41, _⟩ => ⟨S1x128, .f32⟩
  | .hbm, ⟨42, _⟩ => ⟨S128x128, .f32⟩
  | .hbm, ⟨43, _⟩ => ⟨S100000x128, .f32⟩
  | .hbm, ⟨44, _⟩ => ⟨S128x40, .f32⟩
  | .hbm, ⟨45, _⟩ => ⟨S100000x40, .f32⟩
  | .hbm, ⟨46, _⟩ => ⟨S100000x40, .bf16⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x40, .bf16⟩
  | .hbm, ⟨56, _⟩ => ⟨S1600000x40, .f32⟩
  | .hbm, ⟨57, _⟩ => ⟨S_, .f32⟩
  | .hbm, ⟨58, _⟩ => ⟨S100000x40, .f32⟩
  | .hbm, ⟨59, _⟩ => ⟨S1600000x1, .i32⟩
  | .hbm, ⟨60, _⟩ => ⟨S100000x40, .f32⟩
  | .hbm, ⟨61, _⟩ => ⟨S1x40, .f32⟩
  | .hbm, ⟨62, _⟩ => ⟨S128x40, .f32⟩
  | .hbm, ⟨63, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x40, .f32⟩
  | .local _ .vmem, ⟨12, _⟩ => ⟨S5000x40, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S1x40, .f32⟩
  | .local _ .vmem, ⟨18, _⟩ => ⟨S128x40, .f32⟩
  | .local _ .vmem, ⟨19, _⟩ => ⟨S5000x40, .f32⟩
  | .local _ .vmem, ⟨20, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  transposes_S40x128_S128x40_1_0 : S40x128.Transposes [1, 0] S128x40
  bcast_S_S100000x40 : S_.BroadcastsInDim S100000x40 (![] : Fin 0 → Fin S100000x40.rank)
  shapeCasts_S40_S1x40 : S40.ShapeCasts S1x40
  inb_S5000x40_S5000x40_0_0 : ∀ a, (![0, 0] : Fin 2 → Nat) a + S5000x40.size a ≤ S5000x40.size a
  h_S5000x40 : 0 < S5000x40.numel
  shapeCasts_S5000x40_S5000x40 : S5000x40.ShapeCasts S5000x40
  broadcasts_S5000x1_S5000x40 : S5000x1.Broadcasts S5000x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x40.size a ≤ S100000x40.size a
  hwx1_0 : ∀ i : grid1.Coords, EltTy.bits .f32 = 32 ∨ (Rect.block (s := S100000x40) S5000x40.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x40.size a ≤ S1x40.size a
  hwx1_3 : ∀ i : grid1.Coords, EltTy.bits .f32 = 32 ∨ (Rect.block (s := S1x40) S1x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x40.size a ≤ S128x40.size a
  hwx1_4 : ∀ i : grid1.Coords, EltTy.bits .f32 = 32 ∨ (Rect.block (s := S128x40) S128x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S100000x40.size a
  hwx1_5 : ∀ i : grid1.Coords, EltTy.bits .f32 = 32 ∨ (Rect.block (s := S100000x40) S5000x40.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v42) S5000x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S128x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x40 : Shape := ⟨2, ![128, 40]⟩
abbrev S100000x40 : Shape := ⟨2, ![100000, 40]⟩
abbrev S1x40 : Shape := ⟨2, ![1, 40]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S40x128, .f32⟩
  | .hbm, ⟨6, _⟩ => ⟨S40, .f32⟩
  | .hbm, ⟨7, _⟩ => ⟨S40x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S128x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000, .f32⟩
  | .hbm, ⟨48, _⟩ => ⟨S100000x1, .f32⟩
  | .hbm, ⟨49, _⟩ => ⟨S100000x1, .f32⟩
  | .hbm, ⟨50, _⟩ => ⟨S_, .f32⟩
  | .hbm, ⟨51, _⟩ => ⟨S100000x1, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x128, .f32⟩
  | .hbm, ⟨67, _⟩ => ⟨S_, .f32⟩
  | .hbm, ⟨68, _⟩ => ⟨S100000x128, .f32⟩
  | .hbm, ⟨69, _⟩ => ⟨S1600000x1, .i32⟩
  | .hbm, ⟨70, _⟩ => ⟨S100000x128, .f32⟩
  | .hbm, ⟨71, _⟩ => ⟨S_, .f32⟩
  | .hbm, ⟨72, _⟩ => ⟨S1600000, .f32⟩
  | .hbm, ⟨73, _⟩ => ⟨S_, .f32⟩
  | .hbm, ⟨74, _⟩ => ⟨S100000, .f32⟩
  | .hbm, ⟨75, _⟩ => ⟨S1600000x1, .i32⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S128x40, .f32⟩
  | .hbm, ⟨84, _⟩ => ⟨S100000x40, .f32⟩
  | .hbm, ⟨85, _⟩ => ⟨S1x40, .f32⟩
  | .hbm, ⟨86, _⟩ => ⟨S100000x40, .f32⟩
  | .hbm, ⟨87, _⟩ => ⟨S100000x40, .f32⟩
  | .hbm, ⟨88, _⟩ => ⟨S128x40, .f32⟩
  | .hbm, ⟨89, _⟩ => ⟨S100000x40, .f32⟩
  | .hbm, ⟨90, _⟩ => ⟨S100000x40, .f32⟩
  | .hbm, ⟨91, _⟩ => ⟨S100000x40, .f32⟩
  | .hbm, ⟨92, _⟩ => ⟨S_, .f32⟩
  | .hbm, ⟨93, _⟩ => ⟨S100000, .f32⟩
  | .hbm, ⟨94, _⟩ => ⟨S100000x1, .f32⟩
  | .hbm, ⟨95, _⟩ => ⟨S100000x1, .f32⟩
  | .hbm, ⟨96, _⟩ => ⟨S_, .f32⟩
  | .hbm, ⟨97, _⟩ => ⟨S100000x1, .f32⟩
  | .hbm, ⟨98, _⟩ => ⟨S100000x1, .f32⟩
  | .hbm, ⟨99, _⟩ => ⟨S100000x40, .f32⟩
  | .hbm, ⟨100, _⟩ => ⟨S100000x40, .f32⟩
  | .hbm, ⟨101, _⟩ => ⟨S_, .f32⟩
  | .hbm, ⟨102, _⟩ => ⟨S100000, .f32⟩
  | .hbm, ⟨103, _⟩ => ⟨S_, .f32⟩
  | .hbm, ⟨104, _⟩ => ⟨S100000, .f32⟩
  | .hbm, ⟨105, _⟩ => ⟨S100000, .f32⟩
  | .hbm, ⟨106, _⟩ => ⟨S100000x1, .f32⟩
  | .hbm, ⟨107, _⟩ => ⟨S100000x40, .f32⟩
  | .hbm, ⟨108, _⟩ => ⟨S100000x40, .f32⟩
  | .hbm, ⟨109, _⟩ => ⟨S100000x40, .f32⟩
  | .hbm, ⟨110, _⟩ => ⟨S_, .f32⟩
  | .hbm, ⟨111, _⟩ => ⟨S100000, .f32⟩
  | .hbm, ⟨112, _⟩ => ⟨S100000x1, .f32⟩
  | .hbm, ⟨113, _⟩ => ⟨S100000x1, .f32⟩
  | .hbm, ⟨114, _⟩ => ⟨S100000x40, .f32⟩
  | .hbm, ⟨115, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_v0 : Ref sig .tc := ⟨.hbm, 45, rfl⟩
abbrev main_call0_cst : Ref sig .tc := ⟨.hbm, 46, rfl⟩
abbrev main_call0_v1 : Ref sig .tc := ⟨.hbm, 47, rfl⟩
abbrev main_call0_v2 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_cst : Ref sig .tc := ⟨.hbm, 55, rfl⟩
abbrev main_call1_v0 : Ref sig .tc := ⟨.hbm, 56, rfl⟩
abbrev main_v36 : Ref sig .tc := ⟨.hbm, 57, rfl⟩
abbrev main_c_5 : Ref sig .tc := ⟨.hbm, 58, rfl⟩
abbrev main_v37 : Ref sig .tc := ⟨.hbm, 59, rfl⟩
abbrev main_v38 : Ref sig .tc := ⟨.hbm, 60, rfl⟩
abbrev main_c_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call2_v0 : Ref sig .tc := ⟨.hbm, 91, rfl⟩
abbrev main_call2_cst : Ref sig .tc := ⟨.hbm, 92, rfl⟩
abbrev main_call2_v1 : Ref sig .tc := ⟨.hbm, 93, rfl⟩
abbrev main_call2_v2 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_call3_cst : Ref sig .tc := ⟨.hbm, 101, rfl⟩
abbrev main_call3_v0 : Ref sig .tc := ⟨.hbm, 102, rfl⟩
abbrev main_call3_cst_0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_v6 : Ref sig .tc := ⟨.hbm, 109, rfl⟩
abbrev main_call3_cst_1 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_v69 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel program's run with its RESULT kept.

  The program is four segments: a stretch of host operations, the first kernel region, a second stretch of host
  operations, the second kernel region.  Its frame certificate follows the contents of every buffer through the four
  segments — after the first stretch, after the first region (each of its arrays at what the region's write-backs
  leave, every other buffer untouched), after the second stretch, after the second region — and then keeps, of the
  last contents, only that the argument arrays are as launched.  Here the same launch is stated with one more fact
  kept: the result array ends at the last contents read at its buffer, that is at what the second region's
  write-backs leave of its output window.
-/
import proofs.«159132_j75479755259981_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the contents
    after the last segment read at its buffer, and the argument arrays end as launched. -/
theorem run_main : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Whole

end
-- ==== Proof.KernelHost.lean ====
/-
  The host side of the idealized kernel program: what its two stretches of host operations leave in the buffers
  the two kernel regions read.

  The first stretch splits the edge list into its source and destination rows, counts per node the edges that
  arrive (ones added through the destination column into zeros), clamps the count below by one and takes its
  reciprocal as a column; gathers the source node's feature row for every edge and adds it into the destination
  node's row (the first aggregate); and lays the first layer's weights out input-major and its bias as a row.
  The second stretch projects the hidden features through the second layer's first weight table, gathers the
  projected row of every edge's source and adds it into the destination's row (the second aggregate, already of
  the output width), and lays out the second layer's second table and bias.  Format changes between single and
  half-width floats are written where the program has them; over the extended reals they are the identity.
-/
import proofs.«159132_j75479755259981_2_alg».proof.Proof.Gen.KernelIdeal.Launch
import Idealize.ShloMosaic.Lib.StableHlo.Run
import Idealize.ShloMosaic.PureOps.Ideal
import Idealize.ShloMosaic.PureOps.Ideal.Laws

noncomputable section

namespace Cert.KernelIdeal.HostSide

open Idealize.ShloMosaic Idealize.ShloMosaic.TcCoe Idealize.ShloMosaic.StableHlo
open Cert.KernelIdeal Cert.KernelIdeal.Facts₀

/-- An integer array of a shape, at the extended-real instance. -/
abbrev IArr (S : Shape) := (⟨S, .i32⟩ : BufTy).Contents (Elt Ideal)
/-- A float array of a shape: its entries are extended reals. -/
abbrev FArr (S : Shape) := (⟨S, .f32⟩ : BufTy).Contents (Elt Ideal)

/-- Row `r` of the edge list as a vector of node numbers. -/
def edgeRow (r : Fin 2) (e : IArr S2x1600000) : IArr S1600000 :=
  match r with
  | 0 => shapeCast S1600000 (extractStridedSlice S1x1600000 ![0, 0] e slices_S2x1600000_S1x1600000_0_0) shapeCasts_S1x1600000_S1600000
  | 1 => shapeCast S1600000 (extractStridedSlice S1x1600000 ![1, 0] e slices_S2x1600000_S1x1600000_1_0) shapeCasts_S1x1600000_S1600000

/-- The source column a gather reads: a negative node number is first moved up by the number of nodes. -/
def srcCol (s : IArr S1600000) : IArr S1600000x1 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The destination column a scatter adds through. -/
def dstCol (d : IArr S1600000) : IArr S1600000x1 :=
  broadcastInDim S1600000x1 ![0] bcast_S1600000_S1600000x1_0 d

/-- Per node, the number of edges that arrive, clamped below by one. -/
def clampedCount (d : IArr S1600000) : FArr S100000 :=
  maximumf
    (Host.scatterAdd (F := Ideal) scatter_S100000_S1600000x1_S1600000_n_0_0_1
      (broadcastInDim S100000 ![] bcast_S_S100000 (constant (F := Ideal) S_ .f32 0x00000000#32)) (dstCol d)
      (broadcastInDim S1600000 ![] bcast_S_S1600000 (constant (F := Ideal) S_ .f32 0x3F800000#32)))
    (broadcastInDim S100000 ![] bcast_S_S100000 (constant (F := Ideal) S_ .f32 0x3F800000#32))

/-- The reciprocal of the clamped count, as a column. -/
def recipCol (d : IArr S1600000) : FArr S100000x1 :=
  shapeCast S100000x1
    (Host.divf (F := Ideal) (broadcastInDim S100000 ![] bcast_S_S100000 (constant (F := Ideal) S_ .f32 0x3F800000#32)) (clampedCount d))
    shapeCasts_S100000_S100000x1

/-- The first aggregate: every edge's source feature row added into the destination's row. -/
def aggregate1 (x : FArr S100000x128) (s d : IArr S1600000) : FArr S100000x128 :=
  Host.scatterAdd (F := Ideal) scatter_S100000x128_S1600000x1_S1600000x128_1_0_0_1
    (broadcastInDim S100000x128 ![] bcast_S_S100000x128 (constant (F := Ideal) S_ .f32 0x00000000#32)) (dstCol d)
    (extf (F := Ideal) .f32
      (Host.gather gather_S100000x128_S1600000x1_S1600000x128_1_0_n_n_0_1_1128 (truncf (F := Ideal) .bf16 x bitsLt_bf16_f32) (srcCol s))
      bitsLt_bf16_f32)

/-- A first-layer weight table laid out input-major. -/
def table128 (w : FArr S128x128) : FArr S128x128 := transpose S128x128 [1, 0] w transposes_S128x128_S128x128_1_0

/-- A second-layer weight table laid out input-major. -/
def table40 (w : FArr S40x128) : FArr S128x40 := transpose S128x40 [1, 0] w transposes_S40x128_S128x40_1_0

/-- The first layer's bias as a row. -/
def biasRow128 (b : FArr S128) : FArr S1x128 := shapeCast S1x128 b shapeCasts_S128_S1x128

/-- The second layer's bias as a row. -/
def biasRow40 (b : FArr S40) : FArr S1x40 := shapeCast S1x40 b shapeCasts_S40_S1x40

/-- The hidden features projected through the second layer's first weight table. -/
def projected (h : FArr S100000x128) (w : FArr S40x128) : FArr S100000x40 :=
  Host.dotGeneral (F := Ideal) (φ₁ := .f32) (φ₂ := .f32) dot_S100000x128_S128x40_S100000x40_1_0_0_1_n_n none h (table40 w)

/-- The second aggregate: every edge's projected source row added into the destination's row. -/
def aggregate2 (h : FArr S100000x128) (w : FArr S40x128) (s d : IArr S1600000) : FArr S100000x40 :=
  Host.scatterAdd (F := Ideal) scatter_S100000x40_S1600000x1_S1600000x40_1_0_0_1
    (broadcastInDim S100000x40 ![] bcast_S_S100000x40 (constant (F := Ideal) S_ .f32 0x00000000#32)) (dstCol d)
    (extf (F := Ideal) .f32
      (Host.gather gather_S100000x40_S1600000x1_S1600000x40_1_0_n_n_0_1_140 (truncf (F := Ideal) .bf16 (projected h w) bitsLt_bf16_f32) (srcCol s))
      bitsLt_bf16_f32)

variable (W : Valuation τ sig (Elt Ideal))

/-! ## The first stretch -/

/-- After the first stretch: the source row of the edge list. -/
theorem first_v1 : (after (Gen.hostOps0 (F := Ideal)) W (Proc.devRef .tc main_v1) : IArr S1600000) = edgeRow 0 (W (Proc.devRef .tc main_arg1)) := by
  dsimp only [Gen.hostOps0]; after_results; rfl

/-- After the first stretch: the destination row of the edge list. -/
theorem first_v3 : (after (Gen.hostOps0 (F := Ideal)) W (Proc.devRef .tc main_v3) : IArr S1600000) = edgeRow 1 (W (Proc.devRef .tc main_arg1)) := by
  dsimp only [Gen.hostOps0]; after_results; rfl

/-- After the first stretch: the reciprocal clamped count, as a column. -/
theorem first_v12 : (after (Gen.hostOps0 (F := Ideal)) W (Proc.devRef .tc main_v12) : FArr S100000x1) = recipCol (edgeRow 1 (W (Proc.devRef .tc main_arg1))) := by
  dsimp only [Gen.hostOps0]; after_results; rfl

/-- After the first stretch: the first aggregate. -/
theorem first_v24 : (after (Gen.hostOps0 (F := Ideal)) W (Proc.devRef .tc main_v24) : FArr S100000x128)
    = aggregate1 (W (Proc.devRef .tc main_arg0)) (edgeRow 0 (W (Proc.devRef .tc main_arg1))) (edgeRow 1 (W (Proc.devRef .tc main_arg1))) := by
  dsimp only [Gen.hostOps0]; after_results_simp; rfl

/-- After the first stretch: the first layer's first weight table, input-major. -/
theorem first_v25 : (after (Gen.hostOps0 (F := Ideal)) W (Proc.devRef .tc main_v25) : FArr S128x128)
    = table128 (W (Proc.devRef .tc main_arg2)) := by
  dsimp only [Gen.hostOps0]; after_results <;> rfl

/-- After the first stretch: the first layer's bias as a row. -/
theorem first_v26 : (after (Gen.hostOps0 (F := Ideal)) W (Proc.devRef .tc main_v26) : FArr S1x128)
    = biasRow128 (W (Proc.devRef .tc main_arg3)) := by
  dsimp only [Gen.hostOps0]; after_results <;> rfl

/-- After the first stretch: the first layer's second weight table, input-major. -/
theorem first_v27 : (after (Gen.hostOps0 (F := Ideal)) W (Proc.devRef .tc main_v27) : FArr S128x128)
    = table128 (W (Proc.devRef .tc main_arg4)) := by
  dsimp only [Gen.hostOps0]; after_results <;> rfl

/-- The first stretch leaves the feature array as it was. -/
theorem first_arg0 : after (Gen.hostOps0 (F := Ideal)) W (Proc.devRef .tc main_arg0) = W (Proc.devRef .tc main_arg0) := by
  dsimp only [Gen.hostOps0]; after_results

/-- The first stretch leaves the second layer's weights and bias as they were. -/
theorem first_arg5 : after (Gen.hostOps0 (F := Ideal)) W (Proc.devRef .tc main_arg5) = W (Proc.devRef .tc main_arg5) := by
  dsimp only [Gen.hostOps0]; after_results
theorem first_arg6 : after (Gen.hostOps0 (F := Ideal)) W (Proc.devRef .tc main_arg6) = W (Proc.devRef .tc main_arg6) := by
  dsimp only [Gen.hostOps0]; after_results
theorem first_arg7 : after (Gen.hostOps0 (F := Ideal)) W (Proc.devRef .tc main_arg7) = W (Proc.devRef .tc main_arg7) := by
  dsimp only [Gen.hostOps0]; after_results

/-! ## The second stretch -/

/-- After the second stretch: the second aggregate, of the hidden features and index rows the stretch finds. -/
theorem second_v42 : (after (Gen.hostOps1 (F := Ideal)) W (Proc.devRef .tc main_v42) : FArr S100000x40)
    = aggregate2 (W (Proc.devRef .tc main_v28)) (W (Proc.devRef .tc main_arg5)) (W (Proc.devRef .tc main_v1)) (W (Proc.devRef .tc main_v3)) := by
  dsimp only [Gen.hostOps1]; after_results_simp; rfl

/-- After the second stretch: the second layer's bias as a row. -/
theorem second_v43 : (after (Gen.hostOps1 (F := Ideal)) W (Proc.devRef .tc main_v43) : FArr S1x40)
    = biasRow40 (W (Proc.devRef .tc main_arg6)) := by
  dsimp only [Gen.hostOps1]; after_results <;> rfl

/-- After the second stretch: the second layer's second weight table, input-major. -/
theorem second_v44 : (after (Gen.hostOps1 (F := Ideal)) W (Proc.devRef .tc main_v44) : FArr S128x40)
    = table40 (W (Proc.devRef .tc main_arg7)) := by
  dsimp only [Gen.hostOps1]; after_results <;> rfl

/-- The second stretch leaves the hidden features as it finds them. -/
theorem second_v28 : after (Gen.hostOps1 (F := Ideal)) W (Proc.devRef .tc main_v28) = W (Proc.devRef .tc main_v28) := by
  dsimp only [Gen.hostOps1]; after_results

/-- The second stretch leaves the reciprocal count column as it finds it. -/
theorem second_v12 : after (Gen.hostOps1 (F := Ideal)) W (Proc.devRef .tc main_v12) = W (Proc.devRef .tc main_v12) := by
  dsimp only [Gen.hostOps1]; after_results

end Cert.KernelIdeal.HostSide

end
-- ==== Proof.Spec.lean ====
/-
  Two layers of mean-aggregating graph convolution, row by row, over the extended reals.

  A node's row is computed from four things: the node's aggregate (the sum of the rows of the nodes that send it a
  message), its count of incoming messages clamped below by one, the node's own row, and the layer's two weight
  tables and bias.  The affine part is
        (aggregate / count) · Wl + b + own · Wr ,
  the row is then divided by its Euclidean length (clamped below by a tiny positive constant), and the first layer
  ends in a maximum with zero, the second in a log-softmax.

  The two programs arrange the affine part differently.  One DIVIDES the aggregate by the count and adds the bias
  before the own-row product; the other MULTIPLIES by the reciprocal of the count and adds the bias last; and in
  the second layer it multiplies the weight table into every message BEFORE aggregating, so that what it scales by
  the reciprocal count is already a row of the output width.  Both arrangements are written here; that they agree
  is the algebra of the companion module.

  Weight tables are indexed input-major: `W k j` is the weight from input coordinate `k` to output coordinate `j`.
-/
import Idealize.ShloMosaic.PureOps.Ideal
import Idealize.ShloMosaic.Lib.ValueIdx

noncomputable section

namespace Cert.Sage

open Idealize.ShloMosaic

/-- The lower clamp of a row's length: the single-precision word nearest to 1e-12, read exactly. -/
def eps : EReal := Ideal.ofBits .f32 0x2B8CBCCC#32

/-- The value a row maximum is folded from: the single-precision word of minus infinity. -/
def negInf : EReal := Ideal.ofBits .f32 0xFF800000#32

/-- A row against a weight table: `∑ k, a k * W k j`. -/
def proj {K J : ℕ} (a : Fin K → EReal) (W : Fin K → Fin J → EReal) (j : Fin J) : EReal :=
  ∑ k : Fin K, a k * W k j

/-- A row divided by its clamped Euclidean length. -/
def unitRow {J : ℕ} (v : Fin J → EReal) (j : Fin J) : EReal :=
  Ideal.div (v j) (max (Ideal.sqrt (∑ i : Fin J, v i * v i)) eps)

/-- The maximum of a row, folded from minus infinity. -/
def rowMax {J : ℕ} (z : Fin J → EReal) : EReal :=
  (Finset.univ : Finset (Fin J)).fold max negInf z

/-- The log-softmax of a row: shift by the maximum, subtract the logarithm of the sum of exponentials. -/
def logSoftmaxRow {J : ℕ} (z : Fin J → EReal) (j : Fin J) : EReal :=
  (z j - rowMax z) - Ideal.log (∑ i : Fin J, Ideal.exp (z i - rowMax z))

/-- The affine part with the aggregate DIVIDED by the count `c`, bias before the own-row product. -/
def affineDiv {K J : ℕ} (a x : Fin K → EReal) (c : EReal) (Wl Wr : Fin K → Fin J → EReal) (b : Fin J → EReal)
    (j : Fin J) : EReal :=
  (proj (fun k => Ideal.div (a k) c) Wl j + b j) + proj x Wr j

/-- The affine part with the aggregate MULTIPLIED by the reciprocal count `ci`, bias last. -/
def affineMul {K J : ℕ} (a x : Fin K → EReal) (ci : EReal) (Wl Wr : Fin K → Fin J → EReal) (b : Fin J → EReal)
    (j : Fin J) : EReal :=
  (proj (fun k => a k * ci) Wl j + proj x Wr j) + b j

/-- The affine part from an aggregate `ap` of ALREADY PROJECTED messages, scaled by the reciprocal count. -/
def affinePre {K J : ℕ} (ap : Fin J → EReal) (x : Fin K → EReal) (ci : EReal) (Wr : Fin K → Fin J → EReal)
    (b : Fin J → EReal) (j : Fin J) : EReal :=
  (ap j * ci + b j) + proj x Wr j

/-- First layer, dividing arrangement: unit row, then the maximum with zero. -/
def hiddenDiv {K J : ℕ} (a x : Fin K → EReal) (c : EReal) (Wl Wr : Fin K → Fin J → EReal) (b : Fin J → EReal)
    (j : Fin J) : EReal :=
  max (unitRow (affineDiv a x c Wl Wr b) j) 0

/-- First layer, multiplying arrangement. -/
def hiddenMul {K J : ℕ} (a x : Fin K → EReal) (ci : EReal) (Wl Wr : Fin K → Fin J → EReal) (b : Fin J → EReal)
    (j : Fin J) : EReal :=
  max (unitRow (affineMul a x ci Wl Wr b) j) 0

/-- Second layer, dividing arrangement: unit row, then log-softmax. -/
def outDiv {K J : ℕ} (a x : Fin K → EReal) (c : EReal) (Wl Wr : Fin K → Fin J → EReal) (b : Fin J → EReal)
    (j : Fin J) : EReal :=
  logSoftmaxRow (unitRow (affineDiv a x c Wl Wr b)) j

/-- Second layer from pre-projected messages. -/
def outPre {K J : ℕ} (ap : Fin J → EReal) (x : Fin K → EReal) (ci : EReal) (Wr : Fin K → Fin J → EReal)
    (b : Fin J → EReal) (j : Fin J) : EReal :=
  logSoftmaxRow (unitRow (affinePre ap x ci Wr b)) j

end Cert.Sage

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.Region0Row.lean ====
/-
  One row of the first layer, as the on-chip body computes it on a block of 5000 rows.

  The body takes six blocks: the aggregate rows `A` and the own rows `X` (each 5000 × 128), the column `r` of
  reciprocal counts (5000 × 1), the two weight tables `Wl`, `Wr` (128 × 128, input-major) and the bias row `b`
  (1 × 128). Over the extended reals the changes of float format are the identity and a product accumulated into a
  zero splat is a plain sum over the 128 contracted coordinates, so entry (p, d) of the affine part is

        (∑ k, (A p k · r p) · Wl k d  +  ∑ k, X p k · Wr k d)  +  b d ,

  which depends on the blocks only through row p of `A`, row p of `X`, entry p of `r`, and the shared tables and
  bias. The body then sums the squares along each row (a sum over the 128 lanes), keeps the sum as a column, takes
  its square root, clamps it below by the small positive constant, spreads the column back along the row, divides,
  and takes the maximum with zero. Entry (p, j) of the result is therefore the multiplying arrangement of the first
  layer (`Cert.Sage.hiddenMul`) of those row data, at coordinate j.

  The body's term is cut in two here: the affine block, and the unit-length-and-maximum tail over ANY block; the
  body's payload is the tail of the affine block by unfolding.
-/
import proofs.«159132_j75479755259981_2_alg».proof.Proof.Gen.KernelIdeal.Skeleton
import proofs.«159132_j75479755259981_2_alg».proof.Proof.Spec
import proofs.«159132_j75479755259981_2_alg».proof.Proof.LibPlainDot
import proofs.«159132_j75479755259981_2_alg».proof.Proof.LibLaneSum
import proofs.«159132_j75479755259981_2_alg».proof.Proof.LibColumn
import Idealize.ShloMosaic.Lib.ValueLayout
import Idealize.ShloMosaic.Lib.Pipeline.Value
import Idealize.ShloMosaic.PureOps.Ideal.Laws

noncomputable section

namespace Cert.KernelIdeal.Layer1

open Idealize.ShloMosaic Idealize.ShloMosaic.ValueIdx Cert.KernelIdeal Cert.KernelIdeal.Gen

/-! ## The affine block -/

/-- The aggregate block scaled row by row by the reciprocal counts and multiplied into the first weight table:
    entry (p, d) is `∑ k, (A p k · r p) · Wl k d`. -/
theorem scaledProduct_apply (A : FVec Ideal S5000x128 .f32) (r : FVec Ideal S5000x1 .f32) (Wl : FVec Ideal S128x128 .f32)
    (p : Fin 5000) (d : Fin 128) :
    matmul (F := Ideal) dot_S5000x128_S128x128_S5000x128_1_0_0_1_n_n none
        (truncf .bf16 (mulf (shapeCast S5000x128 A shapeCasts_S5000x128_S5000x128)
          (broadcastTo S5000x128 (shapeCast S5000x1 r shapeCasts_S5000x1_S5000x1) broadcasts_S5000x1_S5000x128)) bitsLt_bf16_f32)
        (truncf .bf16 (shapeCast S128x128 Wl shapeCasts_S128x128_S128x128) bitsLt_bf16_f32)
        (constant (F := Ideal) S5000x128 .f32 0x00000000#32) (ix2 p d)
      = ∑ k : Fin 128, (A (ix2 p k) * r (ix2 p (0 : Fin 1))) * Wl (ix2 k d) := by
  refine (Cert.PlainDot.matmul_zero_apply (M := 5000) (K := 128) (N := 128) dot_S5000x128_S128x128_S5000x128_1_0_0_1_n_n rfl none _ _ p d).trans ?_
  refine Finset.sum_congr rfl fun k _ => ?_
  rw [truncf_apply, truncf_apply, mulf_apply, shapeCast_self, shapeCast_self, shapeCast_self,
    Cert.GraphConv.Column.broadcastTo_a1_ab_apply]

/-- The own-row block multiplied into the second weight table: entry (p, d) is `∑ k, X p k · Wr k d`. -/
theorem ownProduct_apply (X : FVec Ideal S5000x128 .f32) (Wr : FVec Ideal S128x128 .f32) (p : Fin 5000) (d : Fin 128) :
    matmul (F := Ideal) dot_S5000x128_S128x128_S5000x128_1_0_0_1_n_n none
        (truncf .bf16 X bitsLt_bf16_f32)
        (truncf .bf16 (shapeCast S128x128 Wr shapeCasts_S128x128_S128x128) bitsLt_bf16_f32)
        (constant (F := Ideal) S5000x128 .f32 0x00000000#32) (ix2 p d)
      = ∑ k : Fin 128, X (ix2 p k) * Wr (ix2 k d) := by
  refine (Cert.PlainDot.matmul_zero_apply (M := 5000) (K := 128) (N := 128) dot_S5000x128_S128x128_S5000x128_1_0_0_1_n_n rfl none _ _ p d).trans ?_
  refine Finset.sum_congr rfl fun k _ => ?_
  rw [truncf_apply, truncf_apply, shapeCast_self]

/-- The bias row laid down the 5000 rows: entry (p, d) is `b d`. -/
theorem biasRows_apply (b : FVec Ideal S1x128 .f32) (p : Fin 5000) (d : Fin 128) :
    broadcastTo S5000x128 (shapeCast S1x128 b shapeCasts_S1x128_S1x128) broadcasts_S1x128_S5000x128 (ix2 p d)
      = b (ix2 (0 : Fin 1) d) := by
  rw [broadcastTo_1b_ab_apply, shapeCast_self]

/-- The affine part of the body, as a block: the two products added, then the bias. -/
def affineBlock (A : Vec Ideal S5000x128 .f32) (r : Vec Ideal S5000x1 .f32) (X : Vec Ideal S5000x128 .f32)
    (Wl Wr : Vec Ideal S128x128 .f32) (b : Vec Ideal S1x128 .f32) : FVec Ideal S5000x128 .f32 :=
  addf (addf
      (matmul dot_S5000x128_S128x128_S5000x128_1_0_0_1_n_n none
        (truncf .bf16 (mulf (shapeCast S5000x128 A shapeCasts_S5000x128_S5000x128)
          (broadcastTo S5000x128 (shapeCast S5000x1 r shapeCasts_S5000x1_S5000x1) broadcasts_S5000x1_S5000x128)) bitsLt_bf16_f32)
        (truncf .bf16 (shapeCast S128x128 Wl shapeCasts_S128x128_S128x128) bitsLt_bf16_f32)
        (constant S5000x128 .f32 0x00000000#32))
      (matmul dot_S5000x128_S128x128_S5000x128_1_0_0_1_n_n none
        (truncf .bf16 X bitsLt_bf16_f32)
        (truncf .bf16 (shapeCast S128x128 Wr shapeCasts_S128x128_S128x128) bitsLt_bf16_f32)
        (constant S5000x128 .f32 0x00000000#32)))
    (broadcastTo S5000x128 (shapeCast S1x128 b shapeCasts_S1x128_S1x128) broadcasts_S1x128_S5000x128)

/-- Entry (p, d) of the affine block is the multiplying arrangement's affine part of row p's data, at d. -/
theorem affineBlock_apply (A : Vec Ideal S5000x128 .f32) (r : Vec Ideal S5000x1 .f32) (X : Vec Ideal S5000x128 .f32)
    (Wl Wr : Vec Ideal S128x128 .f32) (b : Vec Ideal S1x128 .f32) (p : Fin 5000) (d : Fin 128) :
    affineBlock A r X Wl Wr b (ix2 p d)
      = Cert.Sage.affineMul (fun k : Fin 128 => A (ix2 p k)) (fun k : Fin 128 => X (ix2 p k)) (r (ix2 p (0 : Fin 1)))
          (fun (k : Fin 128) (j' : Fin 128) => Wl (ix2 k j')) (fun (k : Fin 128) (j' : Fin 128) => Wr (ix2 k j'))
          (fun j' : Fin 128 => b (ix2 (0 : Fin 1) j')) d := by
  unfold affineBlock Cert.Sage.affineMul Cert.Sage.proj
  rw [addf_apply, addf_apply, scaledProduct_apply, ownProduct_apply, biasRows_apply]

/-! ## The unit-length-and-maximum tail -/

/-- The tail of the body over any block `v`: each row divided by its clamped Euclidean length, then the maximum with
    zero. -/
def unitReluBlock (v : FVec Ideal S5000x128 .f32) : FVec Ideal S5000x128 .f32 :=
  maximumf
    (divf v
      (broadcastTo S5000x128
        (maximumf
          (sqrt (shapeCast S5000x1
            (multiReduction .add [1] S5000 (mulf v v) 0x00000000#32 reduces_S5000x128_S5000 (.inl rfl) rfl)
            shapeCasts_S5000_S5000x1))
          (broadcast S5000x1 (Scalar.ofBits .f32 0x2B8CBCCC#32)))
        broadcasts_S5000x1_S5000x128))
    (broadcast S5000x128 (Scalar.ofBits .f32 0x00000000#32))

/-- The clamped length of row p, kept as a column: the square root of the sum of the row's squares, clamped below. -/
theorem clampedLength_apply (v : FVec Ideal S5000x128 .f32) (p : Fin 5000) :
    maximumf
        (sqrt (shapeCast S5000x1
          (multiReduction (F := Ideal) .add [1] S5000 (mulf v v) 0x00000000#32 reduces_S5000x128_S5000 (.inl rfl) rfl)
          shapeCasts_S5000_S5000x1))
        (broadcast S5000x1 (Scalar.ofBits (F := Ideal) .f32 0x2B8CBCCC#32)) (ix2 p (0 : Fin 1))
      = max (Ideal.sqrt (∑ i : Fin 128, v (ix2 p i) * v (ix2 p i))) Cert.Sage.eps := by
  show max (Ideal.sqrt (shapeCast S5000x1 _ shapeCasts_S5000_S5000x1 (ix2 p (0 : Fin 1)))) (Ideal.ofBits .f32 0x2B8CBCCC#32) = _
  rw [Cert.GraphConv.Column.shapeCast_a_a1_apply]
  refine congrArg (fun s => max (Ideal.sqrt s) Cert.Sage.eps) ?_
  exact Cert.LaneSum.sum_last2 (mulf v v) 0x00000000#32 reduces_S5000x128_S5000 (.inl rfl) rfl p

/-- Entry (p, j) of the tail is the unit row of row p of `v` at j, against zero. -/
theorem unitReluBlock_apply (v : FVec Ideal S5000x128 .f32) (p : Fin 5000) (j : Fin 128) :
    unitReluBlock v (ix2 p j) = max (Cert.Sage.unitRow (fun d : Fin 128 => v (ix2 p d)) j) 0 := by
  unfold unitReluBlock Cert.Sage.unitRow
  rw [maximumf_apply, divf_apply, Cert.GraphConv.Column.broadcastTo_a1_ab_apply, clampedLength_apply, broadcast_apply]
  show max _ (Ideal.ofBits .f32 0x00000000#32) = _
  rw [Ideal.ofBits_zero_f32]

/-! ## The body's payload -/

/-- The body's payload is the tail of the affine block: the printed term, its intermediate values substituted. -/
theorem payload_eq (A : Vec Ideal S5000x128 .f32) (r : Vec Ideal S5000x1 .f32) (X : Vec Ideal S5000x128 .f32)
    (Wl Wr : Vec Ideal S128x128 .f32) (b : Vec Ideal S1x128 .f32) :
    k0_pay1 (F := Ideal) A r X Wl Wr b = unitReluBlock (affineBlock A r X Wl Wr b) := rfl

/-- THE BODY ON ONE ROW: entry (p, j) of the body's result on the six blocks is the first layer, multiplying
    arrangement, of row p of the aggregate block, row p of the own block, entry p of the reciprocal-count column, the
    two weight tables and the bias row, at coordinate j. -/
theorem payload_apply (A : Vec Ideal S5000x128 .f32) (r : Vec Ideal S5000x1 .f32) (X : Vec Ideal S5000x128 .f32)
    (Wl Wr : Vec Ideal S128x128 .f32) (b : Vec Ideal S1x128 .f32) (p : Fin 5000) (j : Fin 128) :
    k0_pay1 (F := Ideal) A r X Wl Wr b (ix2 p j)
      = Cert.Sage.hiddenMul (fun k : Fin 128 => A (ix2 p k)) (fun k : Fin 128 => X (ix2 p k)) (r (ix2 p (0 : Fin 1)))
          (fun (k : Fin 128) (j' : Fin 128) => Wl (ix2 k j')) (fun (k : Fin 128) (j' : Fin 128) => Wr (ix2 k j'))
          (fun j' : Fin 128 => b (ix2 (0 : Fin 1) j')) j := by
  rw [payload_eq, unitReluBlock_apply]
  unfold Cert.Sage.hiddenMul
  refine congrArg (fun f : Fin 128 → EReal => max (Cert.Sage.unitRow f j) 0) ?_
  exact funext fun d => affineBlock_apply A r X Wl Wr b p d

/-- The same with the row data NAMED: whatever the six blocks are known to hold on row p (and the shared tables
    everywhere), the body's entry (p, j) is the first layer of those data. -/
theorem payload_apply_of_rows (A : Vec Ideal S5000x128 .f32) (r : Vec Ideal S5000x1 .f32) (X : Vec Ideal S5000x128 .f32)
    (Wl Wr : Vec Ideal S128x128 .f32) (b : Vec Ideal S1x128 .f32) (p : Fin 5000) (j : Fin 128)
    (a x : Fin 128 → EReal) (ci : EReal) (wl wr : Fin 128 → Fin 128 → EReal) (bb : Fin 128 → EReal)
    (hA : ∀ k : Fin 128, A (ix2 p k) = a k) (hX : ∀ k : Fin 128, X (ix2 p k) = x k) (hr : r (ix2 p (0 : Fin 1)) = ci)
    (hWl : ∀ (k : Fin 128) (j' : Fin 128), Wl (ix2 k j') = wl k j') (hWr : ∀ (k : Fin 128) (j' : Fin 128), Wr (ix2 k j') = wr k j')
    (hb : ∀ j' : Fin 128, b (ix2 (0 : Fin 1) j') = bb j') :
    k0_pay1 (F := Ideal) A r X Wl Wr b (ix2 p j) = Cert.Sage.hiddenMul a x ci wl wr bb j := by
  obtain rfl : (fun k : Fin 128 => A (ix2 p k)) = a := funext hA
  obtain rfl : (fun k : Fin 128 => X (ix2 p k)) = x := funext hX
  subst hr
  obtain rfl : (fun (k : Fin 128) (j' : Fin 128) => Wl (ix2 k j')) = wl := funext fun k => funext fun j' => hWl k j'
  obtain rfl : (fun (k : Fin 128) (j' : Fin 128) => Wr (ix2 k j')) = wr := funext fun k => funext fun j' => hWr k j'
  obtain rfl : (fun j' : Fin 128 => b (ix2 (0 : Fin 1) j')) = bb := funext hb
  exact payload_apply A r X Wl Wr b p j

end Cert.KernelIdeal.Layer1

end
-- ==== Proof.Region0.lean ====
/-
  The first layer's output array, row by row.

  The first region runs the on-chip body on 20 grid points. Point t stages rows 5000·t … 5000·t + 4999 of the
  aggregate array, of the own-feature array and of the reciprocal-count column, and the whole of the two weight
  tables and of the bias row, and writes the body's 5000 × 128 result back to rows 5000·t … 5000·t + 4999 of the
  output array. Since row p of the body's result depends only on row p of the staged row blocks (and on the shared
  tables), row 5000·t + p of the output is the first layer of row 5000·t + p of the inputs: what point t writes
  back is its block of ONE function of the arrays as the region finds them. The 20 blocks tile the 100000 rows
  (row n lies in the block of point n / 5000), so after the region the whole output array is that function.
-/
import proofs.«159132_j75479755259981_2_alg».proof.Proof.Gen.KernelIdeal.Frame
import proofs.«159132_j75479755259981_2_alg».proof.Proof.Region0Row
import Idealize.ShloMosaic.Lib.Pipeline.Value

noncomputable section

namespace Cert.KernelIdeal.Layer1

open Idealize.ShloMosaic Idealize.ShloMosaic.ValueIdx Idealize.ShloMosaic.TcCoe Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- Row n of the first layer, multiplying arrangement, of the arrays as the region finds them, at coordinate j. -/
def hiddenRow (c : Dev nD) (n : Fin 100000) (j : Fin 128) : EReal :=
  Cert.Sage.hiddenMul (fun k : Fin 128 => V c main_v24 (ix2 n k)) (fun k : Fin 128 => V c main_arg0 (ix2 n k))
    (V c main_v12 (ix2 n (0 : Fin 1)))
    (fun (k : Fin 128) (j' : Fin 128) => V c main_v25 (ix2 k j')) (fun (k : Fin 128) (j' : Fin 128) => V c main_v27 (ix2 k j'))
    (fun j' : Fin 128 => V c main_v26 (ix2 (0 : Fin 1) j')) j

/-- The whole output array as one function of its index. -/
def hiddenArray (c : Dev nD) : S100000x128.Idx → EReal := fun i => hiddenRow V c (i 0) (i 1)

/-- The block index of every window at every grid point: the three row-blocked inputs and the output sit at block
    (t, 0), the tables and the bias at block (0, 0). Decided over the 20 points. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The zero offsets of a whole-block access, spelt as the constant function. -/
theorem zeroOffsets : (![0, 0] : Fin 2 → Nat) = fun _ => 0 := funext fun a => by fin_cases a <;> rfl

/-! ## Each staged block, read where the grid point's block lies in its array -/

/-- Row p of the aggregate block at point t is row 5000·t + p of the aggregate array. -/
theorem aggBlock_apply (c : Dev nD) (t : Fin cfg0.N) (p : Fin 5000) (k : Fin 128) (n : Fin 100000)
    (hn : n.val = t.val * 5000 + p.val) :
    (iblk0 V c 0 t : Vec Ideal S5000x128 .f32) (ix2 p k) = V c main_v24 (ix2 n k) := by
  obtain ⟨e0, e1, -⟩ := index_facts t
  unfold iblk0
  rw [View.read_apply]
  show V c main_v24 _ = V c main_v24 _
  refine congrArg (V c main_v24) (funext fun a => Fin.ext ?_)
  match a with
  | ⟨0, _⟩ => show win0_0.index t (0 : Fin 2) * 5000 + 1 * p.val = n.val; rw [e0, hn]; omega
  | ⟨1, _⟩ => show win0_0.index t (1 : Fin 2) * 128 + 1 * k.val = k.val; rw [e1]; omega

/-- Row p of the own-feature block at point t is row 5000·t + p of the own-feature array. -/
theorem ownBlock_apply (c : Dev nD) (t : Fin cfg0.N) (p : Fin 5000) (k : Fin 128) (n : Fin 100000)
    (hn : n.val = t.val * 5000 + p.val) :
    (iblk0 V c 1 t : Vec Ideal S5000x128 .f32) (ix2 p k) = V c main_arg0 (ix2 n k) := by
  obtain ⟨-, -, e0, e1, -⟩ := index_facts t
  unfold iblk0
  rw [View.read_apply]
  show V c main_arg0 _ = V c main_arg0 _
  refine congrArg (V c main_arg0) (funext fun a => Fin.ext ?_)
  match a with
  | ⟨0, _⟩ => show win0_1.index t (0 : Fin 2) * 5000 + 1 * p.val = n.val; rw [e0, hn]; omega
  | ⟨1, _⟩ => show win0_1.index t (1 : Fin 2) * 128 + 1 * k.val = k.val; rw [e1]; omega

/-- Entry p of the reciprocal-count column block at point t is entry 5000·t + p of the column. -/
theorem countBlock_apply (c : Dev nD) (t : Fin cfg0.N) (p : Fin 5000) (n : Fin 100000)
    (hn : n.val = t.val * 5000 + p.val) :
    (iblk0 V c 2 t : Vec Ideal S5000x1 .f32) (ix2 p (0 : Fin 1)) = V c main_v12 (ix2 n (0 : Fin 1)) := by
  obtain ⟨-, -, -, -, e0, e1, -⟩ := index_facts t
  unfold iblk0
  rw [View.read_apply]
  show V c main_v12 _ = V c main_v12 _
  refine congrArg (V c main_v12) (funext fun a => Fin.ext ?_)
  match a with
  | ⟨0, _⟩ => show win0_2.index t (0 : Fin 2) * 5000 + 1 * p.val = n.val; rw [e0, hn]; omega
  | ⟨1, _⟩ => show win0_2.index t (1 : Fin 2) * 1 + 1 * 0 = 0; rw [e1]

/-- The first weight table is staged whole at every point. -/
theorem leftTable_apply (c : Dev nD) (t : Fin cfg0.N) (k : Fin 128) (j' : Fin 128) :
    (iblk0 V c 3 t : Vec Ideal S128x128 .f32) (ix2 k j') = V c main_v25 (ix2 k j') := by
  obtain ⟨-, -, -, -, -, -, e0, e1, -⟩ := index_facts t
  unfold iblk0
  rw [View.read_apply]
  show V c main_v25 _ = V c main_v25 _
  refine congrArg (V c main_v25) (funext fun a => Fin.ext ?_)
  match a with
  | ⟨0, _⟩ => show win0_3.index t (0 : Fin 2) * 128 + 1 * k.val = k.val; rw [e0]; omega
  | ⟨1, _⟩ => show win0_3.index t (1 : Fin 2) * 128 + 1 * j'.val = j'.val; rw [e1]; omega

/-- The bias row is staged whole at every point. -/
theorem biasBlock_apply (c : Dev nD) (t : Fin cfg0.N) (j' : Fin 128) :
    (iblk0 V c 4 t : Vec Ideal S1x128 .f32) (ix2 (0 : Fin 1) j') = V c main_v26 (ix2 (0 : Fin 1) j') := by
  obtain ⟨-, -, -, -, -, -, -, -, e0, e1, -⟩ := index_facts t
  unfold iblk0
  rw [View.read_apply]
  show V c main_v26 _ = V c main_v26 _
  refine congrArg (V c main_v26) (funext fun a => Fin.ext ?_)
  match a with
  | ⟨0, _⟩ => show win0_4.index t (0 : Fin 2) * 1 + 1 * 0 = 0; rw [e0]
  | ⟨1, _⟩ => show win0_4.index t (1 : Fin 2) * 128 + 1 * j'.val = j'.val; rw [e1]; omega

/-- The second weight table is staged whole at every point. -/
theorem rightTable_apply (c : Dev nD) (t : Fin cfg0.N) (k : Fin 128) (j' : Fin 128) :
    (iblk0 V c 5 t : Vec Ideal S128x128 .f32) (ix2 k j') = V c main_v27 (ix2 k j') := by
  obtain ⟨-, -, -, -, -, -, -, -, -, -, e0, e1, -⟩ := index_facts t
  unfold iblk0
  rw [View.read_apply]
  show V c main_v27 _ = V c main_v27 _
  refine congrArg (V c main_v27) (funext fun a => Fin.ext ?_)
  match a with
  | ⟨0, _⟩ => show win0_5.index t (0 : Fin 2) * 128 + 1 * k.val = k.val; rw [e0]; omega
  | ⟨1, _⟩ => show win0_5.index t (1 : Fin 2) * 128 + 1 * j'.val = j'.val; rw [e1]; omega

/-- Entry (p, j) of the output's block at point t sits at row 5000·t + p, column j of the output array. -/
theorem outBlock_emb (t : Fin cfg0.N) (p : Fin 5000) (j : Fin 128) (n : Fin 100000)
    (hn : n.val = t.val * 5000 + p.val) :
    ((cfg0.win 6).blk t).view.emb (ix2 p j) = ix2 n j := by
  obtain ⟨-, -, -, -, -, -, -, -, -, -, -, -, e0, e1⟩ := index_facts t
  refine funext fun a => Fin.ext ?_
  match a with
  | ⟨0, _⟩ => show win0_6.index t (0 : Fin 2) * 5000 + 1 * p.val = n.val; rw [e0, hn]; omega
  | ⟨1, _⟩ => show win0_6.index t (1 : Fin 2) * 128 + 1 * j.val = j.val; rw [e1]; omega

/-! ## What a point writes back, and the whole array -/

/-- WHAT POINT t WRITES BACK is its block of the one function `hiddenArray`: the body's result on the staged blocks,
    read row by row. -/
theorem flushed_eq (c : Dev nD) (t : Fin cfg0.N) :
    (dat0 (F := Ideal) V c).flushed 6 t = ((cfg0.win 6).blk t).view.read (Elt Ideal) (hiddenArray V c) := by
  show (cfg0.win 6).cut (grid0.coords t) ((dat0 V c).after 6 t) = _
  rw [after0_6]
  unfold out0_6
  rw [View.canon_unit_zero zeroOffsets]
  simp only [View.ld_unit_zero (S := S5000x128) zeroOffsets, View.ld_unit_zero (S := S5000x1) zeroOffsets,
    View.ld_unit_zero (S := S128x128) zeroOffsets, View.ld_unit_zero (S := S1x128) zeroOffsets]
  funext y
  obtain ⟨p, j, rfl⟩ : ∃ (p : Fin 5000) (j : Fin 128), y = ix2 p j := ⟨y 0, y 1, eq_ix2 y⟩
  have ht : t.val < 20 := Nat.lt_of_lt_of_eq t.isLt N_0
  obtain ⟨n, hn⟩ : ∃ n : Fin 100000, n.val = t.val * 5000 + p.val := ⟨⟨t.val * 5000 + p.val, by omega⟩, rfl⟩
  rw [View.read_apply, outBlock_emb t p j n hn]
  show k0_pay1 (F := Ideal) (iblk0 V c 0 t) (iblk0 V c 2 t) (iblk0 V c 1 t) (iblk0 V c 3 t) (iblk0 V c 5 t) (iblk0 V c 4 t) (ix2 p j)
    = hiddenRow V c n j
  exact payload_apply_of_rows (iblk0 V c 0 t) (iblk0 V c 2 t) (iblk0 V c 1 t) (iblk0 V c 3 t) (iblk0 V c 5 t) (iblk0 V c 4 t) p j
    (fun k : Fin 128 => V c main_v24 (ix2 n k)) (fun k : Fin 128 => V c main_arg0 (ix2 n k)) (V c main_v12 (ix2 n (0 : Fin 1)))
    (fun (k : Fin 128) (j' : Fin 128) => V c main_v25 (ix2 k j')) (fun (k : Fin 128) (j' : Fin 128) => V c main_v27 (ix2 k j'))
    (fun j' : Fin 128 => V c main_v26 (ix2 (0 : Fin 1) j'))
    (fun k => aggBlock_apply V c t p k n hn) (fun k => ownBlock_apply V c t p k n hn) (countBlock_apply V c t p n hn)
    (fun k j' => leftTable_apply V c t k j') (fun k j' => rightTable_apply V c t k j') (fun j' => biasBlock_apply V c t j')

/-- An index of the output array is in point t's block iff each coordinate is in the block's range on its axis. -/
theorem mem_outBlock (t : Fin cfg0.N) (i : S100000x128.Idx) :
    i ∈ ((cfg0.win 6).blk t).view.set
      ↔ ∀ a : Fin 2, win0_6.index t a * S5000x128.size a ≤ (i a).val ∧ (i a).val < win0_6.index t a * S5000x128.size a + S5000x128.size a := by
  show i ∈ ((View.whole main_v28).slice (win0_6.rect t)).set ↔ _
  rw [View.set_slice_whole, Rect.mem_set_unit]
  exact Iff.rfl

/-- Every index of the output array lies in some point's block: row n in the block of point n / 5000. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have htv : t.val = (i 0).val / 5000 := rfl
  obtain ⟨-, -, -, -, -, -, -, -, -, -, -, -, e0, e1⟩ := index_facts t
  refine ⟨t, flush0_6 t, ?_⟩
  rw [mem_outBlock]
  intro a
  match a with
  | ⟨0, _⟩ =>
    show win0_6.index t (0 : Fin 2) * 5000 ≤ (i 0).val ∧ (i 0).val < win0_6.index t (0 : Fin 2) * 5000 + 5000
    rw [e0, htv]; omega
  | ⟨1, _⟩ =>
    show win0_6.index t (1 : Fin 2) * 128 ≤ (i 1).val ∧ (i 1).val < win0_6.index t (1 : Fin 2) * 128 + 128
    rw [e1]; omega

/-- THE OUTPUT ARRAY AFTER THE REGION is `hiddenArray` of the arrays as the region finds them. -/
theorem hidden_array (c : Dev nD) : (dat0 (F := Ideal) V c).arrAt 6 cfg0.N = hiddenArray V c :=
  (dat0 (F := Ideal) V c).arrAt_eq_of_cover 6 (hiddenArray V c) (fun t _ => flushed_eq V c t) covered

/-- ROW BY ROW: after the first region, entry (n, j) of the output array is the first layer, multiplying arrangement
    (the unit row of the affine part with the aggregate scaled by the reciprocal count and the bias last, against
    zero), of row n of the aggregate, row n of the own features, the reciprocal count of node n, the two weight tables
    and the bias row. -/
theorem hidden_value (c : Dev nD) (n : Fin 100000) (j : Fin 128) :
    (Gen.dat0 (F := Ideal) V c).arrAt 6 cfg0.N (ix2 n j)
      = Cert.Sage.hiddenMul (fun k : Fin 128 => V c main_v24 (ix2 n k)) (fun k : Fin 128 => V c main_arg0 (ix2 n k))
          (V c main_v12 (ix2 n (0 : Fin 1)))
          (fun (k : Fin 128) (j' : Fin 128) => V c main_v25 (ix2 k j')) (fun (k : Fin 128) (j' : Fin 128) => V c main_v27 (ix2 k j'))
          (fun j' : Fin 128 => V c main_v26 (ix2 (0 : Fin 1) j')) j := by
  rw [hidden_array V c]
  rfl

end Cert.KernelIdeal.Layer1

end
-- ==== Proof.Region1.lean ====
/-
  The second layer of the graph convolution, as the on-chip program computes it, read row by row.

  The program walks the hundred thousand nodes in twenty blocks of five thousand rows.  For one block it holds the
  block's rows of three arrays (the aggregate of already projected messages, forty wide; the hidden features, a
  hundred and twenty-eight wide; the reciprocal message counts, one wide) together with the whole weight table
  (a hundred and twenty-eight by forty, input-major) and the whole bias row, and it stores one block of forty-wide
  rows.

  The arithmetic of a block is three stages, each acting on every row by itself.
  * The affine part: row `p`, entry `j` is  aggregate(p, j) · reciprocal-count(p) + bias(j) + ∑ₖ hidden(p, k) · W(k, j).
    The matrix product is accumulated into zero and its operands are only re-formatted, which changes nothing over
    the extended reals, so it is the plain sum over the hundred and twenty-eight inputs.
  * The unit row: the row divided by the larger of its Euclidean length (the square root of the sum over the forty
    entries of the squares) and a tiny positive constant.
  * The log-softmax: the row shifted by its maximum (a fold of `max` over the forty entries, started from minus
    infinity), minus the logarithm of the sum of the exponentials of the shifted entries.
  A value computed once per row (a length, a maximum, a logarithm) is kept as a one-entry-wide column and laid back
  along the row; read at an entry of row `p` it is row `p`'s value.

  Composed, entry `(p, j)` of the block the program stores is the specification's second-layer row from pre-projected
  messages, evaluated on row `p` of the three row-blocked inputs, the weight table and the bias row.

  From blocks to the array.  At grid point `t` the three row-blocked inputs and the output sit at block row `t`, so entry
  `(p, ·)` of a block is entry `(5000 · t + p, ·)` of its array; the weight table and the bias row are read whole.  Hence
  what point `t` writes back is block `t` of ONE function of the arrays the region finds: node `n`'s output row is the
  second-layer row of node `n`'s input rows.  Row `n` lies in the block of point `n / 5000`, so the blocks cover the
  output array and the array after the region is that function.
-/
import proofs.«159132_j75479755259981_2_alg».proof.Proof.Gen.KernelIdeal.Frame
import proofs.«159132_j75479755259981_2_alg».proof.Proof.Spec
import proofs.«159132_j75479755259981_2_alg».proof.Proof.LibPlainDot
import proofs.«159132_j75479755259981_2_alg».proof.Proof.LibLaneSum
import proofs.«159132_j75479755259981_2_alg».proof.Proof.LibColumn
import Idealize.ShloMosaic.Lib.ValueLayout
import Idealize.ShloMosaic.Lib.Pipeline.Value

noncomputable section

namespace Cert.KernelIdeal.Layer2

open Idealize.ShloMosaic Idealize.ShloMosaic.ValueIdx Idealize.ShloMosaic.TcCoe Idealize.SL.Sem Cert.KernelIdeal Cert.KernelIdeal.Gen
open Idealize.ShloMosaic.Pipeline (Dat)

/-! ## Per-row reductions and values kept per row -/

/-- The maximum taken along the rows of a matrix, at row `i`: the fold of `max` over the column coordinate of the
    entries of row `i`, started from the value the accumulator's word denotes. -/
theorem max_last2 {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun d => src (ix2 i d)) := by
  refine (Ideal.multiReduction_maximumf_single src acc h hφ hacc (ix1 i)).trans ?_
  have hf : (src ∘ h.lift (ix1 i)) = fun d : Fin b => src (ix2 i d) :=
    funext fun k => congrArg src (funext fun ax => Fin.ext (by match ax with | ⟨0, _⟩ => rfl | ⟨1, _⟩ => rfl))
  exact congrArg (fun f => Finset.fold max (Ideal.ofBits φ acc) f (Finset.univ : Finset (Fin b))) hf

/-- A value per row, kept as a one-entry-wide column and then laid along the row's `b` entries, reads at every entry
    of row `p` the value of row `p`. -/
theorem keep_apply {α : Type} {a b : ℕ} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ v hc) hb (ix2 p c) = v (ix1 p) :=
  (Cert.GraphConv.Column.broadcastTo_a1_ab_apply _ hb p c).trans (Cert.GraphConv.Column.shapeCast_a_a1_apply v hc p 0)

/-! ## The three stages of a block's arithmetic, each read at an entry -/

/-- The affine part of a block of five thousand rows: the projected aggregate `x0` scaled row by row by the reciprocal
    counts `x2`, plus the bias row `x3` on every row, plus the hidden rows `x1` times the weight table `x4`. -/
def affBlock (x0 : Vec Ideal S5000x40 .f32) (x2 : Vec Ideal S5000x1 .f32) (x1 : Vec Ideal S5000x128 .f32) (x4 : Vec Ideal S128x40 .f32) (x3 : Vec Ideal S1x40 .f32) : FVec Ideal S5000x40 .f32 :=
  addf (addf (mulf (shapeCast S5000x40 x0 shapeCasts_S5000x40_S5000x40) (broadcastTo S5000x40 (shapeCast S5000x1 x2 shapeCasts_S5000x1_S5000x1) broadcasts_S5000x1_S5000x40))
      (broadcastTo S5000x40 (shapeCast S1x40 x3 shapeCasts_S1x40_S1x40) broadcasts_S1x40_S5000x40))
    (matmul dot_S5000x128_S128x40_S5000x40_1_0_0_1_n_n none (truncf .bf16 (shapeCast S5000x128 x1 shapeCasts_S5000x128_S5000x128) bitsLt_bf16_f32)
      (truncf .bf16 (shapeCast S128x40 x4 shapeCasts_S128x40_S128x40) bitsLt_bf16_f32) (constant S5000x40 .f32 0x00000000#32))

/-- Entry `(p, j)` of the affine part is the specification's affine part from pre-projected messages on row `p` of the
    aggregate and of the hidden features, the reciprocal count of row `p`, the weight table and the bias row:
    `x0(p, j) · x2(p) + x3(j) + ∑ₖ x1(p, k) · x4(k, j)`. -/
theorem affBlock_apply (x0 : Vec Ideal S5000x40 .f32) (x2 : Vec Ideal S5000x1 .f32) (x1 : Vec Ideal S5000x128 .f32) (x4 : Vec Ideal S128x40 .f32) (x3 : Vec Ideal S1x40 .f32)
    (p : Fin 5000) (j : Fin 40) :
    affBlock x0 x2 x1 x4 x3 (ix2 p j)
      = Cert.Sage.affinePre (fun j' : Fin 40 => x0 (ix2 p j')) (fun k : Fin 128 => x1 (ix2 p k)) (x2 (ix2 p (0 : Fin 1)))
          (fun (k : Fin 128) (j' : Fin 40) => x4 (ix2 k j')) (fun j' : Fin 40 => x3 (ix2 (0 : Fin 1) j')) j := by
  unfold affBlock Cert.Sage.affinePre Cert.Sage.proj
  rw [addf_apply, addf_apply, mulf_apply]
  rw [shapeCast_self, shapeCast_self, shapeCast_self,
    Cert.GraphConv.Column.broadcastTo_a1_ab_apply, broadcastTo_1b_ab_apply]
  refine congrArg (fun s => x0 (ix2 p j) * x2 (ix2 p (0 : Fin 1)) + x3 (ix2 (0 : Fin 1) j) + s) ?_
  refine (Cert.PlainDot.matmul_zero_apply dot_S5000x128_S128x40_S5000x40_1_0_0_1_n_n rfl none _ _ p j).trans ?_
  refine Finset.sum_congr rfl fun k _ => ?_
  rw [truncf_apply, truncf_apply, shapeCast_self, shapeCast_self]

/-- A block of rows, each divided by the larger of its Euclidean length and the tiny positive clamp. -/
def unitBlock (a : FVec Ideal S5000x40 .f32) : FVec Ideal S5000x40 .f32 :=
  divf a (broadcastTo S5000x40
    (maximumf (sqrt (shapeCast S5000x1 (multiReduction .add [1] S5000 (mulf a a) 0x00000000#32 reduces_S5000x40_S5000 (.inl rfl) rfl) shapeCasts_S5000_S5000x1))
      (broadcast S5000x1 (Scalar.ofBits .f32 0x2B8CBCCC#32))) broadcasts_S5000x1_S5000x40)

/-- Entry `(p, j)` of the block of unit rows is entry `j` of row `p` divided by its clamped length: the length is the
    square root of the sum over the forty entries of row `p` of their squares. -/
theorem unitBlock_apply (a : FVec Ideal S5000x40 .f32) (p : Fin 5000) (j : Fin 40) :
    unitBlock a (ix2 p j) = Cert.Sage.unitRow (fun j' : Fin 40 => a (ix2 p j')) j := by
  unfold unitBlock Cert.Sage.unitRow Cert.Sage.eps
  rw [divf_apply, Cert.GraphConv.Column.broadcastTo_a1_ab_apply, maximumf_apply]
  show Ideal.div (a (ix2 p j)) (max (Ideal.sqrt (shapeCast S5000x1 (multiReduction .add [1] S5000 (mulf a a) 0x00000000#32 reduces_S5000x40_S5000 (.inl rfl) rfl) shapeCasts_S5000_S5000x1 (ix2 p (0 : Fin 1)))) (Ideal.ofBits .f32 0x2B8CBCCC#32)) = _
  rw [Cert.GraphConv.Column.shapeCast_a_a1_apply]
  exact congrArg (fun s => Ideal.div (a (ix2 p j)) (max (Ideal.sqrt s) (Ideal.ofBits .f32 0x2B8CBCCC#32)))
    (Cert.LaneSum.sum_last2 (mulf a a) _ _ _ _ p)

/-- Each row's maximum, laid back along the row. -/
def maxBlock (z : FVec Ideal S5000x40 .f32) : FVec Ideal S5000x40 .f32 :=
  broadcastTo S5000x40 (shapeCast S5000x1 (multiReduction .maximumf [1] S5000 z 0xFF800000#32 reduces_S5000x40_S5000 (.inl rfl) rfl) shapeCasts_S5000_S5000x1) broadcasts_S5000x1_S5000x40

/-- At every entry of row `p` it is the maximum of row `p`: the fold of `max` over the forty entries from minus infinity. -/
theorem maxBlock_apply (z : FVec Ideal S5000x40 .f32) (p : Fin 5000) (j : Fin 40) :
    maxBlock z (ix2 p j) = Cert.Sage.rowMax (fun j' : Fin 40 => z (ix2 p j')) := by
  unfold maxBlock Cert.Sage.rowMax Cert.Sage.negInf
  rw [keep_apply]
  exact max_last2 z _ _ _ _ p

/-- A block of rows, each shifted by its maximum and then by the logarithm of the sum of the exponentials of its
    shifted entries. -/
def lsmBlock (z : FVec Ideal S5000x40 .f32) : FVec Ideal S5000x40 .f32 :=
  subf (subf z (maxBlock z))
    (broadcastTo S5000x40 (log (shapeCast S5000x1 (multiReduction .add [1] S5000 (exp (subf z (maxBlock z))) 0x00000000#32 reduces_S5000x40_S5000 (.inl rfl) rfl) shapeCasts_S5000_S5000x1)) broadcasts_S5000x1_S5000x40)

/-- Entry `(p, j)` of that block is the log-softmax of row `p` at `j`:
    `z(p, j) − max(row p) − log ∑ᵢ exp (z(p, i) − max(row p))`. -/
theorem lsmBlock_apply (z : FVec Ideal S5000x40 .f32) (p : Fin 5000) (j : Fin 40) :
    lsmBlock z (ix2 p j) = Cert.Sage.logSoftmaxRow (fun j' : Fin 40 => z (ix2 p j')) j := by
  unfold lsmBlock Cert.Sage.logSoftmaxRow
  rw [subf_apply, subf_apply, maxBlock_apply, Cert.GraphConv.Column.broadcastTo_a1_ab_apply]
  show z (ix2 p j) - Cert.Sage.rowMax (fun j' : Fin 40 => z (ix2 p j')) - Ideal.log (shapeCast S5000x1 (multiReduction .add [1] S5000 (exp (subf z (maxBlock z))) 0x00000000#32 reduces_S5000x40_S5000 (.inl rfl) rfl) shapeCasts_S5000_S5000x1 (ix2 p (0 : Fin 1))) = _
  rw [Cert.GraphConv.Column.shapeCast_a_a1_apply]
  refine congrArg (fun s => z (ix2 p j) - Cert.Sage.rowMax (fun j' : Fin 40 => z (ix2 p j')) - Ideal.log s) ?_
  refine (Cert.LaneSum.sum_last2 (exp (subf z (maxBlock z))) _ _ _ _ p).trans ?_
  refine Finset.sum_congr rfl fun d _ => ?_
  show Ideal.exp (z (ix2 p d) - maxBlock z (ix2 p d)) = _
  rw [maxBlock_apply]

/-! ## The block the body stores, read at an entry -/

/-- The body's arithmetic is the three stages composed: the log-softmax of the unit rows of the affine part (the
    body forms the shifted rows twice; both are the same block). -/
theorem pay_eq (x0 : Vec Ideal S5000x40 .f32) (x2 : Vec Ideal S5000x1 .f32) (x1 : Vec Ideal S5000x128 .f32) (x4 : Vec Ideal S128x40 .f32) (x3 : Vec Ideal S1x40 .f32) :
    k1_pay1 (F := Ideal) x0 x2 x1 x4 x3 = lsmBlock (unitBlock (affBlock x0 x2 x1 x4 x3)) := rfl

/-- Entry `(p, j)` of the block the body stores is the specification's second-layer row from pre-projected messages,
    on row `p` of the projected aggregate `x0` and of the hidden features `x1`, the reciprocal count `x2(p)`, the weight
    table `x4` and the bias row `x3`, at `j`. -/
theorem pay_apply (x0 : Vec Ideal S5000x40 .f32) (x2 : Vec Ideal S5000x1 .f32) (x1 : Vec Ideal S5000x128 .f32) (x4 : Vec Ideal S128x40 .f32) (x3 : Vec Ideal S1x40 .f32)
    (p : Fin 5000) (j : Fin 40) :
    k1_pay1 (F := Ideal) x0 x2 x1 x4 x3 (ix2 p j)
      = Cert.Sage.outPre (fun j' : Fin 40 => x0 (ix2 p j')) (fun k : Fin 128 => x1 (ix2 p k)) (x2 (ix2 p (0 : Fin 1)))
          (fun (k : Fin 128) (j' : Fin 40) => x4 (ix2 k j')) (fun j' : Fin 40 => x3 (ix2 (0 : Fin 1) j')) j := by
  rw [pay_eq, lsmBlock_apply]
  unfold Cert.Sage.outPre
  have h1 : (fun j' : Fin 40 => unitBlock (affBlock x0 x2 x1 x4 x3) (ix2 p j'))
      = Cert.Sage.unitRow (fun j' : Fin 40 => affBlock x0 x2 x1 x4 x3 (ix2 p j')) :=
    funext fun j' => unitBlock_apply _ p j'
  have h2 : (fun j' : Fin 40 => affBlock x0 x2 x1 x4 x3 (ix2 p j'))
      = Cert.Sage.affinePre (fun j' : Fin 40 => x0 (ix2 p j')) (fun k : Fin 128 => x1 (ix2 p k)) (x2 (ix2 p (0 : Fin 1)))
          (fun (k : Fin 128) (j' : Fin 40) => x4 (ix2 k j')) (fun j' : Fin 40 => x3 (ix2 (0 : Fin 1) j')) :=
    funext fun j' => affBlock_apply x0 x2 x1 x4 x3 p j'
  rw [h1, h2]

/-! ## From blocks to the array -/

/-- The zero offsets of a whole-buffer access, as the constant function. -/
theorem hz : (![0, 0] : Fin 2 → Nat) = fun _ => 0 := funext fun a => by fin_cases a <;> rfl

/-- The index maps over the twenty grid points: the three row-blocked inputs and the output sit at block row `t`, the
    weight table and the bias row at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- Entry `(p, q)` of the projected aggregate's block at point `t` is entry `(5000 · t + p, q)` of the array. -/
theorem blk0_apply (c : Dev nD) (t : Fin cfg1.N) (p : Fin 5000) (q : Fin 40) (n : Fin 100000) (hn : n.val = t.val * 5000 + p.val) :
    (iblk1 V c 0 t : Vec Ideal S5000x40 .f32) (ix2 p q) = (V c main_v42 : S100000x40.Idx → Ideal .f32) (ix2 n q) := by
  obtain ⟨e0, e1, -⟩ := idx_facts t
  show V c main_v42 (((cfg1.win 0).blk t).view.emb (ix2 p q)) = V c main_v42 (ix2 n q)
  refine congrArg (V c main_v42) (funext fun a => Fin.ext ?_)
  match a with
  | ⟨0, _⟩ => show win1_0.index t (0 : Fin 2) * 5000 + 1 * p.val = n.val; omega
  | ⟨1, _⟩ => show win1_0.index t (1 : Fin 2) * 40 + 1 * q.val = q.val; omega

/-- Entry `(p, k)` of the hidden features' block at point `t` is entry `(5000 · t + p, k)` of the array. -/
theorem blk1_apply (c : Dev nD) (t : Fin cfg1.N) (p : Fin 5000) (k : Fin 128) (n : Fin 100000) (hn : n.val = t.val * 5000 + p.val) :
    (iblk1 V c 1 t : Vec Ideal S5000x128 .f32) (ix2 p k) = (V c main_v28 : S100000x128.Idx → Ideal .f32) (ix2 n k) := by
  obtain ⟨-, -, e0, e1, -⟩ := idx_facts t
  show V c main_v28 (((cfg1.win 1).blk t).view.emb (ix2 p k)) = V c main_v28 (ix2 n k)
  refine congrArg (V c main_v28) (funext fun a => Fin.ext ?_)
  match a with
  | ⟨0, _⟩ => show win1_1.index t (0 : Fin 2) * 5000 + 1 * p.val = n.val; omega
  | ⟨1, _⟩ => show win1_1.index t (1 : Fin 2) * 128 + 1 * k.val = k.val; omega

/-- Entry `(p, u)` of the reciprocal counts' block at point `t` is entry `(5000 · t + p, u)` of the array. -/
theorem blk2_apply (c : Dev nD) (t : Fin cfg1.N) (p : Fin 5000) (u : Fin 1) (n : Fin 100000) (hn : n.val = t.val * 5000 + p.val) :
    (iblk1 V c 2 t : Vec Ideal S5000x1 .f32) (ix2 p u) = (V c main_v12 : S100000x1.Idx → Ideal .f32) (ix2 n u) := by
  obtain ⟨-, -, -, -, e0, e1, -⟩ := idx_facts t
  show V c main_v12 (((cfg1.win 2).blk t).view.emb (ix2 p u)) = V c main_v12 (ix2 n u)
  refine congrArg (V c main_v12) (funext fun a => Fin.ext ?_)
  match a with
  | ⟨0, _⟩ => show win1_2.index t (0 : Fin 2) * 5000 + 1 * p.val = n.val; omega
  | ⟨1, _⟩ => show win1_2.index t (1 : Fin 2) * 1 + 1 * u.val = u.val; omega

/-- The bias row's block at every point is the whole bias row. -/
theorem blk3_apply (c : Dev nD) (t : Fin cfg1.N) (u : Fin 1) (q : Fin 40) :
    (iblk1 V c 3 t : Vec Ideal S1x40 .f32) (ix2 u q) = (V c main_v43 : S1x40.Idx → Ideal .f32) (ix2 u q) := by
  obtain ⟨-, -, -, -, -, -, e0, e1, -⟩ := idx_facts t
  show V c main_v43 (((cfg1.win 3).blk t).view.emb (ix2 u q)) = V c main_v43 (ix2 u q)
  refine congrArg (V c main_v43) (funext fun a => Fin.ext ?_)
  match a with
  | ⟨0, _⟩ => show win1_3.index t (0 : Fin 2) * 1 + 1 * u.val = u.val; omega
  | ⟨1, _⟩ => show win1_3.index t (1 : Fin 2) * 40 + 1 * q.val = q.val; omega

/-- The weight table's block at every point is the whole weight table. -/
theorem blk4_apply (c : Dev nD) (t : Fin cfg1.N) (k : Fin 128) (q : Fin 40) :
    (iblk1 V c 4 t : Vec Ideal S128x40 .f32) (ix2 k q) = (V c main_v44 : S128x40.Idx → Ideal .f32) (ix2 k q) := by
  obtain ⟨-, -, -, -, -, -, -, -, e0, e1, -⟩ := idx_facts t
  show V c main_v44 (((cfg1.win 4).blk t).view.emb (ix2 k q)) = V c main_v44 (ix2 k q)
  refine congrArg (V c main_v44) (funext fun a => Fin.ext ?_)
  match a with
  | ⟨0, _⟩ => show win1_4.index t (0 : Fin 2) * 128 + 1 * k.val = k.val; omega
  | ⟨1, _⟩ => show win1_4.index t (1 : Fin 2) * 40 + 1 * q.val = q.val; omega

/-- Row `n` of the second layer from the arrays the region finds. -/
def row (c : Dev nD) (n : Fin 100000) (j : Fin 40) : EReal :=
  Cert.Sage.outPre (fun j' : Fin 40 => V c main_v42 (ix2 n j')) (fun k : Fin 128 => V c main_v28 (ix2 n k)) (V c main_v12 (ix2 n (0 : Fin 1)))
    (fun (k : Fin 128) (j' : Fin 40) => V c main_v44 (ix2 k j')) (fun j' : Fin 40 => V c main_v43 (ix2 (0 : Fin 1) j')) j

/-- The output array as one function of the arrays the region finds. -/
def G (c : Dev nD) : S100000x40.Idx → Ideal .f32 := fun i => row V c (i 0) (i 1)

/-- What grid point `t` writes back is block `t` of that one function: entry `(p, q)` of the stored block is the
    second-layer row of the inputs' rows `5000 · t + p`, which is where entry `(p, q)` of the output's block sits. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero hz]
  simp only [View.ld_unit_zero (S := S5000x40) hz, View.ld_unit_zero (S := S5000x1) hz, View.ld_unit_zero (S := S5000x128) hz,
    View.ld_unit_zero (S := S128x40) hz, View.ld_unit_zero (S := S1x40) hz]
  refine funext fun (y : S5000x40.Idx) => ?_
  obtain ⟨p, q, rfl⟩ : ∃ (p : Fin 5000) (q : Fin 40), y = ix2 p q := ⟨y 0, y 1, eq_ix2 y⟩
  have hN : grid1.N = 20 := N_1
  have ht : t.val < grid1.N := t.isLt
  obtain ⟨n, hn⟩ : ∃ n : Fin 100000, n.val = t.val * 5000 + p.val := ⟨⟨t.val * 5000 + p.val, by omega⟩, rfl⟩
  obtain ⟨-, -, -, -, -, -, -, -, -, -, e50, e51⟩ := idx_facts t
  have hemb : ((cfg1.win 5).blk t).view.emb (ix2 p q) = (ix2 n q : S100000x40.Idx) := funext fun a => Fin.ext (by
    match a with
    | ⟨0, _⟩ => show win1_5.index t (0 : Fin 2) * 5000 + 1 * p.val = n.val; omega
    | ⟨1, _⟩ => show win1_5.index t (1 : Fin 2) * 40 + 1 * q.val = q.val; omega)
  show k1_pay1 (F := Ideal) (iblk1 V c 0 t) (iblk1 V c 2 t) (iblk1 V c 1 t) (iblk1 V c 4 t) (iblk1 V c 3 t) (ix2 p q)
    = G V c (((cfg1.win 5).blk t).view.emb (ix2 p q))
  rw [hemb]
  refine (pay_apply _ _ _ _ _ p q).trans ?_
  have e0 : (fun j' : Fin 40 => (iblk1 V c 0 t : Vec Ideal S5000x40 .f32) (ix2 p j')) = fun j' : Fin 40 => (V c main_v42 : S100000x40.Idx → Ideal .f32) (ix2 n j') :=
    funext fun j' => blk0_apply V c t p j' n hn
  have e1 : (fun k : Fin 128 => (iblk1 V c 1 t : Vec Ideal S5000x128 .f32) (ix2 p k)) = fun k : Fin 128 => (V c main_v28 : S100000x128.Idx → Ideal .f32) (ix2 n k) :=
    funext fun k => blk1_apply V c t p k n hn
  have e2 : (iblk1 V c 2 t : Vec Ideal S5000x1 .f32) (ix2 p (0 : Fin 1)) = (V c main_v12 : S100000x1.Idx → Ideal .f32) (ix2 n (0 : Fin 1)) :=
    blk2_apply V c t p 0 n hn
  have e3 : (fun j' : Fin 40 => (iblk1 V c 3 t : Vec Ideal S1x40 .f32) (ix2 (0 : Fin 1) j')) = fun j' : Fin 40 => (V c main_v43 : S1x40.Idx → Ideal .f32) (ix2 (0 : Fin 1) j') :=
    funext fun j' => blk3_apply V c t 0 j'
  have e4 : (fun (k : Fin 128) (j' : Fin 40) => (iblk1 V c 4 t : Vec Ideal S128x40 .f32) (ix2 k j')) = fun (k : Fin 128) (j' : Fin 40) => (V c main_v44 : S128x40.Idx → Ideal .f32) (ix2 k j') :=
    funext fun k => funext fun j' => blk4_apply V c t k j'
  rw [e0, e1, e2, e3, e4]
  rfl

/-- Every row of the output lies in the block of the grid point `row / 5000`. -/
theorem cover (i : S100000x40.Idx) :
    ∃ t : Fin cfg1.N, (cfg1.win 5).flush t = true ∧ i ∈ ((cfg1.win 5).blk t).view.set := by
  have hi0 : (i 0).val < 100000 := (i 0).isLt
  have hi1 : (i 1).val < 40 := (i 1).isLt
  have hN : grid1.N = 20 := N_1
  obtain ⟨t, htv⟩ : ∃ t : Fin cfg1.N, t.val = (i 0).val / 5000 :=
    ⟨⟨(i 0).val / 5000, by show (i 0).val / 5000 < grid1.N; omega⟩, rfl⟩
  obtain ⟨-, -, -, -, -, -, -, -, -, -, e50, e51⟩ := idx_facts t
  refine ⟨t, flush1_5 t, ?_⟩
  show i ∈ ((View.whole main_v45).slice (win1_5.rect t)).set
  rw [View.set_slice_whole, Rect.mem_set_unit]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 40 ≤ (i 1).val ∧ (i 1).val < win1_5.index t (1 : Fin 2) * 40 + 40
    omega

/-- After region 1, row `n` of the output array is the second-layer row, from pre-projected messages, of row `n` of the
    projected aggregate, row `n` of the hidden features, node `n`'s reciprocal count, the weight table and the bias row. -/
theorem out_value (c : Dev nD) (n : Fin 100000) (j : Fin 40) :
    (Gen.dat1 (F := Ideal) V c).arrAt 5 cfg1.N (ix2 n j)
      = Cert.Sage.outPre (fun j' : Fin 40 => V c main_v42 (ix2 n j')) (fun k : Fin 128 => V c main_v28 (ix2 n k)) (V c main_v12 (ix2 n (0 : Fin 1)))
          (fun (k : Fin 128) (j' : Fin 40) => V c main_v44 (ix2 k j')) (fun j' : Fin 40 => V c main_v43 (ix2 (0 : Fin 1) j')) j := by
  have h := (dat1 (F := Ideal) V c).arrAt_eq_of_cover 5 (G V c) (fun t _ => flushed_eq V c t) cover
  exact congrFun h (ix2 n j)

end Cert.KernelIdeal.Layer2

end
-- ==== Proof.KernelValue.lean ====
/-
  The idealized kernel program's result as a function of its arguments, entry by entry.

  Reading the program backwards from its result: the second region leaves, in row `n` of the result, the second layer
  (from pre-projected messages) of row `n` of the second aggregate, row `n` of the hidden features, the reciprocal count
  of node `n`, and the second layer's second table and bias.  The second aggregate, the table and the bias are what
  the second stretch of host operations computes from the hidden features, the edge list and the weights; the hidden
  features are what the first region leaves: in row `n`, the first layer (multiplying arrangement) of row `n` of the
  first aggregate, row `n` of the features, the reciprocal count, and the first layer's tables and bias, all of which
  the first stretch computes from the arguments.  Buffers a segment does not write pass through it unchanged.
-/
import proofs.«159132_j75479755259981_2_alg».proof.Proof.KernelRun
import proofs.«159132_j75479755259981_2_alg».proof.Proof.KernelHost
import proofs.«159132_j75479755259981_2_alg».proof.Proof.Region0
import proofs.«159132_j75479755259981_2_alg».proof.Proof.Region1

set_option maxRecDepth 16384

noncomputable section

namespace Cert.KernelIdeal.Whole

open Idealize.ShloMosaic Idealize.ShloMosaic.ValueIdx Idealize.ShloMosaic.TcCoe Idealize.SL.Sem Idealize.ShloMosaic.StableHlo
open Cert.KernelIdeal Cert.KernelIdeal.Gen Cert.KernelIdeal.HostSide

variable (m : (ℓ : Loc nD τ sig) → Buf (Elt Ideal) ℓ) (ρ : Dev nD → PrngReg) (c : Dev nD)

/-- The argument arrays as launched, at their array types. -/
abbrev feat : FArr S100000x128 := W0 m ρ c (Proc.devRef .tc main_arg0)
abbrev edges : IArr S2x1600000 := W0 m ρ c (Proc.devRef .tc main_arg1)
abbrev w1l : FArr S128x128 := W0 m ρ c (Proc.devRef .tc main_arg2)
abbrev b1 : FArr S128 := W0 m ρ c (Proc.devRef .tc main_arg3)
abbrev w1r : FArr S128x128 := W0 m ρ c (Proc.devRef .tc main_arg4)
abbrev w2l : FArr S40x128 := W0 m ρ c (Proc.devRef .tc main_arg5)
abbrev b2 : FArr S40 := W0 m ρ c (Proc.devRef .tc main_arg6)
abbrev w2r : FArr S40x128 := W0 m ρ c (Proc.devRef .tc main_arg7)

/-- The source and destination rows of the edge list. -/
abbrev src : IArr S1600000 := edgeRow 0 (edges m ρ c)
abbrev dst : IArr S1600000 := edgeRow 1 (edges m ρ c)

/-- The hidden features: what the first region's write-backs leave in its output array. -/
def hidden : FArr S100000x128 := W2 m ρ c (Proc.devRef .tc main_v28)

/-! ## What the first region is entered with, and what passes through it -/

theorem entry_v12 : (W2 m ρ c (Proc.devRef .tc main_v12) : FArr S100000x1) = recipCol (dst m ρ c) :=
  ((W2_arr m ρ c 2).trans (((dat0 (V1 m ρ) c).arrAt_in 2 rfl _).trans (A_eq0 (V1 m ρ) c 2))).trans (first_v12 (W0 m ρ c))

theorem pass_v1 : (W2 m ρ c (Proc.devRef .tc main_v1) : IArr S1600000) = src m ρ c :=
  (W2_of_ne m ρ c main_v1 (by decide)).trans (first_v1 (W0 m ρ c))

theorem pass_v3 : (W2 m ρ c (Proc.devRef .tc main_v3) : IArr S1600000) = dst m ρ c :=
  (W2_of_ne m ρ c main_v3 (by decide)).trans (first_v3 (W0 m ρ c))

theorem pass_arg5 : (W2 m ρ c (Proc.devRef .tc main_arg5) : FArr S40x128) = w2l m ρ c :=
  (W2_of_ne m ρ c main_arg5 (by decide)).trans (first_arg5 (W0 m ρ c))

theorem pass_arg6 : (W2 m ρ c (Proc.devRef .tc main_arg6) : FArr S40) = b2 m ρ c :=
  (W2_of_ne m ρ c main_arg6 (by decide)).trans (first_arg6 (W0 m ρ c))

theorem pass_arg7 : (W2 m ρ c (Proc.devRef .tc main_arg7) : FArr S40x128) = w2r m ρ c :=
  (W2_of_ne m ρ c main_arg7 (by decide)).trans (first_arg7 (W0 m ρ c))

/-- Row `n` of the hidden features is the first layer, multiplying arrangement, of the arguments. -/
theorem hidden_apply (n : Fin 100000) (k : Fin 128) :
    hidden m ρ c (ix2 n k)
      = Cert.Sage.hiddenMul (fun k' : Fin 128 => aggregate1 (feat m ρ c) (src m ρ c) (dst m ρ c) (ix2 n k'))
          (fun k' : Fin 128 => feat m ρ c (ix2 n k')) (recipCol (dst m ρ c) (ix2 n (0 : Fin 1)))
          (fun (k' : Fin 128) (j' : Fin 128) => table128 (w1l m ρ c) (ix2 k' j'))
          (fun (k' : Fin 128) (j' : Fin 128) => table128 (w1r m ρ c) (ix2 k' j'))
          (fun j' : Fin 128 => biasRow128 (b1 m ρ c) (ix2 (0 : Fin 1) j')) k := by
  have h6 : hidden m ρ c = (dat0 (F := Ideal) (V1 m ρ) c).arrAt 6 cfg0.N := W2_arr m ρ c 6
  rw [h6, Cert.KernelIdeal.Layer1.hidden_value (V1 m ρ) c n k]
  have e24 : (V1 m ρ c main_v24 : FArr S100000x128) = aggregate1 (feat m ρ c) (src m ρ c) (dst m ρ c) := first_v24 (W0 m ρ c)
  have e0 : (V1 m ρ c main_arg0 : FArr S100000x128) = feat m ρ c := first_arg0 (W0 m ρ c)
  have e12 : (V1 m ρ c main_v12 : FArr S100000x1) = recipCol (dst m ρ c) := first_v12 (W0 m ρ c)
  have e25 : (V1 m ρ c main_v25 : FArr S128x128) = table128 (w1l m ρ c) := first_v25 (W0 m ρ c)
  have e27 : (V1 m ρ c main_v27 : FArr S128x128) = table128 (w1r m ρ c) := first_v27 (W0 m ρ c)
  have e26 : (V1 m ρ c main_v26 : FArr S1x128) = biasRow128 (b1 m ρ c) := first_v26 (W0 m ρ c)
  rw [e24, e0, e12, e25, e27, e26]

/-- Entry `(n, j)` of the result's final contents is the second layer, from pre-projected messages, of the hidden
    features and the arguments. -/
theorem result_apply (n : Fin 100000) (j : Fin 40) :
    (W4 m ρ c (Proc.devRef .tc main_v45) : FArr S100000x40) (ix2 n j)
      = Cert.Sage.outPre (fun j' : Fin 40 => aggregate2 (hidden m ρ c) (w2l m ρ c) (src m ρ c) (dst m ρ c) (ix2 n j'))
          (fun k : Fin 128 => hidden m ρ c (ix2 n k)) (recipCol (dst m ρ c) (ix2 n (0 : Fin 1)))
          (fun (k : Fin 128) (j' : Fin 40) => table40 (w2r m ρ c) (ix2 k j'))
          (fun j' : Fin 40 => biasRow40 (b2 m ρ c) (ix2 (0 : Fin 1) j')) j := by
  have h5 : (W4 m ρ c (Proc.devRef .tc main_v45) : FArr S100000x40) = (dat1 (F := Ideal) (V3 m ρ) c).arrAt 5 cfg1.N := W4_arr m ρ c 5
  rw [h5, Cert.KernelIdeal.Layer2.out_value (V3 m ρ) c n j]
  have e42 : (V3 m ρ c main_v42 : FArr S100000x40) = aggregate2 (hidden m ρ c) (w2l m ρ c) (src m ρ c) (dst m ρ c) := by
    refine (second_v42 (W2 m ρ c)).trans ?_
    rw [pass_arg5 m ρ c, pass_v1 m ρ c, pass_v3 m ρ c]
    rfl
  have e28 : (V3 m ρ c main_v28 : FArr S100000x128) = hidden m ρ c := second_v28 (W2 m ρ c)
  have e12 : (V3 m ρ c main_v12 : FArr S100000x1) = recipCol (dst m ρ c) := (second_v12 (W2 m ρ c)).trans (entry_v12 m ρ c)
  have e44 : (V3 m ρ c main_v44 : FArr S128x40) = table40 (w2r m ρ c) := by
    refine (second_v44 (W2 m ρ c)).trans ?_
    rw [pass_arg7 m ρ c]
  have e43 : (V3 m ρ c main_v43 : FArr S1x40) = biasRow40 (b2 m ρ c) := by
    refine (second_v43 (W2 m ρ c)).trans ?_
    rw [pass_arg6 m ρ c]
  rw [e42, e28, e12, e44, e43]

end Cert.KernelIdeal.Whole

end
-- ==== Proof.LibFold.lean ====
/-
  A line of host operations run in two stretches.

  `StableHlo.after ops V` is the valuation after the operations `ops`, applied in order to the valuation `V`.  Running
  a concatenation is running the first stretch and then the second from what the first leaves.  With it a long
  prefix of host operations can be read stage by stage: a later stretch's result as a function of what the earlier
  stretches left at its operands, each operand then read in its own smaller stretch — instead of one composed term in
  which a value used several times is written out once per use.
-/
import Idealize.ShloMosaic.Lib.StableHlo.Run

namespace Idealize.ShloMosaic.StableHlo

variable {τ : Topo} {sig : RefSig} {Val : EltTy → Type}

/-- The valuation after two stretches run one after the other. -/
theorem after_append (l₁ l₂ : List (HloOp τ sig Val)) (V : Valuation τ sig Val) :
    after (l₁ ++ l₂) V = after l₂ (after l₁ V) := by
  induction l₁ generalizing V with
  | nil => rfl
  | cons op ops ih => exact ih (op.result V)

end Idealize.ShloMosaic.StableHlo
-- ==== Proof.LibTypedRef.lean ====
/-
  Typed references: contents moved to the buffer's type and back.

  A called function's operations are printed over TYPED references (`StableHlo.TRef sig T`): a buffer together with the
  fact that its type is `T`.  Such an operation reads its operands through `TRef.ofBuf` (the buffer's contents as
  contents of type `T`) and writes its result through `TRef.toBuf` (the other way), both transports along that fact.  So
  a fold over such operations (`StableHlo.after`), once rewritten to the operations' functions, carries a pair
  `ofBuf (toBuf v)` around every intermediate value.  The two lemmas cancel the pairs, for any reference signature and any
  value family; with them as `simp only` lemmas the fold's term becomes the plain composition of the operations'
  functions, which a definitional comparison with a staged definition of the same value then closes quickly.  (Without
  them the comparison has to see through every transport, and on a term holding a reduction or a gather it unfolds
  those first.)
-/
import Idealize.ShloMosaic.Lib.StableHlo

namespace Idealize.ShloMosaic.StableHlo.TRef

variable {sig : RefSig} {Val : EltTy → Type} {T : BufTy}

/-- Contents moved to a typed reference's buffer type and back are unchanged. -/
theorem ofBuf_toBuf (x : TRef sig T) (v : T.Contents Val) : x.ofBuf (x.toBuf v) = v := by
  obtain ⟨r, rfl, _, _⟩ := x
  rfl

/-- A buffer's contents read at the reference's type and moved back are unchanged. -/
theorem toBuf_ofBuf (x : TRef sig T) (u : x.ref.ty.Contents Val) : x.toBuf (x.ofBuf u) = u := by
  obtain ⟨r, rfl, _, _⟩ := x
  rfl

end Idealize.ShloMosaic.StableHlo.TRef
-- ==== Proof.RefRun.lean ====
/-
  The run of the idealized reference, read back at its result.

  The reference is a straight line of 108 host operations: a two-layer message-passing network on a graph of 100000
  nodes and 1600000 edges.  Each layer gathers the rows of its input at the edges' sources, sums them into the edges'
  targets, divides by the number of incoming edges (at least one), applies an affine map to that mean and a second
  linear map to the input itself, adds the two, and divides every row by its Euclidean norm (at least a small
  constant).  The first layer ends in a rectifier and gives the hidden layer; the second ends in a row-wise
  log-softmax and gives the result.

  Running the line from the launch contents leaves every buffer at the fold of the operations over those contents.
  Written out as one term of the eight arguments the result is enormous, because four intermediate values are each read
  more than once — the rows before each normalization (by the square and by the division), the hidden layer (by the
  gather and by the second linear map), and the normalized rows (twice inside the log-softmax) — and a written-out term
  repeats a value's whole history at every use.  So the line is cut at exactly those values into five stretches, and
  the fold of a concatenation is the fold of the later stretch over what the earlier one leaves.  Each stretch is read
  for an arbitrary valuation `W`: if `W` holds, at the few buffers the stretch reads, the staged values of the
  arguments (the one-definition-per-operation description of the program, each definition naming the previous ones),
  then after the stretch the buffer at its end holds the staged value of that buffer.  Inside one stretch every
  operation's history is short, so the comparison with the staged definitions is a direct computation; a buffer
  the stretch does not write keeps what it held.  Chaining the five statements gives the result buffer as the staged
  value of the result at the launch contents of the arguments, and no operation writes an argument.
-/
import proofs.«159132_j75479755259981_2_alg».proof.Proof.RefOps
import proofs.«159132_j75479755259981_2_alg».proof.Proof.RefRead
import proofs.«159132_j75479755259981_2_alg».proof.Proof.LibFold
import proofs.«159132_j75479755259981_2_alg».proof.Proof.LibTypedRef

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The first stretch: from the arguments to the rows before the first normalization (`main_v30`): the edge list's two rows, the
    gather of the source rows, their scatter-sum and the count of incoming edges per node, the mean, and the two affine maps. -/
abbrev o1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    unary main_arg2 main_v23 ((transpose S128x128 [1, 0] · transposes_S128x128_S128x128_1_0) : (⟨S128x128, .f32⟩ : BufTy).Contents (Elt F) → (⟨S128x128, .f32⟩ : BufTy).Contents (Elt F)),
    binary main_v22 main_v23 main_v24 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v25 (broadcastInDim S1x128 ![1] bcast_S128_S1x128_1 : (⟨S128, .f32⟩ : BufTy).Contents (Elt F) → (⟨S1x128, .f32⟩ : BufTy).Contents (Elt F)),
    unary main_v25 main_v26 (broadcastInDim S100000x128 ![0, 1] bcast_S1x128_S100000x128_0_1 : (⟨S1x128, .f32⟩ : BufTy).Contents (Elt F) → (⟨S100000x128, .f32⟩ : BufTy).Contents (Elt F)),
    binary main_v24 main_v26 main_v27 (addf : (⟨S100000x128, .f32⟩ : BufTy).Contents (Elt F) → (⟨S100000x128, .f32⟩ : BufTy).Contents (Elt F) → (⟨S100000x128, .f32⟩ : BufTy).Contents (Elt F)),
    unary main_arg4 main_v28 ((transpose S128x128 [1, 0] · transposes_S128x128_S128x128_1_0) : (⟨S128x128, .f32⟩ : BufTy).Contents (Elt F) → (⟨S128x128, .f32⟩ : BufTy).Contents (Elt F)),
    binary main_arg0 main_v28 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v27 main_v29 main_v30 (addf : (⟨S100000x128, .f32⟩ : BufTy).Contents (Elt F) → (⟨S100000x128, .f32⟩ : BufTy).Contents (Elt F) → (⟨S100000x128, .f32⟩ : BufTy).Contents (Elt F)) ]

/-- The second stretch: the first normalization and the rectifier, from `main_v30` to the hidden layer `main_v36`. -/
abbrev o2 : List (HloOp τ sig (Elt F)) :=
  [ TRef.binary (TRef.of (T := ⟨S100000x128, .f32⟩) main_v30) (TRef.of (T := ⟨S100000x128, .f32⟩) main_v30) (TRef.of (T := ⟨S100000x128, .f32⟩) main_call0_v0) mulf,
    TRef.nullary (TRef.of (T := ⟨S_, .f32⟩) main_call0_cst) (constant S_ .f32 0x00000000#32),
    TRef.binary (TRef.of (T := ⟨S100000x128, .f32⟩) main_call0_v0) (TRef.of (T := ⟨S_, .f32⟩) main_call0_cst) (TRef.of (T := ⟨S100000, .f32⟩) main_call0_v1) (fun x v => Host.reduceAdd x v reducesTo_S100000x128_S100000_d1 h_S_),
    TRef.unary (TRef.of (T := ⟨S100000, .f32⟩) main_call0_v1) (TRef.of (T := ⟨S100000x1, .f32⟩) main_call0_v2) (broadcastInDim S100000x1 ![0] bcast_S100000_S100000x1_0),
    TRef.unary (TRef.of (T := ⟨S100000x1, .f32⟩) main_call0_v2) (TRef.of (T := ⟨S100000x1, .f32⟩) main_v31) Host.sqrt,
    nullary main_cst_4 (constant S_ .f32 0x2B8CBCCC#32),
    unary main_cst_4 main_v32 (broadcastInDim S100000x1 ![] bcast_S_S100000x1 : (⟨S_, .f32⟩ : BufTy).Contents (Elt F) → (⟨S100000x1, .f32⟩ : BufTy).Contents (Elt F)),
    binary main_v31 main_v32 main_v33 (maximumf : (⟨S100000x1, .f32⟩ : BufTy).Contents (Elt F) → (⟨S100000x1, .f32⟩ : BufTy).Contents (Elt F) → (⟨S100000x1, .f32⟩ : BufTy).Contents (Elt F)),
    unary main_v33 main_v34 (broadcastInDim S100000x128 ![0, 1] bcast_S100000x1_S100000x128_0_1 : (⟨S100000x1, .f32⟩ : BufTy).Contents (Elt F) → (⟨S100000x128, .f32⟩ : BufTy).Contents (Elt F)),
    binary main_v30 main_v34 main_v35 (Host.divf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v35) (TRef.of (T := ⟨S100000x128, .f32⟩) main_call1_v0) (TRef.of (T := ⟨S100000x128, .f32⟩) main_v36) maximumf ]

/-- The third stretch: the second aggregation layer, from the hidden layer `main_v36` (with the edge rows `main_v1`, `main_v3` and the
    last three arguments) to the rows before the second normalization (`main_v63`). -/
abbrev o3 : List (HloOp τ sig (Elt F)) :=
  [ nullary main_c_5 (constantI S_ 32 0#32),
    unary main_c_5 main_v37 (broadcastInDim S1600000 ![] bcast_S_S1600000 : (⟨S_, .i32⟩ : BufTy).Contents (Elt F) → (⟨S1600000, .i32⟩ : BufTy).Contents (Elt F)),
    binary main_v1 main_v37 main_v38 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v39 (broadcastInDim S1600000 ![] bcast_S_S1600000 : (⟨S_, .i32⟩ : BufTy).Contents (Elt F) → (⟨S1600000, .i32⟩ : BufTy).Contents (Elt F)),
    binary main_v1 main_v39 main_v40 (addi : (⟨S1600000, .i32⟩ : BufTy).Contents (Elt F) → (⟨S1600000, .i32⟩ : BufTy).Contents (Elt F) → (⟨S1600000, .i32⟩ : BufTy).Contents (Elt F)),
    ternary main_v38 main_v40 main_v1 main_v41 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v41 main_v42 (broadcastInDim S1600000x1 ![0] bcast_S1600000_S1600000x1_0 : (⟨S1600000, .i32⟩ : BufTy).Contents (Elt F) → (⟨S1600000x1, .i32⟩ : BufTy).Contents (Elt F)),
    binary main_v36 main_v42 main_v43 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v44 (broadcastInDim S100000x128 ![] bcast_S_S100000x128 : (⟨S_, .f32⟩ : BufTy).Contents (Elt F) → (⟨S100000x128, .f32⟩ : BufTy).Contents (Elt F)),
    unary main_v3 main_v45 (broadcastInDim S1600000x1 ![0] bcast_S1600000_S1600000x1_0 : (⟨S1600000, .i32⟩ : BufTy).Contents (Elt F) → (⟨S1600000x1, .i32⟩ : BufTy).Contents (Elt F)),
    ternary main_v44 main_v45 main_v43 main_v46 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_8 (constant S_ .f32 0x3F800000#32),
    unary main_cst_8 main_v47 (broadcastInDim S1600000 ![] bcast_S_S1600000 : (⟨S_, .f32⟩ : BufTy).Contents (Elt F) → (⟨S1600000, .f32⟩ : BufTy).Contents (Elt F)),
    nullary main_cst_9 (constant S_ .f32 0x00000000#32),
    unary main_cst_9 main_v48 (broadcastInDim S100000 ![] bcast_S_S100000 : (⟨S_, .f32⟩ : BufTy).Contents (Elt F) → (⟨S100000, .f32⟩ : BufTy).Contents (Elt F)),
    unary main_v3 main_v49 (broadcastInDim S1600000x1 ![0] bcast_S1600000_S1600000x1_0 : (⟨S1600000, .i32⟩ : BufTy).Contents (Elt F) → (⟨S1600000x1, .i32⟩ : BufTy).Contents (Elt F)),
    ternary main_v48 main_v49 main_v47 main_v50 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_10 (constant S_ .f32 0x3F800000#32),
    unary main_cst_10 main_v51 (broadcastInDim S100000 ![] bcast_S_S100000 : (⟨S_, .f32⟩ : BufTy).Contents (Elt F) → (⟨S100000, .f32⟩ : BufTy).Contents (Elt F)),
    binary main_v50 main_v51 main_v52 (maximumf : (⟨S100000, .f32⟩ : BufTy).Contents (Elt F) → (⟨S100000, .f32⟩ : BufTy).Contents (Elt F) → (⟨S100000, .f32⟩ : BufTy).Contents (Elt F)),
    unary main_v52 main_v53 (broadcastInDim S100000x1 ![0] bcast_S100000_S100000x1_0 : (⟨S100000, .f32⟩ : BufTy).Contents (Elt F) → (⟨S100000x1, .f32⟩ : BufTy).Contents (Elt F)),
    unary main_v53 main_v54 (broadcastInDim S100000x128 ![0, 1] bcast_S100000x1_S100000x128_0_1 : (⟨S100000x1, .f32⟩ : BufTy).Contents (Elt F) → (⟨S100000x128, .f32⟩ : BufTy).Contents (Elt F)),
    binary main_v46 main_v54 main_v55 (Host.divf : (⟨S100000x128, .f32⟩ : BufTy).Contents (Elt F) → (⟨S100000x128, .f32⟩ : BufTy).Contents (Elt F) → (⟨S100000x128, .f32⟩ : BufTy).Contents (Elt F)),
    unary main_arg5 main_v56 ((transpose S128x40 [1, 0] · transposes_S40x128_S128x40_1_0) : (⟨S40x128, .f32⟩ : BufTy).Contents (Elt F) → (⟨S128x40, .f32⟩ : BufTy).Contents (Elt F)),
    binary main_v55 main_v56 main_v57 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg6 main_v58 (broadcastInDim S1x40 ![1] bcast_S40_S1x40_1 : (⟨S40, .f32⟩ : BufTy).Contents (Elt F) → (⟨S1x40, .f32⟩ : BufTy).Contents (Elt F)),
    unary main_v58 main_v59 (broadcastInDim S100000x40 ![0, 1] bcast_S1x40_S100000x40_0_1 : (⟨S1x40, .f32⟩ : BufTy).Contents (Elt F) → (⟨S100000x40, .f32⟩ : BufTy).Contents (Elt F)),
    binary main_v57 main_v59 main_v60 (addf : (⟨S100000x40, .f32⟩ : BufTy).Contents (Elt F) → (⟨S100000x40, .f32⟩ : BufTy).Contents (Elt F) → (⟨S100000x40, .f32⟩ : BufTy).Contents (Elt F)),
    unary main_arg7 main_v61 ((transpose S128x40 [1, 0] · transposes_S40x128_S128x40_1_0) : (⟨S40x128, .f32⟩ : BufTy).Contents (Elt F) → (⟨S128x40, .f32⟩ : BufTy).Contents (Elt F)),
    binary main_v36 main_v61 main_v62 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    binary main_v60 main_v62 main_v63 (addf : (⟨S100000x40, .f32⟩ : BufTy).Contents (Elt F) → (⟨S100000x40, .f32⟩ : BufTy).Contents (Elt F) → (⟨S100000x40, .f32⟩ : BufTy).Contents (Elt F)) ]

/-- The fourth stretch: the second normalization, from `main_v63` to the normalized rows `main_v68`. -/
abbrev o4 : List (HloOp τ sig (Elt F)) :=
  [ TRef.binary (TRef.of (T := ⟨S100000x40, .f32⟩) main_v63) (TRef.of (T := ⟨S100000x40, .f32⟩) main_v63) (TRef.of (T := ⟨S100000x40, .f32⟩) main_call2_v0) mulf,
    TRef.nullary (TRef.of (T := ⟨S_, .f32⟩) main_call2_cst) (constant S_ .f32 0x00000000#32),
    TRef.binary (TRef.of (T := ⟨S100000x40, .f32⟩) main_call2_v0) (TRef.of (T := ⟨S_, .f32⟩) main_call2_cst) (TRef.of (T := ⟨S100000, .f32⟩) main_call2_v1) (fun x v => Host.reduceAdd x v reducesTo_S100000x40_S100000_d1 h_S_),
    TRef.unary (TRef.of (T := ⟨S100000, .f32⟩) main_call2_v1) (TRef.of (T := ⟨S100000x1, .f32⟩) main_call2_v2) (broadcastInDim S100000x1 ![0] bcast_S100000_S100000x1_0),
    TRef.unary (TRef.of (T := ⟨S100000x1, .f32⟩) main_call2_v2) (TRef.of (T := ⟨S100000x1, .f32⟩) main_v64) Host.sqrt,
    nullary main_cst_11 (constant S_ .f32 0x2B8CBCCC#32),
    unary main_cst_11 main_v65 (broadcastInDim S100000x1 ![] bcast_S_S100000x1 : (⟨S_, .f32⟩ : BufTy).Contents (Elt F) → (⟨S100000x1, .f32⟩ : BufTy).Contents (Elt F)),
    binary main_v64 main_v65 main_v66 (maximumf : (⟨S100000x1, .f32⟩ : BufTy).Contents (Elt F) → (⟨S100000x1, .f32⟩ : BufTy).Contents (Elt F) → (⟨S100000x1, .f32⟩ : BufTy).Contents (Elt F)),
    unary main_v66 main_v67 (broadcastInDim S100000x40 ![0, 1] bcast_S100000x1_S100000x40_0_1 : (⟨S100000x1, .f32⟩ : BufTy).Contents (Elt F) → (⟨S100000x40, .f32⟩ : BufTy).Contents (Elt F)),
    binary main_v63 main_v67 main_v68 (Host.divf : (⟨S100000x40, .f32⟩ : BufTy).Contents (Elt F) → (⟨S100000x40, .f32⟩ : BufTy).Contents (Elt F) → (⟨S100000x40, .f32⟩ : BufTy).Contents (Elt F)) ]

/-- The fifth stretch: the row-wise log-softmax, from `main_v68` to the result `main_v69`. -/
abbrev o5 : List (HloOp τ sig (Elt F)) :=
  [ TRef.nullary (TRef.of (T := ⟨S_, .f32⟩) main_call3_cst) (constant S_ .f32 0xFF800000#32),
    TRef.binary (TRef.of (T := ⟨S100000x40, .f32⟩) main_v68) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v68) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v69) subf ]

/-- The line of operations is the five stretches one after the other. -/
theorem ops_eq : (ops : List (HloOp τ sig (Elt F))) = o1 ++ (o2 ++ (o3 ++ (o4 ++ o5))) := rfl

/-- The head of the first stretch: the edge list's two rows, each sliced out and flattened. -/
abbrev o1a : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- The rest of the first stretch. -/
abbrev o1b : List (HloOp τ sig (Elt F)) :=
  [ nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    unary main_arg2 main_v23 ((transpose S128x128 [1, 0] · transposes_S128x128_S128x128_1_0) : (⟨S128x128, .f32⟩ : BufTy).Contents (Elt F) → (⟨S128x128, .f32⟩ : BufTy).Contents (Elt F)),
    binary main_v22 main_v23 main_v24 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v25 (broadcastInDim S1x128 ![1] bcast_S128_S1x128_1 : (⟨S128, .f32⟩ : BufTy).Contents (Elt F) → (⟨S1x128, .f32⟩ : BufTy).Contents (Elt F)),
    unary main_v25 main_v26 (broadcastInDim S100000x128 ![0, 1] bcast_S1x128_S100000x128_0_1 : (⟨S1x128, .f32⟩ : BufTy).Contents (Elt F) → (⟨S100000x128, .f32⟩ : BufTy).Contents (Elt F)),
    binary main_v24 main_v26 main_v27 (addf : (⟨S100000x128, .f32⟩ : BufTy).Contents (Elt F) → (⟨S100000x128, .f32⟩ : BufTy).Contents (Elt F) → (⟨S100000x128, .f32⟩ : BufTy).Contents (Elt F)),
    unary main_arg4 main_v28 ((transpose S128x128 [1, 0] · transposes_S128x128_S128x128_1_0) : (⟨S128x128, .f32⟩ : BufTy).Contents (Elt F) → (⟨S128x128, .f32⟩ : BufTy).Contents (Elt F)),
    binary main_arg0 main_v28 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v27 main_v29 main_v30 (addf : (⟨S100000x128, .f32⟩ : BufTy).Contents (Elt F) → (⟨S100000x128, .f32⟩ : BufTy).Contents (Elt F) → (⟨S100000x128, .f32⟩ : BufTy).Contents (Elt F)) ]

/-- The first stretch is its head followed by its rest. -/
theorem o1_eq : (o1 : List (HloOp τ sig (Elt F))) = o1a ++ o1b := rfl

/-! ## What each stretch writes

Every operation writes one buffer.  A buffer that is none of the buffers a stretch's operations write holds after the stretch
what it held before. -/

/-- An operation that writes the single buffer `y`, a member of the list `L`, writes only buffers of `L`. -/
theorem writes_sub {L : List (Ref sig .tc)} (op : HloOp τ sig (Elt F)) (y : Ref sig .tc)
    (hw : op.writes = {Proc.devRef .tc y}) (hy : y ∈ L) :
    op.writes ⊆ (L.map (Proc.devRef (τ := τ) .tc)).toFinset := by
  rw [hw, Finset.singleton_subset_iff, List.mem_toFinset]
  exact List.mem_map.mpr ⟨y, hy, rfl⟩

/-- The buffers the first stretch writes, in order. -/
abbrev w1 : List (Ref sig .tc) :=
  [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27, main_v28, main_v29, main_v30]

/-- Every operation of the first stretch writes a buffer of `w1`. -/
theorem o1_writes : (o1 (F := F)).Forall fun op => op.writes ⊆ ((w1).map (Proc.devRef (τ := τ) .tc)).toFinset :=
  ⟨writes_sub _ main_v0 rfl (by decide),
   writes_sub _ main_v1 rfl (by decide),
   writes_sub _ main_v2 rfl (by decide),
   writes_sub _ main_v3 rfl (by decide),
   writes_sub _ main_c rfl (by decide),
   writes_sub _ main_v4 rfl (by decide),
   writes_sub _ main_v5 rfl (by decide),
   writes_sub _ main_c_0 rfl (by decide),
   writes_sub _ main_v6 rfl (by decide),
   writes_sub _ main_v7 rfl (by decide),
   writes_sub _ main_v8 rfl (by decide),
   writes_sub _ main_v9 rfl (by decide),
   writes_sub _ main_v10 rfl (by decide),
   writes_sub _ main_cst rfl (by decide),
   writes_sub _ main_v11 rfl (by decide),
   writes_sub _ main_v12 rfl (by decide),
   writes_sub _ main_v13 rfl (by decide),
   writes_sub _ main_cst_1 rfl (by decide),
   writes_sub _ main_v14 rfl (by decide),
   writes_sub _ main_cst_2 rfl (by decide),
   writes_sub _ main_v15 rfl (by decide),
   writes_sub _ main_v16 rfl (by decide),
   writes_sub _ main_v17 rfl (by decide),
   writes_sub _ main_cst_3 rfl (by decide),
   writes_sub _ main_v18 rfl (by decide),
   writes_sub _ main_v19 rfl (by decide),
   writes_sub _ main_v20 rfl (by decide),
   writes_sub _ main_v21 rfl (by decide),
   writes_sub _ main_v22 rfl (by decide),
   writes_sub _ main_v23 rfl (by decide),
   writes_sub _ main_v24 rfl (by decide),
   writes_sub _ main_v25 rfl (by decide),
   writes_sub _ main_v26 rfl (by decide),
   writes_sub _ main_v27 rfl (by decide),
   writes_sub _ main_v28 rfl (by decide),
   writes_sub _ main_v29 rfl (by decide),
   writes_sub _ main_v30 rfl (by decide)⟩

/-- A buffer the first stretch does not write keeps its contents. -/
theorem f1 (W : Valuation τ sig (Elt F)) (r : Ref sig .tc) (hr : r ∉ w1) :
    after (o1 (F := F)) W (Proc.devRef .tc r) = W (Proc.devRef .tc r) :=
  after_of_writes_sub _ W o1_writes hr

/-- The buffers the second stretch writes, in order. -/
abbrev w2 : List (Ref sig .tc) :=
  [main_call0_v0, main_call0_cst, main_call0_v1, main_call0_v2, main_v31, main_cst_4, main_v32, main_v33, main_v34, main_v35, main_call1_cst, main_call1_v0, main_v36]

/-- Every operation of the second stretch writes a buffer of `w2`. -/
theorem o2_writes : (o2 (F := F)).Forall fun op => op.writes ⊆ ((w2).map (Proc.devRef (τ := τ) .tc)).toFinset :=
  ⟨writes_sub _ main_call0_v0 rfl (by decide),
   writes_sub _ main_call0_cst rfl (by decide),
   writes_sub _ main_call0_v1 rfl (by decide),
   writes_sub _ main_call0_v2 rfl (by decide),
   writes_sub _ main_v31 rfl (by decide),
   writes_sub _ main_cst_4 rfl (by decide),
   writes_sub _ main_v32 rfl (by decide),
   writes_sub _ main_v33 rfl (by decide),
   writes_sub _ main_v34 rfl (by decide),
   writes_sub _ main_v35 rfl (by decide),
   writes_sub _ main_call1_cst rfl (by decide),
   writes_sub _ main_call1_v0 rfl (by decide),
   writes_sub _ main_v36 rfl (by decide)⟩

/-- A buffer the second stretch does not write keeps its contents. -/
theorem f2 (W : Valuation τ sig (Elt F)) (r : Ref sig .tc) (hr : r ∉ w2) :
    after (o2 (F := F)) W (Proc.devRef .tc r) = W (Proc.devRef .tc r) :=
  after_of_writes_sub _ W o2_writes hr

/-- The buffers the third stretch writes, in order. -/
abbrev w3 : List (Ref sig .tc) :=
  [main_c_5, main_v37, main_v38, main_c_6, main_v39, main_v40, main_v41, main_v42, main_v43, main_cst_7, main_v44, main_v45, main_v46, main_cst_8, main_v47, main_cst_9, main_v48, main_v49, main_v50, main_cst_10, main_v51, main_v52, main_v53, main_v54, main_v55, main_v56, main_v57, main_v58, main_v59, main_v60, main_v61, main_v62, main_v63]

/-- Every operation of the third stretch writes a buffer of `w3`. -/
theorem o3_writes : (o3 (F := F)).Forall fun op => op.writes ⊆ ((w3).map (Proc.devRef (τ := τ) .tc)).toFinset :=
  ⟨writes_sub _ main_c_5 rfl (by decide),
   writes_sub _ main_v37 rfl (by decide),
   writes_sub _ main_v38 rfl (by decide),
   writes_sub _ main_c_6 rfl (by decide),
   writes_sub _ main_v39 rfl (by decide),
   writes_sub _ main_v40 rfl (by decide),
   writes_sub _ main_v41 rfl (by decide),
   writes_sub _ main_v42 rfl (by decide),
   writes_sub _ main_v43 rfl (by decide),
   writes_sub _ main_cst_7 rfl (by decide),
   writes_sub _ main_v44 rfl (by decide),
   writes_sub _ main_v45 rfl (by decide),
   writes_sub _ main_v46 rfl (by decide),
   writes_sub _ main_cst_8 rfl (by decide),
   writes_sub _ main_v47 rfl (by decide),
   writes_sub _ main_cst_9 rfl (by decide),
   writes_sub _ main_v48 rfl (by decide),
   writes_sub _ main_v49 rfl (by decide),
   writes_sub _ main_v50 rfl (by decide),
   writes_sub _ main_cst_10 rfl (by decide),
   writes_sub _ main_v51 rfl (by decide),
   writes_sub _ main_v52 rfl (by decide),
   writes_sub _ main_v53 rfl (by decide),
   writes_sub _ main_v54 rfl (by decide),
   writes_sub _ main_v55 rfl (by decide),
   writes_sub _ main_v56 rfl (by decide),
   writes_sub _ main_v57 rfl (by decide),
   writes_sub _ main_v58 rfl (by decide),
   writes_sub _ main_v59 rfl (by decide),
   writes_sub _ main_v60 rfl (by decide),
   writes_sub _ main_v61 rfl (by decide),
   writes_sub _ main_v62 rfl (by decide),
   writes_sub _ main_v63 rfl (by decide)⟩

/-- A buffer the third stretch does not write keeps its contents. -/
theorem f3 (W : Valuation τ sig (Elt F)) (r : Ref sig .tc) (hr : r ∉ w3) :
    after (o3 (F := F)) W (Proc.devRef .tc r) = W (Proc.devRef .tc r) :=
  after_of_writes_sub _ W o3_writes hr

/-- The buffers the fourth stretch writes, in order. -/
abbrev w4 : List (Ref sig .tc) :=
  [main_call2_v0, main_call2_cst, main_call2_v1, main_call2_v2, main_v64, main_cst_11, main_v65, main_v66, main_v67, main_v68]

/-- Every operation of the fourth stretch writes a buffer of `w4`. -/
theorem o4_writes : (o4 (F := F)).Forall fun op => op.writes ⊆ ((w4).map (Proc.devRef (τ := τ) .tc)).toFinset :=
  ⟨writes_sub _ main_call2_v0 rfl (by decide),
   writes_sub _ main_call2_cst rfl (by decide),
   writes_sub _ main_call2_v1 rfl (by decide),
   writes_sub _ main_call2_v2 rfl (by decide),
   writes_sub _ main_v64 rfl (by decide),
   writes_sub _ main_cst_11 rfl (by decide),
   writes_sub _ main_v65 rfl (by decide),
   writes_sub _ main_v66 rfl (by decide),
   writes_sub _ main_v67 rfl (by decide),
   writes_sub _ main_v68 rfl (by decide)⟩

/-- A buffer the fourth stretch does not write keeps its contents. -/
theorem f4 (W : Valuation τ sig (Elt F)) (r : Ref sig .tc) (hr : r ∉ w4) :
    after (o4 (F := F)) W (Proc.devRef .tc r) = W (Proc.devRef .tc r) :=
  after_of_writes_sub _ W o4_writes hr

/-- The buffers the fifth stretch writes, in order. -/
abbrev w5 : List (Ref sig .tc) :=
  [main_call3_cst, main_call3_v0, main_call3_cst_0, main_call3_v1, main_call3_v2, main_call3_v3, main_call3_v4, main_call3_v5, main_call3_v6, main_call3_cst_1, main_call3_v7, main_call3_v8, main_call3_v9, main_call3_v10, main_v69]

/-- Every operation of the fifth stretch writes a buffer of `w5`. -/
theorem o5_writes : (o5 (F := F)).Forall fun op => op.writes ⊆ ((w5).map (Proc.devRef (τ := τ) .tc)).toFinset :=
  ⟨writes_sub _ main_call3_cst rfl (by decide),
   writes_sub _ main_call3_v0 rfl (by decide),
   writes_sub _ main_call3_cst_0 rfl (by decide),
   writes_sub _ main_call3_v1 rfl (by decide),
   writes_sub _ main_call3_v2 rfl (by decide),
   writes_sub _ main_call3_v3 rfl (by decide),
   writes_sub _ main_call3_v4 rfl (by decide),
   writes_sub _ main_call3_v5 rfl (by decide),
   writes_sub _ main_call3_v6 rfl (by decide),
   writes_sub _ main_call3_cst_1 rfl (by decide),
   writes_sub _ main_call3_v7 rfl (by decide),
   writes_sub _ main_call3_v8 rfl (by decide),
   writes_sub _ main_call3_v9 rfl (by decide),
   writes_sub _ main_call3_v10 rfl (by decide),
   writes_sub _ main_v69 rfl (by decide)⟩

/-- A buffer the fifth stretch does not write keeps its contents. -/
theorem f5 (W : Valuation τ sig (Elt F)) (r : Ref sig .tc) (hr : r ∉ w5) :
    after (o5 (F := F)) W (Proc.devRef .tc r) = W (Proc.devRef .tc r) :=
  after_of_writes_sub _ W o5_writes hr

/-- The buffers the rest of the first stretch writes, in order. -/
abbrev w1b : List (Ref sig .tc) :=
  [main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27, main_v28, main_v29, main_v30]

/-- Every operation of the rest of the first stretch writes a buffer of `w1b`. -/
theorem o1b_writes : (o1b (F := F)).Forall fun op => op.writes ⊆ ((w1b).map (Proc.devRef (τ := τ) .tc)).toFinset :=
  ⟨writes_sub _ main_c rfl (by decide),
   writes_sub _ main_v4 rfl (by decide),
   writes_sub _ main_v5 rfl (by decide),
   writes_sub _ main_c_0 rfl (by decide),
   writes_sub _ main_v6 rfl (by decide),
   writes_sub _ main_v7 rfl (by decide),
   writes_sub _ main_v8 rfl (by decide),
   writes_sub _ main_v9 rfl (by decide),
   writes_sub _ main_v10 rfl (by decide),
   writes_sub _ main_cst rfl (by decide),
   writes_sub _ main_v11 rfl (by decide),
   writes_sub _ main_v12 rfl (by decide),
   writes_sub _ main_v13 rfl (by decide),
   writes_sub _ main_cst_1 rfl (by decide),
   writes_sub _ main_v14 rfl (by decide),
   writes_sub _ main_cst_2 rfl (by decide),
   writes_sub _ main_v15 rfl (by decide),
   writes_sub _ main_v16 rfl (by decide),
   writes_sub _ main_v17 rfl (by decide),
   writes_sub _ main_cst_3 rfl (by decide),
   writes_sub _ main_v18 rfl (by decide),
   writes_sub _ main_v19 rfl (by decide),
   writes_sub _ main_v20 rfl (by decide),
   writes_sub _ main_v21 rfl (by decide),
   writes_sub _ main_v22 rfl (by decide),
   writes_sub _ main_v23 rfl (by decide),
   writes_sub _ main_v24 rfl (by decide),
   writes_sub _ main_v25 rfl (by decide),
   writes_sub _ main_v26 rfl (by decide),
   writes_sub _ main_v27 rfl (by decide),
   writes_sub _ main_v28 rfl (by decide),
   writes_sub _ main_v29 rfl (by decide),
   writes_sub _ main_v30 rfl (by decide)⟩

/-- A buffer the rest of the first stretch does not write keeps its contents. -/
theorem f1b (W : Valuation τ sig (Elt F)) (r : Ref sig .tc) (hr : r ∉ w1b) :
    after (o1b (F := F)) W (Proc.devRef .tc r) = W (Proc.devRef .tc r) :=
  after_of_writes_sub _ W o1b_writes hr

/-! ## The first stretch, from any valuation -/

/-- After the first stretch the rows before the first normalization hold their staged value of what the valuation
    held at the first five arguments. -/
theorem s1_v30 (W : Valuation τ sig (Elt F)) :
    after (o1 (F := F)) W (Proc.devRef .tc main_v30)
      = val_main_v30 (W (Proc.devRef .tc main_arg0)) (W (Proc.devRef .tc main_arg1)) (W (Proc.devRef .tc main_arg2)) (W (Proc.devRef .tc main_arg3)) (W (Proc.devRef .tc main_arg4)) := by
  after_results_simp
  rfl

/-- After the first stretch the row of edge sources holds its staged value of the edge list: the head of the stretch writes it and
    the rest leaves it. -/
theorem s1_v1 (W : Valuation τ sig (Elt F)) :
    after (o1 (F := F)) W (Proc.devRef .tc main_v1) = val_main_v1 (W (Proc.devRef .tc main_arg1)) := by
  rw [o1_eq, after_append, f1b _ main_v1 (by decide)]
  after_results_simp
  rfl

/-- After the first stretch the row of edge targets holds its staged value of the edge list: the head of the stretch writes it and
    the rest leaves it. -/
theorem s1_v3 (W : Valuation τ sig (Elt F)) :
    after (o1 (F := F)) W (Proc.devRef .tc main_v3) = val_main_v3 (W (Proc.devRef .tc main_arg1)) := by
  rw [o1_eq, after_append, f1b _ main_v3 (by decide)]
  after_results_simp
  rfl

/-! ## The second stretch -/

/-- If the rows before the first normalization hold their staged value, then after the second stretch (the division of each row by its
    clamped Euclidean norm, then the rectifier) the hidden layer holds its staged value. -/
theorem s2_v36 (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F))
    (h30 : W (Proc.devRef .tc main_v30) = val_main_v30 x0 x1 x2 x3 x4) :
    after (o2 (F := F)) W (Proc.devRef .tc main_v36) = val_main_v36 x0 x1 x2 x3 x4 := by
  after_results_simp
  simp only [TRef.ofBuf_toBuf, TRef.toBuf_ofBuf, h30]
  rfl

/-! ## The third stretch -/

/-- If the hidden layer, the two rows of the edge list and the last three arguments hold their staged values, then after the third
    stretch (the second aggregation: gather at the sources, sum into the targets, the mean, the two linear maps and the bias) the rows
    before the second normalization hold their staged value. -/
theorem s3_v63 (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S40x128, .f32⟩ : BufTy).Contents (Elt F)) (x6 : (⟨S40, .f32⟩ : BufTy).Contents (Elt F)) (x7 : (⟨S40x128, .f32⟩ : BufTy).Contents (Elt F))
    (h36 : W (Proc.devRef .tc main_v36) = val_main_v36 x0 x1 x2 x3 x4)
    (h1 : W (Proc.devRef .tc main_v1) = val_main_v1 x1)
    (h3 : W (Proc.devRef .tc main_v3) = val_main_v3 x1)
    (h5 : W (Proc.devRef .tc main_arg5) = x5)
    (h6 : W (Proc.devRef .tc main_arg6) = x6)
    (h7 : W (Proc.devRef .tc main_arg7) = x7) :
    after (o3 (F := F)) W (Proc.devRef .tc main_v63) = val_main_v63 x0 x1 x2 x3 x4 x5 x6 x7 := by
  after_results_simp
  simp only [TRef.ofBuf_toBuf, TRef.toBuf_ofBuf, h36, h1, h3, h5, h6, h7]
  rfl

/-! ## The fourth stretch -/

/-- If the rows before the second normalization hold their staged value, then after the fourth stretch (the division of each row by its
    clamped Euclidean norm) the normalized rows hold their staged value. -/
theorem s4_v68 (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S40x128, .f32⟩ : BufTy).Contents (Elt F)) (x6 : (⟨S40, .f32⟩ : BufTy).Contents (Elt F)) (x7 : (⟨S40x128, .f32⟩ : BufTy).Contents (Elt F))
    (h63 : W (Proc.devRef .tc main_v63) = val_main_v63 x0 x1 x2 x3 x4 x5 x6 x7) :
    after (o4 (F := F)) W (Proc.devRef .tc main_v68) = val_main_v68 x0 x1 x2 x3 x4 x5 x6 x7 := by
  after_results_simp
  simp only [TRef.ofBuf_toBuf, TRef.toBuf_ofBuf, h63]
  rfl

/-! ## The fifth stretch -/

/-- If the normalized rows hold their staged value, then after the fifth stretch (each row minus its maximum, minus the logarithm of
    the sum of the exponentials of those differences) the result holds its staged value. -/
theorem s5_v69 (W : Valuation τ sig (Elt F)) (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S40x128, .f32⟩ : BufTy).Contents (Elt F)) (x6 : (⟨S40, .f32⟩ : BufTy).Contents (Elt F)) (x7 : (⟨S40x128, .f32⟩ : BufTy).Contents (Elt F))
    (h68 : W (Proc.devRef .tc main_v68) = val_main_v68 x0 x1 x2 x3 x4 x5 x6 x7) :
    after (o5 (F := F)) W (Proc.devRef .tc main_v69) = val_main_v69 x0 x1 x2 x3 x4 x5 x6 x7 := by
  after_results_simp
  simp only [TRef.ofBuf_toBuf, TRef.toBuf_ofBuf, h68]
  rfl

/-! ## The whole line -/

/-- From the launch contents, the fold of the whole line leaves the result buffer at the staged value of the result of the
    launch contents of the eight arguments: the five stretches chained, each reading what the earlier ones left. -/
theorem result_eq (m : (ℓ : Loc nD τ sig) → Buf (Elt F) ℓ) (c : Dev nD) :
    after (ops (F := F)) (launchContents m c) (Proc.devRef .tc main_v69)
      = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [ops_eq, after_append, after_append, after_append, after_append]
  exact s5_v69 _ _ _ _ _ _ _ _ _
    (s4_v68 _ _ _ _ _ _ _ _ _
      (s3_v63 _ _ _ _ _ _ _ _ _
        (s2_v36 _ _ _ _ _ _ (s1_v30 _))
        ((f2 _ main_v1 (by decide)).trans (s1_v1 _)) ((f2 _ main_v3 (by decide)).trans (s1_v3 _))
        ((f2 _ main_arg5 (by decide)).trans (f1 _ main_arg5 (by decide)))
        ((f2 _ main_arg6 (by decide)).trans (f1 _ main_arg6 (by decide)))
        ((f2 _ main_arg7 (by decide)).trans (f1 _ main_arg7 (by decide)))))

/-- The whole line leaves `main_arg0` as it was: no stretch writes it. -/
theorem arg0_eq (V : Valuation τ sig (Elt F)) :
    after (ops (F := F)) V (Proc.devRef .tc main_arg0) = V (Proc.devRef .tc main_arg0) := by
  rw [ops_eq, after_append, after_append, after_append, after_append, f5 _ main_arg0 (by decide), f4 _ main_arg0 (by decide),
    f3 _ main_arg0 (by decide), f2 _ main_arg0 (by decide), f1 _ main_arg0 (by decide)]

/-- The whole line leaves `main_arg1` as it was: no stretch writes it. -/
theorem arg1_eq (V : Valuation τ sig (Elt F)) :
    after (ops (F := F)) V (Proc.devRef .tc main_arg1) = V (Proc.devRef .tc main_arg1) := by
  rw [ops_eq, after_append, after_append, after_append, after_append, f5 _ main_arg1 (by decide), f4 _ main_arg1 (by decide),
    f3 _ main_arg1 (by decide), f2 _ main_arg1 (by decide), f1 _ main_arg1 (by decide)]

/-- The whole line leaves `main_arg2` as it was: no stretch writes it. -/
theorem arg2_eq (V : Valuation τ sig (Elt F)) :
    after (ops (F := F)) V (Proc.devRef .tc main_arg2) = V (Proc.devRef .tc main_arg2) := by
  rw [ops_eq, after_append, after_append, after_append, after_append, f5 _ main_arg2 (by decide), f4 _ main_arg2 (by decide),
    f3 _ main_arg2 (by decide), f2 _ main_arg2 (by decide), f1 _ main_arg2 (by decide)]

/-- The whole line leaves `main_arg3` as it was: no stretch writes it. -/
theorem arg3_eq (V : Valuation τ sig (Elt F)) :
    after (ops (F := F)) V (Proc.devRef .tc main_arg3) = V (Proc.devRef .tc main_arg3) := by
  rw [ops_eq, after_append, after_append, after_append, after_append, f5 _ main_arg3 (by decide), f4 _ main_arg3 (by decide),
    f3 _ main_arg3 (by decide), f2 _ main_arg3 (by decide), f1 _ main_arg3 (by decide)]

/-- The whole line leaves `main_arg4` as it was: no stretch writes it. -/
theorem arg4_eq (V : Valuation τ sig (Elt F)) :
    after (ops (F := F)) V (Proc.devRef .tc main_arg4) = V (Proc.devRef .tc main_arg4) := by
  rw [ops_eq, after_append, after_append, after_append, after_append, f5 _ main_arg4 (by decide), f4 _ main_arg4 (by decide),
    f3 _ main_arg4 (by decide), f2 _ main_arg4 (by decide), f1 _ main_arg4 (by decide)]

/-- The whole line leaves `main_arg5` as it was: no stretch writes it. -/
theorem arg5_eq (V : Valuation τ sig (Elt F)) :
    after (ops (F := F)) V (Proc.devRef .tc main_arg5) = V (Proc.devRef .tc main_arg5) := by
  rw [ops_eq, after_append, after_append, after_append, after_append, f5 _ main_arg5 (by decide), f4 _ main_arg5 (by decide),
    f3 _ main_arg5 (by decide), f2 _ main_arg5 (by decide), f1 _ main_arg5 (by decide)]

/-- The whole line leaves `main_arg6` as it was: no stretch writes it. -/
theorem arg6_eq (V : Valuation τ sig (Elt F)) :
    after (ops (F := F)) V (Proc.devRef .tc main_arg6) = V (Proc.devRef .tc main_arg6) := by
  rw [ops_eq, after_append, after_append, after_append, after_append, f5 _ main_arg6 (by decide), f4 _ main_arg6 (by decide),
    f3 _ main_arg6 (by decide), f2 _ main_arg6 (by decide), f1 _ main_arg6 (by decide)]

/-- The whole line leaves `main_arg7` as it was: no stretch writes it. -/
theorem arg7_eq (V : Valuation τ sig (Elt F)) :
    after (ops (F := F)) V (Proc.devRef .tc main_arg7) = V (Proc.devRef .tc main_arg7) := by
  rw [ops_eq, after_append, after_append, after_append, after_append, f5 _ main_arg7 (by decide), f4 _ main_arg7 (by decide),
    f3 _ main_arg7 (by decide), f2 _ main_arg7 (by decide), f1 _ main_arg7 (by decide)]

/-- On every device, for any float values, from any memory with zero counters: every weakly fair execution of the reference
    terminates; the result buffer ends at the staged value of the result of the arguments' initial contents, and every argument
    ends as it began. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v69) = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v69).trans (result_eq m c),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_fold m ρ)

end Cert.ReferenceIdeal.RefRun

end
-- ==== Proof.LibEdgeIndex.lean ====
/-
  Gathers and accumulating scatters whose index array is a column [E, 1] of row numbers, read at an index.

  An index column `idx : [E, 1]` names one row per entry `e` (an edge).  Two readings of it occur:

  * a GATHER takes, for entry `e`, the row `idx[e, 0]` of a table with `N` rows — read signed and clamped into
    `[0, N - 1]` (`rowOf`).  From a vector `[N]` the result is `[E]`, its entry `e` the table at that row; from a
    matrix `[N, D]` the result is `[E, D]`, its entry `(e, j)` the table at that row and column `j`.
  * an ACCUMULATING SCATTER adds, for entry `e`, an update into row `idx[e, 0]` of the operand — read signed and
    NOT clamped: an update whose row is outside `[0, N - 1]` is dropped.  Entry `e` lands on row `n` exactly when
    `idx[e, 0] = n` as integers (`lands`).  Over the extended reals the result at row `n` is the operand there plus
    the sum over the entries that land on `n` of their updates; into a matrix `[N, D]` from updates `[E, D]` the
    update `(e, j')` lands on `(n, j)` exactly when `e` lands on `n` and `j' = j`, so column `j` of the result
    collects column `j` of the updates.

  Stated for any extents, over the dimension records with these dimension numbers; a printed record with the same
  numbers is such a record by unfolding.
-/
import Idealize.ShloMosaic.Lib.ValueIdx
import Idealize.ShloMosaic.PureOps.Ideal
import Idealize.ShloMosaic.PureOps.Ideal.Laws

noncomputable section

namespace Cert.EdgeIndex

open Idealize.ShloMosaic Idealize.ShloMosaic.ValueIdx

variable {α : Type} {N E D w : ℕ}

/-- A sum over a rank-1 index set is the sum over its coordinate. -/
def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The index column's entry for `e`. -/
abbrev at0 (e : Fin E) : (⟨2, ![E, 1]⟩ : Shape).Idx := ix2 e (0 : Fin 1)

/-- The row a gather reads for entry `e`: the column's word read signed, clamped into `[0, N - 1]`. -/
def rowOf (hN : 0 < N) (idx : IVec ⟨2, ![E, 1]⟩ w) (e : Fin E) : Fin N :=
  ⟨min (idx (at0 e)).toInt.toNat (N - 1), by omega⟩

/-- Entry `e` of the index column names row `n`, as integers, with no clamping. -/
def lands (idx : IVec ⟨2, ![E, 1]⟩ w) (e : Fin E) (n : Fin N) : Prop := (idx (at0 e)).toInt = (n.val : Int)

instance (idx : IVec ⟨2, ![E, 1]⟩ w) (e : Fin E) (n : Fin N) : Decidable (lands idx e n) := by
  unfold lands; infer_instance

/-! ## Gathers -/

/-- The dimension numbers of `vector[idx]`: one collapsed axis, the index vector on the column's second axis. -/
abbrev vecGather (N E : ℕ) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `vector[idx]` at entry `e`: the vector at the clamped row. -/
theorem vecGather_apply (hN : 0 < N) (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e) = x (ix1 (rowOf hN idx e)) := by
  unfold Host.gather
  congr 1
  funext a
  obtain rfl : a = 0 := Subsingleton.elim _ _
  refine Fin.ext ?_
  show (vecGather N E wf).start (ix1 e) idx 0 + (vecGather N E wf).batchCoord (ix1 e) 0 + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = at0 e := by
    funext b; refine Fin.ext ?_
    match b with
    | ⟨0, _⟩ => rfl
    | ⟨1, _⟩ => rfl
  rw [hsi]
  rfl

/-- The dimension numbers of `matrix[idx]` (whole rows): the row axis collapsed, the column axis an offset axis. -/
abbrev rowGather (N D E : ℕ) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- `matrix[idx]` at entry `(e, j)`: the matrix at the clamped row, column `j`. -/
theorem rowGather_apply (hN : 0 < N) (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGather N D E wf) x idx (ix2 e j) = x (ix2 (rowOf hN idx e) j) := by
  unfold Host.gather
  congr 1
  have h0 : ((rowGather N D E wf).operandIdx (ix2 e j) idx (0 : Fin 2)).val = (rowOf hN idx e).val := by
    show (rowGather N D E wf).start (ix2 e j) idx (0 : Fin 2) + (rowGather N D E wf).batchCoord (ix2 e j) (0 : Fin 2)
      + (rowGather N D E wf).offCoord (ix2 e j) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N D E wf).startIndexMap from List.mem_singleton.mpr rfl)]
    have hsi : (rowGather N D E wf).siIdx (ix2 e j) ⟨List.idxOf (0 : Fin 2) (rowGather N D E wf).startIndexMap,
        List.idxOf_lt_length_iff.2 (List.mem_singleton.mpr rfl)⟩ = at0 e := by
      funext b; refine Fin.ext ?_
      match b with
      | ⟨0, _⟩ => rfl
      | ⟨1, _⟩ => rfl
    rw [hsi]
    rfl
  have h1 : ((rowGather N D E wf).operandIdx (ix2 e j) idx (1 : Fin 2)).val = j.val := by
    show (rowGather N D E wf).start (ix2 e j) idx (1 : Fin 2) + (rowGather N D E wf).batchCoord (ix2 e j) (1 : Fin 2)
      + (rowGather N D E wf).offCoord (ix2 e j) (1 : Fin 2) = _
    rw [GatherDims.batchCoord_eq_zero _ _ _ List.not_mem_nil]
    have hs : (rowGather N D E wf).start (ix2 e j) idx (1 : Fin 2) = 0 := by
      unfold GatherDims.start
      split
      · rename_i h
        exact ((by decide : ¬ (1 : Fin 2) ∈ ([0] : List (Fin 2))) h).elim
      · rfl
    have ho : (rowGather N D E wf).offCoord (ix2 e j) (1 : Fin 2) = j.val := by
      unfold GatherDims.offCoord
      split
      · rfl
      · rename_i h
        exact absurd ((GatherDims.mem_sKept _ _).mpr
          ⟨fun hh => absurd (hh : (1 : Fin 2) ∈ ([0] : List (Fin 2))) (by decide), List.not_mem_nil⟩) h
    rw [hs, ho, Nat.add_zero, Nat.zero_add]
  funext a
  refine Fin.ext ?_
  match a with
  | ⟨0, _⟩ => exact h0
  | ⟨1, _⟩ => exact h1

/-! ## Accumulating scatters -/

/-- An update lands on the operand index `i` exactly when, on every axis, its start plus its window coordinate is
    `i`'s coordinate. -/
theorem resultIdx?_eq_some_iff {s si u : Shape} (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      have hf := Option.some.inj h
      intro a
      have ha := congrArg (fun f => ((f a).val : Int)) hf
      have hb' := (hb a).1
      simp only [Int.toNat_of_nonneg hb'] at ha
      exact ha
    · cases h
  · intro h
    have hb : ∀ a, 0 ≤ d.start j idx a + (d.window j a : Int) ∧ d.start j idx a + (d.window j a : Int) < s.size a := fun a => by
      rw [h a]
      exact ⟨Int.natCast_nonneg _, by exact_mod_cast (i a).isLt⟩
    rw [dif_pos hb]
    congr 1
    funext a
    apply Fin.ext
    show (d.start j idx a + (d.window j a : Int)).toNat = (i a).val
    rw [h a, Int.toNat_natCast]

/-- An operand axis carries a window coordinate exactly when it is not an inserted axis. -/
theorem mem_sKept_iff {s si u : Shape} (d : ScatterDims s si u) (a : Fin s.rank) : a ∈ d.sKept ↔ a ∉ d.insertedWindowDims := by
  simp [ScatterDims.sKept, Shape.kept, List.mem_filter, List.mem_finRange]

/-- The dimension numbers of `vector.at[idx].add(updates)`. -/
abbrev vecScatter (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vecScatter_lands (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ lands idx e n := by
  rw [resultIdx?_eq_some_iff]
  have hstart : (vecScatter N E wf).start (ix1 e) idx (0 : Fin 1) = (idx (at0 e)).toInt := by
    unfold ScatterDims.start
    rw [dif_pos (show (0 : Fin 1) ∈ (vecScatter N E wf).scatterDimsToOperandDims from List.mem_singleton.mpr rfl)]
    congr 2
    funext b; refine Fin.ext ?_
    match b with
    | ⟨0, _⟩ => rfl
    | ⟨1, _⟩ => rfl
  have hwin : (vecScatter N E wf).window (ix1 e) (0 : Fin 1) = 0 := by
    unfold ScatterDims.window
    split
    · rename_i h
      exact absurd (List.mem_singleton.mpr rfl) ((mem_sKept_iff _ _).mp h)
    · rfl
  constructor
  · intro h
    have h0 : (idx (at0 e)).toInt + ((0 : ℕ) : Int) = (n.val : Int) := by
      have := h (0 : Fin 1)
      rw [hstart, hwin] at this
      exact this
    show (idx (at0 e)).toInt = (n.val : Int)
    rw [Nat.cast_zero, add_zero] at h0
    exact h0
  · intro h a
    obtain rfl : a = 0 := Subsingleton.elim _ _
    rw [hstart, hwin]
    show (idx (at0 e)).toInt + ((0 : ℕ) : Int) = (n.val : Int)
    rw [Nat.cast_zero, add_zero]
    exact h

/-- `vector.at[idx].add(updates)` at row `n`, over the extended reals: the operand there plus the updates of the
    entries that land on `n`. -/
theorem vecScatterAdd_apply (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (vecScatter N E wf) x idx upd (ix1 n)
      = x (ix1 n) + ∑ e : Fin E, if lands idx e n then upd (ix1 e) else 0 := by
  show Ideal.hostScatterAdd (vecScatter N E wf) x idx upd (ix1 n) = _
  unfold Ideal.hostScatterAdd
  congr 1
  rw [Finset.sum_filter, sum_idx1]
  exact Finset.sum_congr rfl fun e _ => if_congr (vecScatter_lands wf idx e n) rfl rfl

/-- The dimension numbers of `matrix.at[idx].add(updates)` with whole-row updates. -/
abbrev rowScatter (N D E : ℕ) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

theorem rowScatter_lands (wf : ScatterDims.WF ⟨2, ![N, D]⟩ ⟨2, ![E, 1]⟩ ⟨2, ![E, D]⟩ [1] [0] [0] 1)
    (idx : IVec ⟨2, ![E, 1]⟩ w) (e : Fin E) (j' : Fin D) (n : Fin N) (j : Fin D) :
    (rowScatter N D E wf).resultIdx? (ix2 e j') idx = some (ix2 n j) ↔ lands idx e n ∧ j' = j := by
  rw [resultIdx?_eq_some_iff]
  have hstart0 : (rowScatter N D E wf).start (ix2 e j') idx (0 : Fin 2) = (idx (at0 e)).toInt := by
    unfold ScatterDims.start
    rw [dif_pos (show (0 : Fin 2) ∈ (rowScatter N D E wf).scatterDimsToOperandDims from List.mem_singleton.mpr rfl)]
    congr 2
    funext b; refine Fin.ext ?_
    match b with
    | ⟨0, _⟩ => rfl
    | ⟨1, _⟩ => rfl
  have hwin0 : (rowScatter N D E wf).window (ix2 e j') (0 : Fin 2) = 0 := by
    unfold ScatterDims.window
    split
    · rename_i h
      exact absurd (List.mem_singleton.mpr rfl) ((mem_sKept_iff _ _).mp h)
    · rfl
  have hstart1 : (rowScatter N D E wf).start (ix2 e j') idx (1 : Fin 2) = 0 := by
    unfold ScatterDims.start
    split
    · rename_i h
      exact ((by decide : ¬ (1 : Fin 2) ∈ ([0] : List (Fin 2))) h).elim
    · rfl
  have hwin1 : (rowScatter N D E wf).window (ix2 e j') (1 : Fin 2) = j'.val := by
    unfold ScatterDims.window
    split
    · rfl
    · rename_i h
      exact absurd ((mem_sKept_iff _ _).mpr
        (fun hh => absurd (hh : (1 : Fin 2) ∈ ([0] : List (Fin 2))) (by decide))) h
  constructor
  · intro h
    have h0 : (idx (at0 e)).toInt + ((0 : ℕ) : Int) = (n.val : Int) := by
      have := h (0 : Fin 2)
      rw [hstart0, hwin0] at this
      exact this
    have h1 : (0 : Int) + ((j'.val : ℕ) : Int) = (j.val : Int) := by
      have := h (1 : Fin 2)
      rw [hstart1, hwin1] at this
      exact this
    rw [Nat.cast_zero, add_zero] at h0
    rw [zero_add] at h1
    exact ⟨h0, Fin.ext (by exact_mod_cast h1)⟩
  · rintro ⟨h, rfl⟩ a
    match a with
    | ⟨0, _⟩ =>
      show (rowScatter N D E wf).start (ix2 e j') idx (0 : Fin 2) + (((rowScatter N D E wf).window (ix2 e j') (0 : Fin 2) : ℕ) : Int) = (n.val : Int)
      rw [hstart0, hwin0, Nat.cast_zero, add_zero]
      exact h
    | ⟨1, _⟩ =>
      show (rowScatter N D E wf).start (ix2 e j') idx (1 : Fin 2) + (((rowScatter N D E wf).window (ix2 e j') (1 : Fin 2) : ℕ) : Int) = (j'.val : Int)
      rw [hstart1, hwin1, zero_add]

/-- `matrix.at[idx].add(updates)` at `(n, j)`, over the extended reals: the operand there plus column `j` of the
    updates of the entries that land on row `n`. -/
theorem rowScatterAdd_apply (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32) (n : Fin N) (j : Fin D) :
    Host.scatterAdd (F := Ideal) (rowScatter N D E wf) x idx upd (ix2 n j)
      = x (ix2 n j) + ∑ e : Fin E, if lands idx e n then upd (ix2 e j) else 0 := by
  show Ideal.hostScatterAdd (rowScatter N D E wf) x idx upd (ix2 n j) = _
  unfold Ideal.hostScatterAdd
  congr 1
  rw [Finset.sum_filter, sum_idx2]
  refine Finset.sum_congr rfl fun e _ => ?_
  rw [Finset.sum_congr rfl fun j' _ => if_congr (rowScatter_lands wf idx e j' n j) rfl rfl]
  by_cases h : lands idx e n
  · simp only [h, true_and, if_true]
    rw [Finset.sum_ite_eq' Finset.univ j (fun j' => upd (ix2 e j'))]
    simp
  · simp only [h, false_and, if_false, Finset.sum_const_zero]

end Cert.EdgeIndex

end
-- ==== Proof.LibCountScatter.lean ====
/-
  Counting through an accumulating scatter.

  A scatter whose body adds, over a commutative monoid, does not depend on the order of its updates: read at an
  element it is the operand there plus the sum of the updates that land on it.  Scattering a one for every entry
  of an index column into a vector of zeros therefore COUNTS, per row, the entries that name the row.  Done in
  32-bit integers (the count is far below 2^31, so it does not wrap) and then converted to a float, or done directly
  in floats over the extended reals, the result is the same real number: the number of entries landing on the row.
-/
import Mathlib.Data.BitVec
import Idealize.ShloMosaic.Lib.ValueIdx
import Idealize.ShloMosaic.PureOps.Ideal
import Idealize.ShloMosaic.PureOps.Ideal.Laws
import proofs.«159132_j75479755259981_2_alg».proof.Proof.LibEdgeIndex

noncomputable section

namespace Cert.CountScatter

open Idealize.ShloMosaic Idealize.ShloMosaic.ValueIdx Cert.EdgeIndex

section fold

variable {ι κ α : Type} [DecidableEq κ] [AddCommMonoid α]

/-- A left fold of steps each of which adds a value at (at most) one point, read at a point: the start value there plus
    the added values of the steps that hit the point. -/
theorem foldl_add_apply (step : (κ → α) → ι → κ → α) (ρ : ι → Option κ) (v : ι → α)
    (hstep : ∀ r n i, step r n i = r i + if ρ n = some i then v n else 0) (i : κ) :
    ∀ (l : List ι) (x : κ → α), l.foldl step x i = x i + (l.map fun n => if ρ n = some i then v n else 0).sum
  | [], x => by simp
  | n :: l, x => by
    rw [List.foldl_cons, foldl_add_apply step ρ v hstep i l, hstep, List.map_cons, List.sum_cons, add_assoc]

end fold

/-- A scatter whose body adds over a commutative monoid, at an element: the operand there plus the updates whose
    result index is that element. -/
theorem scatter_add_apply {s si u : Shape} {w : Nat} {α : Type} [AddCommMonoid α] (d : ScatterDims s si u)
    (x : s.Idx → α) (idx : IVec si w) (upd : u.Idx → α) (i : s.Idx) :
    Host.scatter d (fun a b => a + b) x idx upd i
      = x i + ∑ j : u.Idx, if d.resultIdx? j idx = some i then upd j else 0 := by
  unfold Host.scatter
  refine (foldl_add_apply _ (fun n => d.resultIdx? (u.rowMajor.symm n) idx) (fun n => upd (u.rowMajor.symm n)) ?_ i
    (List.finRange u.numel) x).trans ?_
  · intro r n i'
    dsimp only
    by_cases hj : d.resultIdx? (u.rowMajor.symm n) idx = some i'
    · rw [if_pos hj, hj]; simp
    · rw [if_neg hj, add_zero]
      revert hj
      cases d.resultIdx? (u.rowMajor.symm n) idx with
      | none => intro _; rfl
      | some j =>
        intro hj
        have hne : i' ≠ j := fun e => hj (e ▸ rfl)
        show (if i' = j then _ else r i') = r i'
        rw [if_neg hne]
  congr 1
  rw [← Fin.sum_univ_def]
  exact Equiv.sum_comp u.rowMajor.symm (fun j => if d.resultIdx? j idx = some i then upd j else 0)

variable {N E : ℕ}

/-- The number of entries of the index column that name row `n`. -/
def landing (idx : IVec ⟨2, ![E, 1]⟩ 32) (n : Fin N) : ℕ := (Finset.univ.filter fun e : Fin E => lands idx e n).card

theorem landing_le (idx : IVec ⟨2, ![E, 1]⟩ 32) (n : Fin N) : landing idx n ≤ E := by
  unfold landing
  exact (Finset.card_filter_le _ _).trans (by simp)

/-- Ones scattered with integer addition into zeros count the landing entries, as a 32-bit word. -/
theorem int_count (wf : ScatterDims.WF ⟨1, ![N]⟩ ⟨2, ![E, 1]⟩ ⟨1, ![E]⟩ [] [0] [0] 1)
    (idx : IVec ⟨2, ![E, 1]⟩ 32) (x : IVec ⟨1, ![N]⟩ 32) (upd : IVec ⟨1, ![E]⟩ 32)
    (hx : ∀ i, x i = 0#32) (hu : ∀ j, upd j = 1#32) (n : Fin N) :
    Host.scatter (vecScatter N E wf) IntOp.addi x idx upd (ix1 n) = BitVec.ofNat 32 (landing idx n) := by
  refine (scatter_add_apply (α := BitVec 32) (vecScatter N E wf) x idx upd (ix1 n)).trans ?_
  rw [hx, sum_idx1]
  rw [Finset.sum_congr rfl fun e _ => if_congr (vecScatter_lands wf idx e n) (hu (ix1 e)) rfl]
  show (0 : BitVec 32) + ∑ e : Fin E, (if lands idx e n then (1 : BitVec 32) else 0) = _
  rw [zero_add, Finset.sum_boole]
  unfold landing
  exact BitVec.natCast_eq_ofNat _ _

/-- A count below 2^31 read back signed from its 32-bit word is itself. -/
theorem toInt_ofNat_of_lt (k : ℕ) (hk : k < 2 ^ 31) : (BitVec.ofNat 32 k).toInt = (k : Int) := by
  rw [BitVec.toInt_eq_toNat_cond, BitVec.toNat_ofNat]
  have h1 : k % 2 ^ 32 = k := Nat.mod_eq_of_lt (by omega)
  rw [h1, if_pos (by omega)]

/-- The integer count converted to a float, over the extended reals: the number of landing entries. -/
theorem int_count_real (wf : ScatterDims.WF ⟨1, ![N]⟩ ⟨2, ![E, 1]⟩ ⟨1, ![E]⟩ [] [0] [0] 1) (hE : E < 2 ^ 31)
    (idx : IVec ⟨2, ![E, 1]⟩ 32) (x : IVec ⟨1, ![N]⟩ 32) (upd : IVec ⟨1, ![E]⟩ 32)
    (hx : ∀ i, x i = 0#32) (hu : ∀ j, upd j = 1#32) (n : Fin N) :
    (((Host.scatter (vecScatter N E wf) IntOp.addi x idx upd (ix1 n)).toInt : ℝ) : EReal)
      = ((landing idx n : ℝ) : EReal) := by
  rw [int_count wf idx x upd hx hu n, toInt_ofNat_of_lt _ (lt_of_le_of_lt (landing_le idx n) hE)]
  norm_cast

/-- Ones scattered with float addition into zeros, over the extended reals: the number of landing entries. -/
theorem float_count_real (wf : ScatterDims.WF ⟨1, ![N]⟩ ⟨2, ![E, 1]⟩ ⟨1, ![E]⟩ [] [0] [0] 1)
    (idx : IVec ⟨2, ![E, 1]⟩ 32) (x : FVec Ideal ⟨1, ![N]⟩ .f32) (upd : FVec Ideal ⟨1, ![E]⟩ .f32)
    (hx : ∀ i, x i = 0) (hu : ∀ j, upd j = 1) (n : Fin N) :
    Host.scatterAdd (F := Ideal) (vecScatter N E wf) x idx upd (ix1 n) = ((landing idx n : ℝ) : EReal) := by
  rw [vecScatterAdd_apply, hx, zero_add]
  have h : ∀ e : Fin E, (if lands idx e n then upd (ix1 e) else 0) = (((if lands idx e n then 1 else 0 : ℝ)) : EReal) := fun e => by
    rw [hu]; split <;> rfl
  rw [Finset.sum_congr rfl fun e _ => h e]
  have hs : ∀ (s : Finset (Fin E)) (f : Fin E → ℝ), ∑ e ∈ s, ((f e : ℝ) : EReal) = ((∑ e ∈ s, f e : ℝ) : EReal) := fun s f => by
    classical
    induction s using Finset.induction_on with
    | empty => simp
    | insert a s ha ih => rw [Finset.sum_insert ha, Finset.sum_insert ha, EReal.coe_add, ih]
  rw [hs, Finset.sum_boole]
  rfl

end Cert.CountScatter

end
-- ==== Proof.LibBroadcasts.lean ====
/-
  Three broadcasts read at an entry.

  A scalar splat reads the scalar everywhere.  A vector `[a]` laid as a column `[a, 1]` and then along `b` columns reads,
  at `(n, j)`, the vector at `n`.  A vector `[b]` laid as a row `[1, b]` and then down `a` rows reads, at `(n, j)`, the
  vector at `j`.
-/
import Idealize.ShloMosaic.Lib.Pipeline.Value
import Idealize.ShloMosaic.Lib.ValueIdx

noncomputable section

namespace Cert.Broadcasts

open Idealize.ShloMosaic Idealize.ShloMosaic.ValueIdx

variable {α : Type}

/-- A splat of a scalar reads the scalar at every index. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun q => q.elim0)

/-- A vector laid as a column and then along the columns: at `(n, j)` the vector at `n`. -/
theorem alongColumns_apply {a b : ℕ} (d : (⟨1, ![a]⟩ : Shape).Idx → α)
    (h0 : (⟨1, ![a]⟩ : Shape).BroadcastsInDim ⟨2, ![a, 1]⟩ ![0])
    (h1 : (⟨2, ![a, 1]⟩ : Shape).BroadcastsInDim ⟨2, ![a, b]⟩ ![0, 1]) (n : Fin a) (j : Fin b) :
    broadcastInDim ⟨2, ![a, b]⟩ ![0, 1] h1 (broadcastInDim ⟨2, ![a, 1]⟩ ![0] h0 d) (ix2 n j) = d (ix1 n) := by
  refine (broadcastInDim_apply ![0, 1] h1 _ (ix2 n j) (ix2 n (0 : Fin 1)) (fun q => ?_)).trans ?_
  · match q with
    | ⟨0, _⟩ =>
      show n.val = if a = 1 then 0 else n.val
      by_cases ha : a = 1
      · rw [if_pos ha]; have := n.isLt; omega
      · rw [if_neg ha]
    | ⟨1, _⟩ =>
      show (0 : ℕ) = if (1 : ℕ) = 1 then 0 else j.val
      rw [if_pos rfl]
  · refine broadcastInDim_apply ![0] h0 d (ix2 n (0 : Fin 1)) (ix1 n) (fun q => ?_)
    match q with
    | ⟨0, _⟩ =>
      show n.val = if a = 1 then 0 else n.val
      by_cases ha : a = 1
      · rw [if_pos ha]; have := n.isLt; omega
      · rw [if_neg ha]

/-- A vector laid as a row and then down the rows: at `(n, j)` the vector at `j`. -/
theorem downRows_apply {a b : ℕ} (x : (⟨1, ![b]⟩ : Shape).Idx → α)
    (h0 : (⟨1, ![b]⟩ : Shape).BroadcastsInDim ⟨2, ![1, b]⟩ ![1])
    (h1 : (⟨2, ![1, b]⟩ : Shape).BroadcastsInDim ⟨2, ![a, b]⟩ ![0, 1]) (n : Fin a) (j : Fin b) :
    broadcastInDim ⟨2, ![a, b]⟩ ![0, 1] h1 (broadcastInDim ⟨2, ![1, b]⟩ ![1] h0 x) (ix2 n j) = x (ix1 j) := by
  refine (broadcastInDim_apply ![0, 1] h1 _ (ix2 n j) (ix2 (0 : Fin 1) j) (fun q => ?_)).trans ?_
  · match q with
    | ⟨0, _⟩ =>
      show (0 : ℕ) = if (1 : ℕ) = 1 then 0 else n.val
      rw [if_pos rfl]
    | ⟨1, _⟩ =>
      show j.val = if b = 1 then 0 else j.val
      by_cases hb : b = 1
      · rw [if_pos hb]; have := j.isLt; omega
      · rw [if_neg hb]
  · refine broadcastInDim_apply ![1] h0 x (ix2 (0 : Fin 1) j) (ix1 j) (fun q => ?_)
    match q with
    | ⟨0, _⟩ =>
      show j.val = if b = 1 then 0 else j.val
      by_cases hb : b = 1
      · rw [if_pos hb]; have := j.isLt; omega
      · rw [if_neg hb]

/-- A vector laid as a column: at `(n, u)` the vector at `n`. -/
theorem column_apply {a : ℕ} (d : (⟨1, ![a]⟩ : Shape).Idx → α)
    (h0 : (⟨1, ![a]⟩ : Shape).BroadcastsInDim ⟨2, ![a, 1]⟩ ![0]) (n : Fin a) (u : Fin 1) :
    broadcastInDim ⟨2, ![a, 1]⟩ ![0] h0 d (ix2 n u) = d (ix1 n) := by
  refine broadcastInDim_apply ![0] h0 d (ix2 n u) (ix1 n) (fun q => ?_)
  match q with
  | ⟨0, _⟩ =>
    show n.val = if a = 1 then 0 else n.val
    by_cases ha : a = 1
    · rw [if_pos ha]; have := n.isLt; omega
    · rw [if_neg ha]

end Cert.Broadcasts

end
-- ==== Proof.LibRowVector.lean ====
/-
  A vector laid out as a row. Reshaping a vector of n entries to a [1, n] array and broadcasting it to a [1, n] array
  along the second axis give the same array: entry (0, j) of either is entry j of the vector.
-/
import Idealize.ShloMosaic.Lib.Pipeline.Value
import Idealize.ShloMosaic.Lib.ValueIdx

noncomputable section

namespace Cert.RowVector

open Idealize.ShloMosaic

variable {α : Type} {n : ℕ}

/-- The reshape of a vector to a row, read at an entry: the vector at the entry's column. -/
theorem reshape_apply (x : (⟨1, ![n]⟩ : Shape).Idx → α) (h : (⟨1, ![n]⟩ : Shape).ShapeCasts ⟨2, ![1, n]⟩)
    (j : (⟨2, ![1, n]⟩ : Shape).Idx) : shapeCast ⟨2, ![1, n]⟩ x h j = x (fun a => j a.succ) :=
  shapeCast_addUnit_apply ![n] x h j

/-- The broadcast of a vector to a row along the second axis, read at an entry: the vector at the entry's column. -/
theorem broadcast_apply (x : (⟨1, ![n]⟩ : Shape).Idx → α) (h : (⟨1, ![n]⟩ : Shape).BroadcastsInDim ⟨2, ![1, n]⟩ ![1])
    (j : (⟨2, ![1, n]⟩ : Shape).Idx) : broadcastInDim ⟨2, ![1, n]⟩ ![1] h x j = x (fun a => j a.succ) := by
  refine broadcastInDim_apply ![1] h x j (fun a => j a.succ) (fun a => ?_)
  match a with
  | ⟨0, _⟩ =>
    show (j 1).val = if n = 1 then 0 else (j 1).val
    by_cases h1 : n = 1
    · rw [if_pos h1]
      have hlt : (j 1).val < n := (j 1).isLt
      omega
    · rw [if_neg h1]

/-- The two layouts are one array. -/
theorem reshape_eq_broadcast (x : (⟨1, ![n]⟩ : Shape).Idx → α) (h : (⟨1, ![n]⟩ : Shape).ShapeCasts ⟨2, ![1, n]⟩)
    (hb : (⟨1, ![n]⟩ : Shape).BroadcastsInDim ⟨2, ![1, n]⟩ ![1]) :
    shapeCast ⟨2, ![1, n]⟩ x h = broadcastInDim ⟨2, ![1, n]⟩ ![1] hb x :=
  funext fun j => (reshape_apply x h j).trans (broadcast_apply x hb j).symm

end Cert.RowVector

end
-- ==== Proof.LibRealLaw.lean ====
/-
  Extended reals that are real numbers, and the one law this certificate rests on.

  Both programs score a user against every point of interest by the inner product of the user's preference
  vector `u` (256 entries) with the point's region embedding `r`, scaled by `a`.  One program scales the
  preference vector first and then takes the inner product, `∑ k, (u k * a) * r k`; the other takes the inner
  product and scales the result, `a * ∑ k, u k * r k`.  On the extended reals a factor moves across a sum only
  when no term is infinite, so the law is stated for entries that are real numbers; it is then the ring identity
  `∑ k, (u k * a) * r k = a * ∑ k, u k * r k` in `ℝ`.

  The rest of the file says which operations keep an extended real a real number: products, sums over a finite
  index set, maxima, and the ideal quotient by a divisor that is at least one.
-/
import Idealize.ShloMosaic.PureOps.Ideal
import Idealize.ShloMosaic.PureOps.Ideal.Laws

noncomputable section

namespace Cert.Scores

open Idealize.ShloMosaic

/-- The extended real `x` is a real number (neither infinity). -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The maximum of a real number and one is a real number that is not zero. -/
theorem max_one_eq (s : ℝ) : max (s : EReal) 1 = ((max s 1 : ℝ) : EReal) := by
  have h := (EReal.coe_strictMono.monotone).map_max (a := s) (b := (1 : ℝ))
  rw [h]; rfl

/-- The ideal quotient of a real number by the maximum of a real number and one is a real number: the divisor is
    a real number at least one, so it is not zero and the quotient is the product with its reciprocal. -/
theorem IsReal.div_max_one {x s : EReal} (hx : IsReal x) (hs : IsReal s) : IsReal (Ideal.div x (max s 1)) := by
  obtain ⟨s', rfl⟩ := hs
  rw [max_one_eq, Ideal.div_coe (ne_of_gt (lt_of_lt_of_le one_pos (le_max_right s' 1)))]
  exact hx.mul (isReal_coe _)

/-- THE LAW.  For real entries, scaling the first factor of every product by `a` scales the inner product by `a`. -/
theorem scaled_inner {n : Nat} (u r : Fin n → EReal) (a : EReal)
    (hu : ∀ k, IsReal (u k)) (hr : ∀ k, IsReal (r k)) (ha : IsReal a) :
    ∑ k : Fin n, (u k * a) * r k = a * ∑ k : Fin n, u k * r k := by
  choose u' hu' using hu
  choose r' hr' using hr
  obtain ⟨a', rfl⟩ := ha
  have hl : ∀ k : Fin n, (u k * (a' : EReal)) * r k = ((u' k * a' * r' k : ℝ) : EReal) := fun k => by
    rw [hu' k, hr' k, EReal.coe_mul, EReal.coe_mul]
  have hr2 : ∀ k : Fin n, u k * r k = ((u' k * r' k : ℝ) : EReal) := fun k => by
    rw [hu' k, hr' k, EReal.coe_mul]
  rw [Finset.sum_congr rfl fun k _ => hl k, Finset.sum_congr rfl fun k _ => hr2 k, ← coe_sum, ← coe_sum,
    ← EReal.coe_mul, Finset.mul_sum]
  exact congrArg _ (Finset.sum_congr rfl fun k _ => by ring)

end Cert.Scores

end
-- ==== Proof.KernelHostRead.lean ====
/-
  The host side of the idealized kernel program read at an index.

  The reciprocal count column at node `n` is one over the clamped count, and the clamped count is the real number
  max(number of edges arriving at `n`, 1).  An aggregate's entry `(n, k)` is the sum, over the edges that arrive at
  node `n`, of entry `k` of the row of the edge's source node (the source row read clamped into the table): the zeros
  the sum is added into contribute nothing, and the changes of float format are the identity.  The projected hidden
  features at `(r, j)` are the sum over `k` of the hidden entry `(r, k)` times the input-major table at `(k, j)`.
-/
import proofs.«159132_j75479755259981_2_alg».proof.Proof.KernelHost
import proofs.«159132_j75479755259981_2_alg».proof.Proof.LibEdgeIndex
import proofs.«159132_j75479755259981_2_alg».proof.Proof.LibCountScatter
import proofs.«159132_j75479755259981_2_alg».proof.Proof.LibBroadcasts
import proofs.«159132_j75479755259981_2_alg».proof.Proof.LibColumn
import proofs.«159132_j75479755259981_2_alg».proof.Proof.LibPlainDot
import proofs.«159132_j75479755259981_2_alg».proof.Proof.LibRowVector
import proofs.«159132_j75479755259981_2_alg».proof.Proof.LibRealLaw

noncomputable section

namespace Cert.KernelIdeal.HostSide

open Idealize.ShloMosaic Idealize.ShloMosaic.ValueIdx
open Cert.KernelIdeal Cert.KernelIdeal.Facts₀ Cert.EdgeIndex Cert.CountScatter

/-- The single-precision word of one is the real number one. -/
theorem one_word : Ideal.ofBits .f32 0x3F800000#32 = 1 := by
  show Ideal.ofBits .f32 0x3F800000#32 = ((1 : ℝ) : EReal)
  simp [Ideal.ofBits, Ideal.ieee, -EReal.coe_mul]
  try norm_num

/-- The number of nodes is positive. -/
theorem nodes_pos : 0 < 100000 := by norm_num

/-! ### The printed dimension records are the plain ones -/

/-- The count's scatter adds single updates through the index column into a vector. -/
theorem countRecord : scatter_S100000_S1600000x1_S1600000_n_0_0_1
    = vecScatter 100000 1600000 scatter_S100000_S1600000x1_S1600000_n_0_0_1_wf := rfl

/-- The aggregates' scatters add whole rows through the index column into a matrix. -/
theorem rowRecord128 : scatter_S100000x128_S1600000x1_S1600000x128_1_0_0_1
    = rowScatter 100000 128 1600000 scatter_S100000x128_S1600000x1_S1600000x128_1_0_0_1_wf := rfl
theorem rowRecord40 : scatter_S100000x40_S1600000x1_S1600000x40_1_0_0_1
    = rowScatter 100000 40 1600000 scatter_S100000x40_S1600000x1_S1600000x40_1_0_0_1_wf := rfl

/-- The gathers take whole rows of a matrix through the index column. -/
theorem gatherRecord128 : gather_S100000x128_S1600000x1_S1600000x128_1_0_n_n_0_1_1128
    = rowGather 100000 128 1600000 gather_S100000x128_S1600000x1_S1600000x128_1_0_n_n_0_1_1128_wf := rfl
theorem gatherRecord40 : gather_S100000x40_S1600000x1_S1600000x40_1_0_n_n_0_1_140
    = rowGather 100000 40 1600000 gather_S100000x40_S1600000x1_S1600000x40_1_0_n_n_0_1_140_wf := rfl

/-- The projection is the plain product of a [100000,128] by a [128,40] matrix. -/
theorem dotRecord : dot_S100000x128_S128x40_S100000x40_1_0_0_1_n_n = DotDims.plain 100000 128 40 := rfl

/-- The host's quotient is taken entry by entry. -/
theorem hostDivf_apply {s : Shape} (a b : FVec Ideal s .f32) (i : s.Idx) : Host.divf (F := Ideal) a b i = Ideal.div (a i) (b i) := rfl

/-- The clamped count at node `n`: the real number max(edges arriving at `n`, 1). -/
theorem clampedCount_apply (d : IArr S1600000) (n : Fin 100000) :
    clampedCount d (ix1 n) = ((max (landing (dstCol d) n : ℝ) 1 : ℝ) : EReal) := by
  unfold clampedCount
  rw [maximumf_apply, countRecord, float_count_real _ _ _ _ (fun i => ?_) (fun j => ?_) n, Cert.Broadcasts.splat_apply,
    constant_apply, one_word]
  · exact Cert.Scores.max_one_eq _
  · rw [Cert.Broadcasts.splat_apply, constant_apply]
    exact Ideal.ofBits_zero_f32
  · rw [Cert.Broadcasts.splat_apply, constant_apply]
    exact one_word

/-- The reciprocal count column at node `n`: one over the clamped count. -/
theorem recipCol_apply (d : IArr S1600000) (n : Fin 100000) :
    recipCol d (ix2 n (0 : Fin 1)) = Ideal.div 1 (clampedCount d (ix1 n)) := by
  unfold recipCol
  rw [Cert.GraphConv.Column.shapeCast_a_a1_apply, hostDivf_apply, Cert.Broadcasts.splat_apply, constant_apply, one_word]

/-- The first aggregate at `(n, k)`: the sum over the edges arriving at `n` of the source row's entry `k`. -/
theorem aggregate1_apply (x : FArr S100000x128) (s d : IArr S1600000) (n : Fin 100000) (k : Fin 128) :
    aggregate1 x s d (ix2 n k)
      = ∑ e : Fin 1600000, if lands (dstCol d) e n then x (ix2 (rowOf nodes_pos (srcCol s) e) k) else 0 := by
  unfold aggregate1
  rw [rowRecord128, rowScatterAdd_apply, Cert.Broadcasts.splat_apply, constant_apply, Ideal.ofBits_zero_f32, zero_add]
  refine Finset.sum_congr rfl fun e _ => if_congr Iff.rfl ?_ rfl
  rw [extf_apply, gatherRecord128, rowGather_apply nodes_pos, truncf_apply]

/-- The projected hidden features at `(r, j)`: the row of hidden features against the input-major table. -/
theorem projected_apply (h : FArr S100000x128) (w : FArr S40x128) (r : Fin 100000) (j : Fin 40) :
    projected h w (ix2 r j)
      = ∑ k : Fin 128, h (ix2 r k) * table40 w (ix2 k j) := by
  unfold projected
  rw [dotRecord]
  exact Cert.PlainDot.dotGeneral_apply (M := 100000) (K := 128) (N := 40) (DotDims.plain 100000 128 40) rfl none _ h _ r j

/-- The second aggregate at `(n, j)`: the sum over the edges arriving at `n` of the projected source row's entry `j`. -/
theorem aggregate2_apply (h : FArr S100000x128) (w : FArr S40x128) (s d : IArr S1600000) (n : Fin 100000) (j : Fin 40) :
    aggregate2 h w s d (ix2 n j)
      = ∑ e : Fin 1600000, if lands (dstCol d) e n then projected h w (ix2 (rowOf nodes_pos (srcCol s) e) j) else 0 := by
  unfold aggregate2
  rw [rowRecord40, rowScatterAdd_apply, Cert.Broadcasts.splat_apply, constant_apply, Ideal.ofBits_zero_f32, zero_add]
  refine Finset.sum_congr rfl fun e _ => if_congr Iff.rfl ?_ rfl
  rw [extf_apply, gatherRecord40, rowGather_apply nodes_pos, truncf_apply]

/-- A vector laid as a row, read at `(0, j)`: the vector at `j`. -/
theorem rowOf_vector_apply {n : ℕ} (b : (⟨1, ![n]⟩ : Shape).Idx → EReal) (h : (⟨1, ![n]⟩ : Shape).ShapeCasts ⟨2, ![1, n]⟩) (j : Fin n) :
    shapeCast ⟨2, ![1, n]⟩ b h (ix2 (0 : Fin 1) j) = b (ix1 j) := by
  rw [Cert.RowVector.reshape_apply]
  congr 1
  funext a
  match a with
  | ⟨0, _⟩ => rfl

end Cert.KernelIdeal.HostSide

end
-- ==== Proof.RefRows.lean ====
/-
  The reference program's two layers, read one row at a time.

  The reference computes each layer over whole tables: it divides the aggregate table by the broadcast clamped
  count, multiplies by the transposed left weight table, adds the broadcast bias, adds the product of the layer's
  own input with the transposed right weight table, divides every row by its Euclidean length clamped below by a
  tiny positive constant, and ends the first layer with a maximum against the zero table and the second with a
  log-softmax along each row.  Every one of these table operations produces the entry at row n, column j from
  entries of row n of its operands (and from column j of a weight table, entry j of the bias).  Reading the
  operations one after the other at (n, j) therefore gives, for the first layer,
      max (unit (affine row) j) 0
  and for the second
      logSoftmax (unit (affine row)) j,
  where "affine row" is  (aggregate row / count) · Wl + b + own row · Wr  -- exactly the row formulas of the
  specification in their dividing arrangement.  The aggregates and counts themselves (which come from gathers and
  scatters along the edge list) are not opened here.
-/
import proofs.«159132_j75479755259981_2_alg».proof.Proof.RefRead
import proofs.«159132_j75479755259981_2_alg».proof.Proof.Spec

noncomputable section

namespace Cert.ReferenceIdeal.RefRows

open Idealize.ShloMosaic Idealize.ShloMosaic.ValueIdx Cert.ReferenceIdeal Cert.ReferenceIdeal.ReadP

section Hidden

variable (x0 : (⟨S100000x128, .f32⟩ : BufTy).Contents (Elt Ideal))
  (x1 : (⟨S2x1600000, .i32⟩ : BufTy).Contents (Elt Ideal))
  (x2 : (⟨S128x128, .f32⟩ : BufTy).Contents (Elt Ideal))
  (x3 : (⟨S128, .f32⟩ : BufTy).Contents (Elt Ideal))
  (x4 : (⟨S128x128, .f32⟩ : BufTy).Contents (Elt Ideal))

/-- The broadcast clamped count at (n, k) is the clamped count at n. -/
theorem v21_at (n : Fin 100000) (k : Fin 128) :
    val_main_v21 (F := Ideal) x1 (ix2 n k) = val_main_v19 (F := Ideal) x1 (ix1 n) := by
  rw [val_main_v21_apply, val_main_v20_apply]
  exact congrArg _ (funext fun a => Fin.ext (by match a with | ⟨0, _⟩ => rfl))

/-- The mean table at (n, k) is the aggregate at (n, k) divided by the clamped count at n. -/
theorem v22_at (n : Fin 100000) (k : Fin 128) :
    val_main_v22 (F := Ideal) x0 x1 (ix2 n k)
      = Ideal.div (val_main_v13 (F := Ideal) x0 x1 (ix2 n k)) (val_main_v19 (F := Ideal) x1 (ix1 n)) := by
  rw [val_main_v22_apply, v21_at, Ideal.hostDivf_def]

/-- In the left product, the left operand is read at (n, k). -/
theorem lidx24 (n : Fin 100000) (j k : Fin 128) : lidx_main_v24 (ix2 n j) k = ix2 n k :=
  funext fun a => Fin.ext (by match a with | ⟨0, _⟩ => rfl | ⟨1, _⟩ => rfl)
/-- In the left product, the weight table is read at (k, j). -/
theorem ridx24 (n : Fin 100000) (j k : Fin 128) : ridx_main_v24 (ix2 n j) k = ix2 k j :=
  funext fun a => Fin.ext (by match a with | ⟨0, _⟩ => rfl | ⟨1, _⟩ => rfl)

/-- The left product at (n, j) is the mean row n against column j of the transposed left weight table. -/
theorem v24_at (n : Fin 100000) (j : Fin 128) :
    val_main_v24 (F := Ideal) x0 x1 x2 (ix2 n j)
      = ∑ k : Fin 128, Ideal.div (val_main_v13 (F := Ideal) x0 x1 (ix2 n k)) (val_main_v19 (F := Ideal) x1 (ix1 n))
          * val_main_v23 (F := Ideal) x2 (ix2 k j) := by
  rw [val_main_v24_apply]
  simp only [lidx24, ridx24, v22_at]

/-- The broadcast bias at (n, j) is the bias at j. -/
theorem v26_at (n : Fin 100000) (j : Fin 128) :
    val_main_v26 (F := Ideal) x3 (ix2 n j) = x3 (ix1 j) := by
  rw [val_main_v26_apply, val_main_v25_apply]
  exact congrArg _ (funext fun a => Fin.ext (by match a with | ⟨0, _⟩ => rfl))

/-- In the right product, the features are read at (n, k). -/
theorem lidx29 (n : Fin 100000) (j k : Fin 128) : lidx_main_v29 (ix2 n j) k = ix2 n k :=
  funext fun a => Fin.ext (by match a with | ⟨0, _⟩ => rfl | ⟨1, _⟩ => rfl)
/-- In the right product, the weight table is read at (k, j). -/
theorem ridx29 (n : Fin 100000) (j k : Fin 128) : ridx_main_v29 (ix2 n j) k = ix2 k j :=
  funext fun a => Fin.ext (by match a with | ⟨0, _⟩ => rfl | ⟨1, _⟩ => rfl)

/-- The right product at (n, j) is the feature row n against column j of the transposed right weight table. -/
theorem v29_at (n : Fin 100000) (j : Fin 128) :
    val_main_v29 (F := Ideal) x0 x4 (ix2 n j)
      = ∑ k : Fin 128, x0 (ix2 n k) * val_main_v28 (F := Ideal) x4 (ix2 k j) := by
  rw [val_main_v29_apply]
  simp only [lidx29, ridx29]

/-- The affine table at (n, j) is the affine part, dividing arrangement, of row n. -/
theorem v30_at (n : Fin 100000) (j : Fin 128) :
    val_main_v30 (F := Ideal) x0 x1 x2 x3 x4 (ix2 n j)
      = Cert.Sage.affineDiv (fun k : Fin 128 => val_main_v13 (F := Ideal) x0 x1 (ix2 n k)) (fun k : Fin 128 => x0 (ix2 n k))
          (val_main_v19 (F := Ideal) x1 (ix1 n))
          (fun (k : Fin 128) (j' : Fin 128) => val_main_v23 (F := Ideal) x2 (ix2 k j'))
          (fun (k : Fin 128) (j' : Fin 128) => val_main_v28 (F := Ideal) x4 (ix2 k j'))
          (fun j' : Fin 128 => x3 (ix1 j')) j := by
  rw [val_main_v30_apply, val_main_v27_apply, v24_at, v26_at, v29_at, Ideal.addf_def, Ideal.addf_def]
  rfl

/-- The sum of squares reads the squared table at (n, k). -/
theorem idxc01 (n : Fin 100000) (k : Fin 128) :
    idx_main_call0_v1 (ix1 n) k = ix2 n k :=
  funext fun a => Fin.ext (by match a with | ⟨0, _⟩ => rfl | ⟨1, _⟩ => rfl)

/-- The squared table at (n, k). -/
theorem c0v0_at (n : Fin 100000) (k : Fin 128) :
    val_main_call0_v0 (F := Ideal) x0 x1 x2 x3 x4 (ix2 n k)
      = val_main_v30 (F := Ideal) x0 x1 x2 x3 x4 (ix2 n k) * val_main_v30 (F := Ideal) x0 x1 x2 x3 x4 (ix2 n k) := by
  rw [val_main_call0_v0_apply, Ideal.mulf_def]

/-- The sum of squares of row n. -/
theorem c0v1_at (n : Fin 100000) :
    val_main_call0_v1 (F := Ideal) x0 x1 x2 x3 x4 (ix1 n)
      = ∑ k : Fin 128, val_main_v30 (F := Ideal) x0 x1 x2 x3 x4 (ix2 n k) * val_main_v30 (F := Ideal) x0 x1 x2 x3 x4 (ix2 n k) := by
  rw [val_main_call0_v1_apply, val_main_call0_cst_apply, Ideal.ofBits_def, Ideal.ofBits_zero_f32, zero_add]
  simp only [idxc01, c0v0_at]

/-- The broadcast sum of squares at (n, 0) is the sum of squares of row n. -/
theorem c0v2_at (n : Fin 100000) (z : Fin 1) :
    val_main_call0_v2 (F := Ideal) x0 x1 x2 x3 x4 (ix2 n z) = val_main_call0_v1 (F := Ideal) x0 x1 x2 x3 x4 (ix1 n) := by
  rw [val_main_call0_v2_apply]
  exact congrArg _ (funext fun a => Fin.ext (by match a with | ⟨0, _⟩ => rfl))

/-- The lower clamp table holds the clamp constant everywhere. -/
theorem v32_at (n : Fin 100000) (z : Fin 1) :
    val_main_v32 (F := Ideal) (ix2 n z) = Cert.Sage.eps := by
  rw [val_main_v32_apply, val_main_cst_4_apply, Ideal.ofBits_def]
  rfl

/-- The clamped row length at (n, 0): the square root of the sum of squares of the affine row n, clamped below. -/
theorem v33_at (n : Fin 100000) (z : Fin 1) :
    val_main_v33 (F := Ideal) x0 x1 x2 x3 x4 (ix2 n z)
      = max (Ideal.sqrt (∑ k : Fin 128, val_main_v30 (F := Ideal) x0 x1 x2 x3 x4 (ix2 n k)
            * val_main_v30 (F := Ideal) x0 x1 x2 x3 x4 (ix2 n k))) Cert.Sage.eps := by
  rw [val_main_v33_apply, val_main_v31_apply, c0v2_at, c0v1_at, v32_at, Ideal.maximumf_def, Ideal.hostUnary_sqrt_def]

/-- The broadcast length at (n, j) is the length at (n, 0). -/
theorem idx34 (n : Fin 100000) (j : Fin 128) : idx_main_v34 (ix2 n j) = ix2 n (0 : Fin 1) :=
  funext fun a => Fin.ext (by match a with | ⟨0, _⟩ => rfl | ⟨1, _⟩ => rfl)

/-- The normalized table at (n, j) is the affine table's row n divided by its clamped length. -/
theorem v35_at (n : Fin 100000) (j : Fin 128) :
    val_main_v35 (F := Ideal) x0 x1 x2 x3 x4 (ix2 n j)
      = Cert.Sage.unitRow (fun k : Fin 128 => val_main_v30 (F := Ideal) x0 x1 x2 x3 x4 (ix2 n k)) j := by
  rw [val_main_v35_apply, val_main_v34_apply, Ideal.hostDivf_def, idx34, v33_at, Cert.Sage.unitRow]

/-- The zero table holds zero everywhere. -/
theorem c1v0_at (n : Fin 100000) (j : Fin 128) :
    val_main_call1_v0 (F := Ideal) (ix2 n j) = 0 := by
  rw [val_main_call1_v0_apply, val_main_call1_cst_apply, Ideal.ofBits_def, Ideal.ofBits_zero_f32]

end Hidden

/-- the hidden layer's row n is the first-layer row, dividing arrangement, of row n of the aggregate main_v13, row n of the features, the clamped count main_v19 at n, the two transposed weight tables main_v23 / main_v28 and the bias -/
theorem hidden_row (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (n : Fin 100000) (j : Fin 128) :
    val_main_v36 (F := Ideal) x0 x1 x2 x3 x4 (ix2 n j)
      = Cert.Sage.hiddenDiv (fun k : Fin 128 => val_main_v13 (F := Ideal) x0 x1 (ix2 n k)) (fun k : Fin 128 => x0 (ix2 n k)) (val_main_v19 (F := Ideal) x1 (ix1 n))
          (fun (k : Fin 128) (j' : Fin 128) => val_main_v23 (F := Ideal) x2 (ix2 k j')) (fun (k : Fin 128) (j' : Fin 128) => val_main_v28 (F := Ideal) x4 (ix2 k j')) (fun j' : Fin 128 => x3 (ix1 j')) j := by
  rw [val_main_v36_apply, v35_at, c1v0_at, Ideal.maximumf_def, Cert.Sage.hiddenDiv]
  simp only [v30_at]

section RowMax

variable {α : Type}

/-- The row index b of an [m] result with coordinate k put back on the dropped last axis of [m, n] is (b, k). -/
theorem lift_last2 {m n : Nat} (h : (⟨2, ![m, n]⟩ : Shape).Reduces [1] (⟨1, ![m]⟩ : Shape)) (b : Fin m)
    (k : Fin ((⟨2, ![m, n]⟩ : Shape).size 1)) : h.lift (ix1 b) k = ix2 b (⟨k.val, k.isLt⟩ : Fin n) := by
  funext c; apply Fin.ext
  fin_cases c <;> rfl

/-- A one-operand host reduction of an [m, n] array over its last axis, with a commutative and associative
    body, is at row b the fold of the body from the initial value's element over the row's entries. -/
theorem hostReduce_lastAxis2_apply {m n : Nat} {u : Shape} (f : α → α → α) [Std.Commutative f] [Std.Associative f]
    (x : (⟨2, ![m, n]⟩ : Shape).Idx → α) (init : u.Idx → α)
    (h' : (⟨2, ![m, n]⟩ : Shape).ReducesTo [1] (⟨1, ![m]⟩ : Shape))
    (h : (⟨2, ![m, n]⟩ : Shape).Reduces [1] (⟨1, ![m]⟩ : Shape)) (hu : 0 < u.numel) (b : Fin m) :
    Host.reduce f x init h' hu (ix1 b)
      = (Finset.univ : Finset (Fin n)).fold f (init (Shape.Idx.first hu)) (fun k => x (ix2 b k)) := by
  rw [Host.reduce_eq_fold_single f x init h' h hu]
  have hf : (x ∘ h.lift (ix1 b)) = fun k : Fin n => x (ix2 b k) := funext fun k => congrArg x (lift_last2 h b k)
  exact congrArg (fun g => Finset.fold f (init (Shape.Idx.first hu)) g (Finset.univ : Finset (Fin n))) hf

/-- Folding a maximum from minus infinity over a row never goes below minus infinity, so a further maximum
    with minus infinity changes nothing. -/
theorem max_negInf_rowMax' {J : ℕ} (z : Fin J → EReal) :
    max Cert.Sage.negInf (Cert.Sage.rowMax z) = Cert.Sage.rowMax z :=
  max_eq_right ((Finset.le_fold_max _).2 (Or.inl le_rfl))

end RowMax

section Out

variable (x0 : (⟨S100000x128, .f32⟩ : BufTy).Contents (Elt Ideal))
  (x1 : (⟨S2x1600000, .i32⟩ : BufTy).Contents (Elt Ideal))
  (x2 : (⟨S128x128, .f32⟩ : BufTy).Contents (Elt Ideal))
  (x3 : (⟨S128, .f32⟩ : BufTy).Contents (Elt Ideal))
  (x4 : (⟨S128x128, .f32⟩ : BufTy).Contents (Elt Ideal))
  (x5 : (⟨S40x128, .f32⟩ : BufTy).Contents (Elt Ideal))
  (x6 : (⟨S40, .f32⟩ : BufTy).Contents (Elt Ideal))
  (x7 : (⟨S40x128, .f32⟩ : BufTy).Contents (Elt Ideal))

/-- The broadcast clamped count at (n, k) is the clamped count at n. -/
theorem v54_at (n : Fin 100000) (k : Fin 128) :
    val_main_v54 (F := Ideal) x1 (ix2 n k) = val_main_v52 (F := Ideal) x1 (ix1 n) := by
  rw [val_main_v54_apply, val_main_v53_apply]
  exact congrArg _ (funext fun a => Fin.ext (by match a with | ⟨0, _⟩ => rfl))

/-- The mean table at (n, k) is the aggregate at (n, k) divided by the clamped count at n. -/
theorem v55_at (n : Fin 100000) (k : Fin 128) :
    val_main_v55 (F := Ideal) x0 x1 x2 x3 x4 (ix2 n k)
      = Ideal.div (val_main_v46 (F := Ideal) x0 x1 x2 x3 x4 (ix2 n k)) (val_main_v52 (F := Ideal) x1 (ix1 n)) := by
  rw [val_main_v55_apply, v54_at, Ideal.hostDivf_def]

/-- In the left product, the left operand is read at (n, k). -/
theorem lidx57 (n : Fin 100000) (j : Fin 40) (k : Fin 128) : lidx_main_v57 (ix2 n j) k = ix2 n k :=
  funext fun a => Fin.ext (by match a with | ⟨0, _⟩ => rfl | ⟨1, _⟩ => rfl)
/-- In the left product, the weight table is read at (k, j). -/
theorem ridx57 (n : Fin 100000) (j : Fin 40) (k : Fin 128) : ridx_main_v57 (ix2 n j) k = ix2 k j :=
  funext fun a => Fin.ext (by match a with | ⟨0, _⟩ => rfl | ⟨1, _⟩ => rfl)

/-- The left product at (n, j) is the mean row n against column j of the transposed left weight table. -/
theorem v57_at (n : Fin 100000) (j : Fin 40) :
    val_main_v57 (F := Ideal) x0 x1 x2 x3 x4 x5 (ix2 n j)
      = ∑ k : Fin 128, Ideal.div (val_main_v46 (F := Ideal) x0 x1 x2 x3 x4 (ix2 n k)) (val_main_v52 (F := Ideal) x1 (ix1 n))
          * val_main_v56 (F := Ideal) x5 (ix2 k j) := by
  rw [val_main_v57_apply]
  simp only [lidx57, ridx57, v55_at]

/-- The broadcast bias at (n, j) is the bias at j. -/
theorem v59_at (n : Fin 100000) (j : Fin 40) :
    val_main_v59 (F := Ideal) x6 (ix2 n j) = x6 (ix1 j) := by
  rw [val_main_v59_apply, val_main_v58_apply]
  exact congrArg _ (funext fun a => Fin.ext (by match a with | ⟨0, _⟩ => rfl))

/-- In the right product, the hidden layer is read at (n, k). -/
theorem lidx62 (n : Fin 100000) (j : Fin 40) (k : Fin 128) : lidx_main_v62 (ix2 n j) k = ix2 n k :=
  funext fun a => Fin.ext (by match a with | ⟨0, _⟩ => rfl | ⟨1, _⟩ => rfl)
/-- In the right product, the weight table is read at (k, j). -/
theorem ridx62 (n : Fin 100000) (j : Fin 40) (k : Fin 128) : ridx_main_v62 (ix2 n j) k = ix2 k j :=
  funext fun a => Fin.ext (by match a with | ⟨0, _⟩ => rfl | ⟨1, _⟩ => rfl)

/-- The right product at (n, j) is the hidden row n against column j of the transposed right weight table. -/
theorem v62_at (n : Fin 100000) (j : Fin 40) :
    val_main_v62 (F := Ideal) x0 x1 x2 x3 x4 x7 (ix2 n j)
      = ∑ k : Fin 128, val_main_v36 (F := Ideal) x0 x1 x2 x3 x4 (ix2 n k) * val_main_v61 (F := Ideal) x7 (ix2 k j) := by
  rw [val_main_v62_apply]
  simp only [lidx62, ridx62]

/-- The affine table at (n, j) is the affine part, dividing arrangement, of row n. -/
theorem v63_at (n : Fin 100000) (j : Fin 40) :
    val_main_v63 (F := Ideal) x0 x1 x2 x3 x4 x5 x6 x7 (ix2 n j)
      = Cert.Sage.affineDiv (fun k : Fin 128 => val_main_v46 (F := Ideal) x0 x1 x2 x3 x4 (ix2 n k))
          (fun k : Fin 128 => val_main_v36 (F := Ideal) x0 x1 x2 x3 x4 (ix2 n k))
          (val_main_v52 (F := Ideal) x1 (ix1 n))
          (fun (k : Fin 128) (j' : Fin 40) => val_main_v56 (F := Ideal) x5 (ix2 k j'))
          (fun (k : Fin 128) (j' : Fin 40) => val_main_v61 (F := Ideal) x7 (ix2 k j'))
          (fun j' : Fin 40 => x6 (ix1 j')) j := by
  rw [val_main_v63_apply, val_main_v60_apply, v57_at, v59_at, v62_at, Ideal.addf_def, Ideal.addf_def]
  rfl

/-- The sum of squares reads the squared table at (n, k). -/
theorem idxc21 (n : Fin 100000) (k : Fin 40) : idx_main_call2_v1 (ix1 n) k = ix2 n k :=
  funext fun a => Fin.ext (by match a with | ⟨0, _⟩ => rfl | ⟨1, _⟩ => rfl)

/-- The squared table at (n, k). -/
theorem c2v0_at (n : Fin 100000) (k : Fin 40) :
    val_main_call2_v0 (F := Ideal) x0 x1 x2 x3 x4 x5 x6 x7 (ix2 n k)
      = val_main_v63 (F := Ideal) x0 x1 x2 x3 x4 x5 x6 x7 (ix2 n k) * val_main_v63 (F := Ideal) x0 x1 x2 x3 x4 x5 x6 x7 (ix2 n k) := by
  rw [val_main_call2_v0_apply, Ideal.mulf_def]

/-- The sum of squares of row n. -/
theorem c2v1_at (n : Fin 100000) :
    val_main_call2_v1 (F := Ideal) x0 x1 x2 x3 x4 x5 x6 x7 (ix1 n)
      = ∑ k : Fin 40, val_main_v63 (F := Ideal) x0 x1 x2 x3 x4 x5 x6 x7 (ix2 n k) * val_main_v63 (F := Ideal) x0 x1 x2 x3 x4 x5 x6 x7 (ix2 n k) := by
  rw [val_main_call2_v1_apply, val_main_call2_cst_apply, Ideal.ofBits_def, Ideal.ofBits_zero_f32, zero_add]
  simp only [idxc21, c2v0_at]

/-- The broadcast sum of squares at (n, 0) is the sum of squares of row n. -/
theorem c2v2_at (n : Fin 100000) (z : Fin 1) :
    val_main_call2_v2 (F := Ideal) x0 x1 x2 x3 x4 x5 x6 x7 (ix2 n z)
      = val_main_call2_v1 (F := Ideal) x0 x1 x2 x3 x4 x5 x6 x7 (ix1 n) := by
  rw [val_main_call2_v2_apply]
  exact congrArg _ (funext fun a => Fin.ext (by match a with | ⟨0, _⟩ => rfl))

/-- The lower clamp table holds the clamp constant everywhere. -/
theorem v65_at (n : Fin 100000) (z : Fin 1) :
    val_main_v65 (F := Ideal) (ix2 n z) = Cert.Sage.eps := by
  rw [val_main_v65_apply, val_main_cst_11_apply, Ideal.ofBits_def]
  rfl

/-- The clamped row length at (n, 0): the square root of the sum of squares of the affine row n, clamped below. -/
theorem v66_at (n : Fin 100000) (z : Fin 1) :
    val_main_v66 (F := Ideal) x0 x1 x2 x3 x4 x5 x6 x7 (ix2 n z)
      = max (Ideal.sqrt (∑ k : Fin 40, val_main_v63 (F := Ideal) x0 x1 x2 x3 x4 x5 x6 x7 (ix2 n k)
            * val_main_v63 (F := Ideal) x0 x1 x2 x3 x4 x5 x6 x7 (ix2 n k))) Cert.Sage.eps := by
  rw [val_main_v66_apply, val_main_v64_apply, c2v2_at, c2v1_at, v65_at, Ideal.maximumf_def, Ideal.hostUnary_sqrt_def]

/-- The broadcast length at (n, j) is the length at (n, 0). -/
theorem idx67 (n : Fin 100000) (j : Fin 40) : idx_main_v67 (ix2 n j) = ix2 n (0 : Fin 1) :=
  funext fun a => Fin.ext (by match a with | ⟨0, _⟩ => rfl | ⟨1, _⟩ => rfl)

/-- The normalized table at (n, j) is the affine table's row n divided by its clamped length. -/
theorem v68_at (n : Fin 100000) (j : Fin 40) :
    val_main_v68 (F := Ideal) x0 x1 x2 x3 x4 x5 x6 x7 (ix2 n j)
      = Cert.Sage.unitRow (fun k : Fin 40 => val_main_v63 (F := Ideal) x0 x1 x2 x3 x4 x5 x6 x7 (ix2 n k)) j := by
  rw [val_main_v68_apply, val_main_v67_apply, Ideal.hostDivf_def, idx67, v66_at, Cert.Sage.unitRow]

/-- The row maximum table at n is the maximum, folded from minus infinity, of row n of the normalized table. -/
theorem c3v0_at (n : Fin 100000) :
    val_main_call3_v0 (F := Ideal) x0 x1 x2 x3 x4 x5 x6 x7 (ix1 n)
      = Cert.Sage.rowMax (fun k : Fin 40 => val_main_v68 (F := Ideal) x0 x1 x2 x3 x4 x5 x6 x7 (ix2 n k)) := by
  unfold val_main_call3_v0
  generalize val_main_v68 (F := Ideal) x0 x1 x2 x3 x4 x5 x6 x7 = y
  have h : S100000x40.Reduces [1] S100000 := by decide
  rw [hostReduce_lastAxis2_apply (m := 100000) (n := 40) (FloatOps.maximumf (F := Ideal) (φ := .f32)) y _ _ h _ n,
    val_main_call3_cst_apply, Ideal.ofBits_def]
  unfold Cert.Sage.rowMax Cert.Sage.negInf
  rfl

/-- The minus-infinity table holds minus infinity everywhere. -/
theorem c3v1_at (n : Fin 100000) : val_main_call3_v1 (F := Ideal) (ix1 n) = Cert.Sage.negInf := by
  rw [val_main_call3_v1_apply, val_main_call3_cst_0_apply, Ideal.ofBits_def]
  rfl

/-- The shift table at (n, j) is the maximum of row n of the normalized table. -/
theorem c3v4_at (n : Fin 100000) (j : Fin 40) :
    val_main_call3_v4 (F := Ideal) x0 x1 x2 x3 x4 x5 x6 x7 (ix2 n j)
      = Cert.Sage.rowMax (fun k : Fin 40 => val_main_v68 (F := Ideal) x0 x1 x2 x3 x4 x5 x6 x7 (ix2 n k)) := by
  have e4 : idx_main_call3_v4 (ix2 n j) = ix2 n (0 : Fin 1) :=
    funext fun a => Fin.ext (by match a with | ⟨0, _⟩ => rfl | ⟨1, _⟩ => rfl)
  have e3 : idx_main_call3_v3 (ix2 n (0 : Fin 1)) = ix1 n :=
    funext fun a => Fin.ext (by match a with | ⟨0, _⟩ => rfl)
  rw [val_main_call3_v4_apply, e4, val_main_call3_v3_apply, e3, val_main_call3_v2_apply, c3v1_at, c3v0_at,
    Ideal.maximumf_def, max_negInf_rowMax']

/-- The shifted table at (n, j): the normalized entry minus its row's maximum. -/
theorem c3v5_at (n : Fin 100000) (j : Fin 40) :
    val_main_call3_v5 (F := Ideal) x0 x1 x2 x3 x4 x5 x6 x7 (ix2 n j)
      = val_main_v68 (F := Ideal) x0 x1 x2 x3 x4 x5 x6 x7 (ix2 n j)
        - Cert.Sage.rowMax (fun k : Fin 40 => val_main_v68 (F := Ideal) x0 x1 x2 x3 x4 x5 x6 x7 (ix2 n k)) := by
  rw [val_main_call3_v5_apply, c3v4_at, Ideal.subf_def]

/-- The exponential sum reads the exponential table at (n, k). -/
theorem idxc37 (n : Fin 100000) (k : Fin 40) : idx_main_call3_v7 (ix1 n) k = ix2 n k :=
  funext fun a => Fin.ext (by match a with | ⟨0, _⟩ => rfl | ⟨1, _⟩ => rfl)

/-- The exponential table at (n, k). -/
theorem c3v6_at (n : Fin 100000) (k : Fin 40) :
    val_main_call3_v6 (F := Ideal) x0 x1 x2 x3 x4 x5 x6 x7 (ix2 n k)
      = Ideal.exp (val_main_v68 (F := Ideal) x0 x1 x2 x3 x4 x5 x6 x7 (ix2 n k)
          - Cert.Sage.rowMax (fun k' : Fin 40 => val_main_v68 (F := Ideal) x0 x1 x2 x3 x4 x5 x6 x7 (ix2 n k'))) := by
  rw [val_main_call3_v6_apply, c3v5_at, Ideal.hostUnary_exp_def]

/-- The sum of exponentials of the shifted row n. -/
theorem c3v7_at (n : Fin 100000) :
    val_main_call3_v7 (F := Ideal) x0 x1 x2 x3 x4 x5 x6 x7 (ix1 n)
      = ∑ k : Fin 40, Ideal.exp (val_main_v68 (F := Ideal) x0 x1 x2 x3 x4 x5 x6 x7 (ix2 n k)
          - Cert.Sage.rowMax (fun k' : Fin 40 => val_main_v68 (F := Ideal) x0 x1 x2 x3 x4 x5 x6 x7 (ix2 n k'))) := by
  rw [val_main_call3_v7_apply, val_main_call3_cst_1_apply, Ideal.ofBits_def, Ideal.ofBits_zero_f32, zero_add]
  simp only [idxc37, c3v6_at]

/-- The logarithm table at (n, j) is the logarithm of the sum of exponentials of the shifted row n. -/
theorem c3v10_at (n : Fin 100000) (j : Fin 40) :
    val_main_call3_v10 (F := Ideal) x0 x1 x2 x3 x4 x5 x6 x7 (ix2 n j)
      = Ideal.log (∑ k : Fin 40, Ideal.exp (val_main_v68 (F := Ideal) x0 x1 x2 x3 x4 x5 x6 x7 (ix2 n k)
          - Cert.Sage.rowMax (fun k' : Fin 40 => val_main_v68 (F := Ideal) x0 x1 x2 x3 x4 x5 x6 x7 (ix2 n k')))) := by
  have e10 : idx_main_call3_v10 (ix2 n j) = ix2 n (0 : Fin 1) :=
    funext fun a => Fin.ext (by match a with | ⟨0, _⟩ => rfl | ⟨1, _⟩ => rfl)
  have e8 : idx_main_call3_v8 (ix2 n (0 : Fin 1)) = ix1 n :=
    funext fun a => Fin.ext (by match a with | ⟨0, _⟩ => rfl)
  rw [val_main_call3_v10_apply, e10, val_main_call3_v9_apply, val_main_call3_v8_apply, e8, c3v7_at,
    Ideal.hostUnary_log_def]

/-- The result at (n, j) is the log-softmax of row n of the normalized table. -/
theorem v69_at (n : Fin 100000) (j : Fin 40) :
    val_main_v69 (F := Ideal) x0 x1 x2 x3 x4 x5 x6 x7 (ix2 n j)
      = Cert.Sage.logSoftmaxRow (fun k : Fin 40 => val_main_v68 (F := Ideal) x0 x1 x2 x3 x4 x5 x6 x7 (ix2 n k)) j := by
  rw [val_main_v69_apply, c3v5_at, c3v10_at, Ideal.subf_def, Cert.Sage.logSoftmaxRow]

end Out

/-- the result's row n is the second-layer row, dividing arrangement, of row n of the aggregate main_v46, row n of the hidden layer main_v36, the clamped count main_v52 at n, the two transposed weight tables main_v56 / main_v61 and the bias -/
theorem out_row (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S40x128, .f32⟩ : BufTy).Contents (Elt Ideal)) (x6 : (⟨S40, .f32⟩ : BufTy).Contents (Elt Ideal)) (x7 : (⟨S40x128, .f32⟩ : BufTy).Contents (Elt Ideal)) (n : Fin 100000) (j : Fin 40) :
    val_main_v69 (F := Ideal) x0 x1 x2 x3 x4 x5 x6 x7 (ix2 n j)
      = Cert.Sage.outDiv (fun k : Fin 128 => val_main_v46 (F := Ideal) x0 x1 x2 x3 x4 (ix2 n k)) (fun k : Fin 128 => val_main_v36 (F := Ideal) x0 x1 x2 x3 x4 (ix2 n k)) (val_main_v52 (F := Ideal) x1 (ix1 n))
          (fun (k : Fin 128) (j' : Fin 40) => val_main_v56 (F := Ideal) x5 (ix2 k j')) (fun (k : Fin 128) (j' : Fin 40) => val_main_v61 (F := Ideal) x7 (ix2 k j')) (fun j' : Fin 40 => x6 (ix1 j')) j := by
  rw [v69_at, Cert.Sage.outDiv]
  simp only [v68_at, v63_at]

end Cert.ReferenceIdeal.RefRows

end
-- ==== Proof.RefAgg.lean ====
/-
  The idealized reference's neighbour counts and neighbour aggregates, read at an index.

  The reference takes the edge list as two index columns: the column of SOURCE nodes (wrapped: a negative number has
  the node count added, once) and the column of DESTINATION nodes.  It builds each column afresh wherever it uses
  it, by the same operations on the same argument, so the four destination columns are one term and the two source
  columns are one term.

  A COUNT scatters a one for every edge into a vector of zeros, at the edge's destination, adding; read at node n it
  is the number of edges whose destination is n, a natural number, and the reference then takes the maximum with
  one: the real number max(#edges arriving at n, 1).

  An AGGREGATE gathers, for every edge, the row of the edge's source node (the row number clamped into the table),
  and scatters these rows into a table of zeros at the edge's destination, adding.  Read at (n, k) it is the sum, over
  the edges that arrive at n, of entry k of the source node's row; the zero it is added to disappears.
-/
import proofs.«159132_j75479755259981_2_alg».proof.Proof.RefRead
import proofs.«159132_j75479755259981_2_alg».proof.Proof.LibEdgeIndex
import proofs.«159132_j75479755259981_2_alg».proof.Proof.LibCountScatter
import proofs.«159132_j75479755259981_2_alg».proof.Proof.LibBroadcasts
import proofs.«159132_j75479755259981_2_alg».proof.Proof.LibRealLaw

noncomputable section

namespace Cert.ReferenceIdeal.RefAgg

open Idealize.ShloMosaic Idealize.ShloMosaic.ValueIdx Cert.ReferenceIdeal Cert.ReferenceIdeal.ReadP Cert.EdgeIndex
  Cert.CountScatter

/-- The table of node rows is not empty. -/
theorem hN : (0 : ℕ) < 100000 := by norm_num

/-! ### The index columns -/

/-- the four destination columns are one term -/
theorem col16_eq (x1 : (⟨S2x1600000, .i32⟩ : BufTy).Contents (Elt Ideal)) :
    val_main_v16 (F := Ideal) x1 = val_main_v12 (F := Ideal) x1 := by
  unfold val_main_v16 val_main_v12
  rfl

theorem col45_eq (x1 : (⟨S2x1600000, .i32⟩ : BufTy).Contents (Elt Ideal)) :
    val_main_v45 (F := Ideal) x1 = val_main_v12 (F := Ideal) x1 := by
  unfold val_main_v45 val_main_v12
  rfl

theorem col49_eq (x1 : (⟨S2x1600000, .i32⟩ : BufTy).Contents (Elt Ideal)) :
    val_main_v49 (F := Ideal) x1 = val_main_v12 (F := Ideal) x1 := by
  unfold val_main_v49 val_main_v12
  rfl

/-- the two source columns are one term -/
theorem col42_eq (x1 : (⟨S2x1600000, .i32⟩ : BufTy).Contents (Elt Ideal)) :
    val_main_v42 (F := Ideal) x1 = val_main_v9 (F := Ideal) x1 := by
  unfold val_main_v42 val_main_v9 val_main_v41 val_main_v8 val_main_v38 val_main_v5 val_main_v40 val_main_v7
    val_main_v37 val_main_v4 val_main_v39 val_main_v6 val_main_c_5 val_main_c val_main_c_6 val_main_c_0
  rfl

/-! ### The words of zero and one, and the splats of them -/

/-- The single-precision word 0x3F800000 is the real number one. -/
theorem ofBits_one_f32 : Ideal.ofBits .f32 0x3F800000#32 = 1 := by
  simp [Ideal.ofBits, Ideal.ieee, -EReal.coe_mul]; norm_num

/-- The table of zeros the first aggregate is scattered into reads zero everywhere. -/
theorem v11_zero (i : S100000x128.Idx) : val_main_v11 (F := Ideal) i = 0 := by
  rw [val_main_v11_apply]
  exact Ideal.ofBits_zero_f32

/-- The table of zeros the second aggregate is scattered into reads zero everywhere. -/
theorem v44_zero (i : S100000x128.Idx) : val_main_v44 (F := Ideal) i = 0 := by
  rw [val_main_v44_apply]
  exact Ideal.ofBits_zero_f32

/-- The vector of zeros the first count is scattered into reads zero everywhere. -/
theorem v15_zero (i : S100000.Idx) : val_main_v15 (F := Ideal) i = 0 := by
  rw [val_main_v15_apply]
  exact Ideal.ofBits_zero_f32

/-- The vector of zeros the second count is scattered into reads zero everywhere. -/
theorem v48_zero (i : S100000.Idx) : val_main_v48 (F := Ideal) i = 0 := by
  rw [val_main_v48_apply]
  exact Ideal.ofBits_zero_f32

/-- The ones scattered by the first count read one everywhere. -/
theorem v14_one (i : S1600000.Idx) : val_main_v14 (F := Ideal) i = 1 := by
  rw [val_main_v14_apply]
  exact ofBits_one_f32

/-- The ones scattered by the second count read one everywhere. -/
theorem v47_one (i : S1600000.Idx) : val_main_v47 (F := Ideal) i = 1 := by
  rw [val_main_v47_apply]
  exact ofBits_one_f32

/-- The lower clamp of the first count reads one everywhere. -/
theorem v18_one (i : S100000.Idx) : val_main_v18 (F := Ideal) i = 1 := by
  rw [val_main_v18_apply]
  exact ofBits_one_f32

/-- The lower clamp of the second count reads one everywhere. -/
theorem v51_one (i : S100000.Idx) : val_main_v51 (F := Ideal) i = 1 := by
  rw [val_main_v51_apply]
  exact ofBits_one_f32

/-! ### Counts -/

/-- The first count at node n: the number of edges whose destination is n. -/
theorem count17_apply (x1 : (⟨S2x1600000, .i32⟩ : BufTy).Contents (Elt Ideal)) (n : Fin 100000) :
    val_main_v17 (F := Ideal) x1 (ix1 n) = ((landing (val_main_v12 (F := Ideal) x1) n : ℝ) : EReal) := by
  unfold val_main_v17
  rw [col16_eq]
  exact float_count_real Facts₀.scatter_S100000_S1600000x1_S1600000_n_0_0_1_wf (val_main_v12 (F := Ideal) x1)
    (val_main_v15 (F := Ideal)) (val_main_v14 (F := Ideal)) v15_zero v14_one n

/-- The second count at node n: the same number. -/
theorem count50_apply (x1 : (⟨S2x1600000, .i32⟩ : BufTy).Contents (Elt Ideal)) (n : Fin 100000) :
    val_main_v50 (F := Ideal) x1 (ix1 n) = ((landing (val_main_v12 (F := Ideal) x1) n : ℝ) : EReal) := by
  unfold val_main_v50
  rw [col49_eq]
  exact float_count_real Facts₀.scatter_S100000_S1600000x1_S1600000_n_0_0_1_wf (val_main_v12 (F := Ideal) x1)
    (val_main_v48 (F := Ideal)) (val_main_v47 (F := Ideal)) v48_zero v47_one n

/-- The first clamped count at node n is the real number max(#edges arriving at n, 1). -/
theorem count19_apply (x1 : (⟨S2x1600000, .i32⟩ : BufTy).Contents (Elt Ideal)) (n : Fin 100000) :
    val_main_v19 (F := Ideal) x1 (ix1 n) = ((max (landing (val_main_v12 (F := Ideal) x1) n : ℝ) 1 : ℝ) : EReal) := by
  rw [val_main_v19_apply, count17_apply, v18_one]
  exact Cert.Scores.max_one_eq _

/-- The second clamped count at node n is the same real number. -/
theorem count52_apply (x1 : (⟨S2x1600000, .i32⟩ : BufTy).Contents (Elt Ideal)) (n : Fin 100000) :
    val_main_v52 (F := Ideal) x1 (ix1 n) = ((max (landing (val_main_v12 (F := Ideal) x1) n : ℝ) 1 : ℝ) : EReal) := by
  rw [val_main_v52_apply, count50_apply, v51_one]
  exact Cert.Scores.max_one_eq _

/-! ### Aggregates -/

/-- The first gather at (e, k): entry k of the row of edge e's source node, the row number clamped. -/
theorem gather10_apply (x0 : (⟨S100000x128, .f32⟩ : BufTy).Contents (Elt Ideal))
    (x1 : (⟨S2x1600000, .i32⟩ : BufTy).Contents (Elt Ideal)) (e : Fin 1600000) (k : Fin 128) :
    val_main_v10 (F := Ideal) x0 x1 (ix2 e k) = x0 (ix2 (rowOf hN (val_main_v9 (F := Ideal) x1) e) k) := by
  unfold val_main_v10
  exact rowGather_apply hN Facts₀.gather_S100000x128_S1600000x1_S1600000x128_1_0_n_n_0_1_1128_wf x0
    (val_main_v9 (F := Ideal) x1) e k

/-- The second gather at (e, k): the same, from the first layer's output. -/
theorem gather43_apply (x0 : (⟨S100000x128, .f32⟩ : BufTy).Contents (Elt Ideal))
    (x1 : (⟨S2x1600000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal))
    (e : Fin 1600000) (k : Fin 128) :
    val_main_v43 (F := Ideal) x0 x1 x2 x3 x4 (ix2 e k)
      = val_main_v36 (F := Ideal) x0 x1 x2 x3 x4 (ix2 (rowOf hN (val_main_v9 (F := Ideal) x1) e) k) := by
  unfold val_main_v43
  rw [col42_eq]
  generalize val_main_v36 (F := Ideal) x0 x1 x2 x3 x4 = y
  exact rowGather_apply hN Facts₀.gather_S100000x128_S1600000x1_S1600000x128_1_0_n_n_0_1_1128_wf y
    (val_main_v9 (F := Ideal) x1) e k

/-- The first aggregate at (n, k): the sum over the edges that arrive at n of entry k of the source node's row. -/
theorem agg13_apply (x0 : (⟨S100000x128, .f32⟩ : BufTy).Contents (Elt Ideal))
    (x1 : (⟨S2x1600000, .i32⟩ : BufTy).Contents (Elt Ideal)) (n : Fin 100000) (k : Fin 128) :
    val_main_v13 (F := Ideal) x0 x1 (ix2 n k)
      = ∑ e : Fin 1600000, if lands (val_main_v12 (F := Ideal) x1) e n
          then x0 (ix2 (rowOf hN (val_main_v9 (F := Ideal) x1) e) k) else 0 := by
  unfold val_main_v13
  refine (rowScatterAdd_apply Facts₀.scatter_S100000x128_S1600000x1_S1600000x128_1_0_0_1_wf (val_main_v11 (F := Ideal))
    (val_main_v12 (F := Ideal) x1) (val_main_v10 (F := Ideal) x0 x1) n k).trans ?_
  rw [v11_zero, zero_add]
  exact Finset.sum_congr rfl fun e _ => by rw [gather10_apply]

/-- The second aggregate at (n, k): the same sum, of the first layer's output rows. -/
theorem agg46_apply (x0 : (⟨S100000x128, .f32⟩ : BufTy).Contents (Elt Ideal))
    (x1 : (⟨S2x1600000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal))
    (n : Fin 100000) (k : Fin 128) :
    val_main_v46 (F := Ideal) x0 x1 x2 x3 x4 (ix2 n k)
      = ∑ e : Fin 1600000, if lands (val_main_v12 (F := Ideal) x1) e n
          then val_main_v36 (F := Ideal) x0 x1 x2 x3 x4 (ix2 (rowOf hN (val_main_v9 (F := Ideal) x1) e) k) else 0 := by
  unfold val_main_v46
  rw [col45_eq]
  refine (rowScatterAdd_apply Facts₀.scatter_S100000x128_S1600000x1_S1600000x128_1_0_0_1_wf (val_main_v44 (F := Ideal))
    (val_main_v12 (F := Ideal) x1) (val_main_v43 (F := Ideal) x0 x1 x2 x3 x4) n k).trans ?_
  rw [v44_zero, zero_add]
  exact Finset.sum_congr rfl fun e _ => by rw [gather43_apply]

end Cert.ReferenceIdeal.RefAgg

end
-- ==== Proof.Algebra.lean ====
/-
  The algebra that makes the two arrangements of a graph-convolution row agree, over the extended reals.

  A count c ≥ 1 is a nonzero real number, so dividing by it is multiplying by the real number 1/c, for every
  extended real (the infinities included), and the ideal quotient 1 / c is that real number.  Hence

  * the first layer's two affine parts, (∑ k, (a k · (1/c)) · Wl k j + ∑ k, x k · Wr k j) + b j and
    (∑ k, (a k / c) · Wl k j + b j) + ∑ k, x k · Wr k j, are the same three terms added in a different order;
    addition of extended reals is commutative and associative, so nothing has to be finite;

  * in the second layer one side projects every message H e through Wl and then adds up the messages that land on
    the node, and scales the resulting row by 1/c; the other adds up the messages, scales by 1/c and projects.
    With s the set of messages that land on the node this is
        (∑ e ∈ s, ∑ k, H e k · Wl k j) · (1/c)  =  ∑ k, ((∑ e ∈ s, H e k) · (1/c)) · Wl k j ,
    which in the real numbers is distributivity and the exchange of the two finite sums.  On the extended reals
    distributivity fails at the infinities, so the law is stated for messages and weights that are real numbers,
    and is proved by naming the real numbers and computing in ℝ.

  The rest says that a first-layer row of real inputs is real: its affine part is a sum of products of reals; the
  sum of its squares is a nonnegative real, whose square root is a real; the maximum of that with the positive real
  clamp is a positive real; the quotient by a positive real is a product with a real; and the maximum of a real
  with zero is a real.  Last, a maximum folded from a starting value is at least that starting value.
-/
import proofs.«159132_j75479755259981_2_alg».proof.Proof.Spec
import proofs.«159132_j75479755259981_2_alg».proof.Proof.LibRealLaw
import Idealize.ShloMosaic.PureOps.Ideal
import Idealize.ShloMosaic.PureOps.Ideal.Laws

noncomputable section

namespace Cert.Sage

open Idealize.ShloMosaic
open Cert.Scores (IsReal)

/-! ### Dividing by a count -/

/-- For a real count c ≥ 1, the ideal quotient x / c is the product x · (1/c), for every extended real x. -/
theorem div_count (c : ℝ) (hc : 1 ≤ c) (x : EReal) : Ideal.div x (c : EReal) = x * ((1 / c : ℝ) : EReal) :=
  Ideal.div_coe (ne_of_gt (lt_of_lt_of_le one_pos hc)) x

/-- For a real count c ≥ 1, the ideal quotient 1 / c is the real number 1/c. -/
theorem recip_count (c : ℝ) (hc : 1 ≤ c) : Ideal.div 1 (c : EReal) = ((1 / c : ℝ) : EReal) := by
  rw [div_count c hc, one_mul]

/-! ### First layer: the same three terms in two orders -/

/-- The affine part that multiplies by the reciprocal count and adds the bias last equals the affine part that
    divides by the count and adds the bias in the middle: (p + q) + b = (p + b) + q. -/
theorem affineMul_eq_affineDiv {K J : ℕ} (a x : Fin K → EReal) (c : ℝ) (hc : 1 ≤ c)
    (Wl Wr : Fin K → Fin J → EReal) (b : Fin J → EReal) (j : Fin J) :
    affineMul a x (Ideal.div 1 (c : EReal)) Wl Wr b j = affineDiv a x (c : EReal) Wl Wr b j := by
  unfold affineMul affineDiv
  rw [recip_count c hc]
  simp only [div_count c hc]
  exact add_right_comm _ _ _

/-- multiplying the aggregate by the reciprocal of a real count c ≥ 1 and adding the bias last IS dividing by c and
    adding the bias in the middle: no finiteness needed (x * ↑(1/c) on both sides; commutativity and associativity
    of +) -/
theorem hiddenMul_eq_hiddenDiv {K J : ℕ} (a x : Fin K → EReal) (c : ℝ) (hc : 1 ≤ c) (Wl Wr : Fin K → Fin J → EReal)
    (b : Fin J → EReal) (j : Fin J) :
    hiddenMul a x (Ideal.div 1 (c : EReal)) Wl Wr b j = hiddenDiv a x (c : EReal) Wl Wr b j := by
  unfold hiddenMul hiddenDiv
  rw [show affineMul a x (Ideal.div 1 (c : EReal)) Wl Wr b = affineDiv a x (c : EReal) Wl Wr b from
    funext fun j' => affineMul_eq_affineDiv a x c hc Wl Wr b j']

/-! ### Second layer: projecting before or after aggregating -/

/-- In the real numbers: summing over a set s of messages the inner products of the messages with a weight column
    and scaling by d, is the inner product of the weight column with the scaled sum of the messages. -/
theorem real_aggregate {ι : Type} {K : ℕ} (s : Finset ι) (h : ι → Fin K → ℝ) (w : Fin K → ℝ) (d : ℝ) :
    (∑ e ∈ s, ∑ k : Fin K, h e k * w k) * d = ∑ k : Fin K, ((∑ e ∈ s, h e k) * d) * w k := by
  simp only [Finset.sum_mul]
  rw [Finset.sum_comm]
  exact Finset.sum_congr rfl fun k _ => Finset.sum_congr rfl fun e _ => by ring

/-- The same on the extended reals, for messages and weights that are real numbers. -/
theorem ereal_aggregate {ι : Type} {K : ℕ} (s : Finset ι) (H : ι → Fin K → EReal) (W : Fin K → EReal) (d : ℝ)
    (hH : ∀ e k, IsReal (H e k)) (hW : ∀ k, IsReal (W k)) :
    (∑ e ∈ s, ∑ k : Fin K, H e k * W k) * (d : EReal) = ∑ k : Fin K, ((∑ e ∈ s, H e k) * (d : EReal)) * W k := by
  choose h hh using hH
  choose w hw using hW
  obtain rfl : H = fun e k => ((h e k : ℝ) : EReal) := funext fun e => funext fun k => hh e k
  obtain rfl : W = fun k => ((w k : ℝ) : EReal) := funext hw
  simp only [← EReal.coe_mul, ← Cert.Scores.coe_sum]
  exact congrArg _ (real_aggregate s h w d)

/-- THE AGGREGATION LAW: projecting every message through Wl and then summing the messages that land on a node,
    scaled by 1/c, is summing the messages, dividing by c, and projecting — for real messages H e and a real table
    Wl (linearity of the projection; the sums over the messages e and over the input coordinate k exchange) -/
theorem affinePre_eq_affineDiv {ι : Type} [Fintype ι] {K J : ℕ} (P : ι → Prop) [DecidablePred P]
    (H : ι → Fin K → EReal) (x : Fin K → EReal) (c : ℝ) (hc : 1 ≤ c)
    (Wl Wr : Fin K → Fin J → EReal) (b : Fin J → EReal) (hH : ∀ e k, IsReal (H e k))
    (hWl : ∀ k j, IsReal (Wl k j)) (j : Fin J) :
    affinePre (fun j' => ∑ e : ι, if P e then proj (H e) Wl j' else 0) x (Ideal.div 1 (c : EReal)) Wr b j
      = affineDiv (fun k => ∑ e : ι, if P e then H e k else 0) x (c : EReal) Wl Wr b j := by
  unfold affinePre affineDiv proj
  rw [recip_count c hc]
  simp only [div_count c hc, ← Finset.sum_filter]
  rw [ereal_aggregate (Finset.univ.filter P) H (fun k => Wl k j) (1 / c) hH (fun k => hWl k j)]

/-- hence the two second-layer arrangements agree -/
theorem outPre_eq_outDiv {ι : Type} [Fintype ι] {K J : ℕ} (P : ι → Prop) [DecidablePred P]
    (H : ι → Fin K → EReal) (x : Fin K → EReal) (c : ℝ) (hc : 1 ≤ c)
    (Wl Wr : Fin K → Fin J → EReal) (b : Fin J → EReal) (hH : ∀ e k, IsReal (H e k))
    (hWl : ∀ k j, IsReal (Wl k j)) (j : Fin J) :
    outPre (fun j' => ∑ e : ι, if P e then proj (H e) Wl j' else 0) x (Ideal.div 1 (c : EReal)) Wr b j
      = outDiv (fun k => ∑ e : ι, if P e then H e k else 0) x (c : EReal) Wl Wr b j := by
  unfold outPre outDiv
  rw [show affinePre (fun j' => ∑ e : ι, if P e then proj (H e) Wl j' else 0) x (Ideal.div 1 (c : EReal)) Wr b
        = affineDiv (fun k => ∑ e : ι, if P e then H e k else 0) x (c : EReal) Wl Wr b from
    funext fun j' => affinePre_eq_affineDiv P H x c hc Wl Wr b hH hWl j']

/-! ### Real rows stay real -/

/-- the clamp is a positive real number -/
theorem eps_pos_real : ∃ r : ℝ, 0 < r ∧ eps = (r : EReal) := by
  refine ⟨(9223372 : ℝ) * (2 : ℝ) ^ (-63 : ℤ), by positivity, ?_⟩
  simp [eps, Ideal.ofBits, Ideal.ieee, -EReal.coe_mul]

/-- The maximum of two real numbers, taken in the extended reals, is their maximum as real numbers. -/
theorem max_coe (s t : ℝ) : max (s : EReal) (t : EReal) = ((max s t : ℝ) : EReal) :=
  ((EReal.coe_strictMono.monotone).map_max (a := s) (b := t)).symm

/-- The maximum of a real number with zero is a real number. -/
theorem isReal_max_zero {x : EReal} (hx : IsReal x) : IsReal (max x 0) := by
  rcases max_choice x 0 with h | h <;> rw [h]
  exacts [hx, Cert.Scores.isReal_zero]

/-- A row of real numbers against a table of real numbers is a real number. -/
theorem isReal_proj {K J : ℕ} (a : Fin K → EReal) (W : Fin K → Fin J → EReal) (ha : ∀ k, IsReal (a k))
    (hW : ∀ k j, IsReal (W k j)) (j : Fin J) : IsReal (proj a W j) := by
  unfold proj
  exact Cert.Scores.IsReal.sum Finset.univ fun k => (ha k).mul (hW k j)

/-- The affine part of real inputs with a count c ≥ 1 is real: the aggregate over the count is a product of reals,
    the two projections are sums of products of reals, and the bias is real. -/
theorem affineDiv_isReal {K J : ℕ} (a x : Fin K → EReal) (c : ℝ) (hc : 1 ≤ c) (Wl Wr : Fin K → Fin J → EReal)
    (b : Fin J → EReal) (ha : ∀ k, IsReal (a k)) (hx : ∀ k, IsReal (x k)) (hWl : ∀ k j, IsReal (Wl k j))
    (hWr : ∀ k j, IsReal (Wr k j)) (hb : ∀ j, IsReal (b j)) (j : Fin J) :
    IsReal (affineDiv a x (c : EReal) Wl Wr b j) := by
  unfold affineDiv
  refine ((isReal_proj _ Wl (fun k => ?_) hWl j).add (hb j)).add (isReal_proj x Wr hx hWr j)
  rw [div_count c hc]
  exact (ha k).mul (Cert.Scores.isReal_coe _)

/-- A real row divided by its clamped Euclidean length is real: the sum of squares is a nonnegative real, its square
    root a real, the maximum of that with the positive clamp a positive real, and the quotient by a nonzero real is
    the product with its reciprocal. -/
theorem unitRow_isReal {J : ℕ} (v : Fin J → EReal) (hv : ∀ i, IsReal (v i)) (j : Fin J) : IsReal (unitRow v j) := by
  obtain ⟨r, hr, he⟩ := eps_pos_real
  choose v' hv' using hv
  obtain rfl : v = fun i => ((v' i : ℝ) : EReal) := funext hv'
  have hs : ¬ (∑ i : Fin J, v' i * v' i) < 0 := not_lt.mpr (Finset.sum_nonneg fun i _ => mul_self_nonneg (v' i))
  unfold unitRow
  simp only [← EReal.coe_mul, ← Cert.Scores.coe_sum]
  rw [Ideal.sqrt_coe, if_neg hs, he, max_coe, Ideal.div_coe (ne_of_gt (lt_of_lt_of_le hr (le_max_right _ _)))]
  exact (Cert.Scores.isReal_coe _).mul (Cert.Scores.isReal_coe _)

/-- a first-layer row of real inputs is real: sums of products of reals, a square root of a nonnegative real, a
    maximum with a positive real, a quotient by a positive real, a maximum with zero -/
theorem hiddenDiv_isReal {K J : ℕ} (a x : Fin K → EReal) (c : ℝ) (hc : 1 ≤ c) (Wl Wr : Fin K → Fin J → EReal)
    (b : Fin J → EReal) (ha : ∀ k, IsReal (a k)) (hx : ∀ k, IsReal (x k)) (hWl : ∀ k j, IsReal (Wl k j))
    (hWr : ∀ k j, IsReal (Wr k j)) (hb : ∀ j, IsReal (b j)) (j : Fin J) :
    IsReal (hiddenDiv a x (c : EReal) Wl Wr b j) := by
  unfold hiddenDiv
  exact isReal_max_zero (unitRow_isReal _ (fun i => affineDiv_isReal a x c hc Wl Wr b ha hx hWl hWr hb i) j)

/-- the sum of the real messages that land on a node is real -/
theorem isReal_sum_ite {ι : Type} [Fintype ι] (P : ι → Prop) [DecidablePred P] (f : ι → EReal)
    (hf : ∀ e, IsReal (f e)) : IsReal (∑ e : ι, if P e then f e else 0) :=
  Cert.Scores.IsReal.sum Finset.univ fun e => by
    by_cases h : P e
    · rw [if_pos h]; exact hf e
    · rw [if_neg h]; exact Cert.Scores.isReal_zero

/-- folding a maximum from b over a row never goes below b, so a further maximum with b changes nothing (the
    reference takes max negInf (rowMax z)) -/
theorem max_negInf_rowMax {J : ℕ} (z : Fin J → EReal) : max negInf (rowMax z) = rowMax z := by
  unfold rowMax
  exact max_eq_right ((Finset.le_fold_max _).mpr (Or.inl le_rfl))

end Cert.Sage

end
-- ==== Proof.Bridge.lean ====
/-
  The two programs compute the same extended reals, entry by entry.

  Both split the edge list the same way, so they have the same source column, the same destination column and the
  same weight tables laid out input-major; the clamped count of a node is on both sides the real number
  c = max(number of edges arriving, 1) ≥ 1, of which one program takes the reciprocal.

  FIRST LAYER.  Both aggregate the same feature rows over the edges arriving at a node.  One scales the aggregate by
  1/c and adds the bias last, the other divides by c and adds the bias in the middle: the same row, with no
  finiteness needed.  So the two hidden layers are one array, and for finite inputs its entries are real numbers.

  SECOND LAYER.  One program multiplies the first weight table into every node's hidden row BEFORE aggregating and then
  scales by 1/c; the other aggregates the hidden rows, divides by c, and multiplies the table in afterwards.  For real
  hidden rows and a real table these agree (the projection is linear: the sum over the arriving edges and the sum
  over the input coordinate exchange).  The rest of the second layer — bias, own-row product, unit row, log-softmax —
  is the same function of the same arguments.
-/
import proofs.«159132_j75479755259981_2_alg».proof.Proof.KernelHostRead
import proofs.«159132_j75479755259981_2_alg».proof.Proof.RefRows
import proofs.«159132_j75479755259981_2_alg».proof.Proof.RefAgg
import proofs.«159132_j75479755259981_2_alg».proof.Proof.Algebra

noncomputable section

namespace Cert.Bridge

open Idealize.ShloMosaic Idealize.ShloMosaic.ValueIdx
open Cert.KernelIdeal.HostSide Cert.ReferenceIdeal.ReadP Cert.ReferenceIdeal.RefAgg Cert.ReferenceIdeal.RefRows
open Cert.EdgeIndex Cert.CountScatter Cert.Sage
open Cert.Scores (IsReal)

variable (x0 : FArr Cert.KernelIdeal.S100000x128) (x1 : IArr Cert.KernelIdeal.S2x1600000)
  (x2 : FArr Cert.KernelIdeal.S128x128) (x3 : FArr Cert.KernelIdeal.S128) (x4 : FArr Cert.KernelIdeal.S128x128)
  (x5 : FArr Cert.KernelIdeal.S40x128) (x6 : FArr Cert.KernelIdeal.S40) (x7 : FArr Cert.KernelIdeal.S40x128)

/-! ## The shared pieces are the same terms -/

/-- Both programs scatter through the same destination column. -/
theorem dstCol_eq : dstCol (edgeRow 1 x1) = val_main_v12 (F := Ideal) x1 := rfl

/-- Both programs gather through the same source column. -/
theorem srcCol_eq : srcCol (edgeRow 0 x1) = val_main_v9 (F := Ideal) x1 := rfl

/-- The weight tables, input-major, are the same arrays. -/
theorem table_w1l : table128 x2 = val_main_v23 (F := Ideal) x2 := rfl
theorem table_w1r : table128 x4 = val_main_v28 (F := Ideal) x4 := rfl
theorem table_w2l : table40 x5 = val_main_v56 (F := Ideal) x5 := rfl
theorem table_w2r : table40 x7 = val_main_v61 (F := Ideal) x7 := rfl

/-- The clamped count of node `n` as a real number. -/
def count (n : Fin 100000) : ℝ := max (landing (val_main_v12 (F := Ideal) x1) n : ℝ) 1

theorem one_le_count (n : Fin 100000) : 1 ≤ count x1 n := le_max_right _ _

/-- One program's reciprocal column at `n` is one over that count. -/
theorem recip_eq (n : Fin 100000) : recipCol (edgeRow 1 x1) (ix2 n (0 : Fin 1)) = Ideal.div 1 ((count x1 n : ℝ) : EReal) := by
  rw [recipCol_apply, clampedCount_apply, dstCol_eq]
  rfl

/-- The two first aggregates are one array. -/
theorem aggregate1_eq (n : Fin 100000) (k : Fin 128) :
    aggregate1 x0 (edgeRow 0 x1) (edgeRow 1 x1) (ix2 n k) = val_main_v13 (F := Ideal) x0 x1 (ix2 n k) := by
  rw [aggregate1_apply, agg13_apply, dstCol_eq, srcCol_eq]

/-! ## Entries of the tables and aggregates are real numbers for finite inputs -/

theorem isReal_table_w1l (r2 : ∀ i, IsReal (x2 i)) (k j : Fin 128) : IsReal (val_main_v23 (F := Ideal) x2 (ix2 k j)) := by
  rw [val_main_v23_apply]; exact r2 _
theorem isReal_table_w1r (r4 : ∀ i, IsReal (x4 i)) (k j : Fin 128) : IsReal (val_main_v28 (F := Ideal) x4 (ix2 k j)) := by
  rw [val_main_v28_apply]; exact r4 _
theorem isReal_table_w2l (r5 : ∀ i, IsReal (x5 i)) (k : Fin 128) (j : Fin 40) : IsReal (val_main_v56 (F := Ideal) x5 (ix2 k j)) := by
  rw [val_main_v56_apply]; exact r5 _

/-! ## The first layer -/

/-- The reference's hidden layer has real entries when the features, the first layer's weights and its bias are finite. -/
theorem hidden_isReal (r0 : ∀ i, IsReal (x0 i)) (r2 : ∀ i, IsReal (x2 i)) (r3 : ∀ i, IsReal (x3 i)) (r4 : ∀ i, IsReal (x4 i))
    (n : Fin 100000) (k : Fin 128) : IsReal (val_main_v36 (F := Ideal) x0 x1 x2 x3 x4 (ix2 n k)) := by
  rw [hidden_row, count19_apply]
  refine hiddenDiv_isReal _ _ _ (one_le_count x1 n) _ _ _ (fun k' => ?_) (fun k' => r0 _) (fun k' j' => isReal_table_w1l x2 r2 k' j')
    (fun k' j' => isReal_table_w1r x4 r4 k' j') (fun j' => r3 _) k
  rw [agg13_apply]
  exact isReal_sum_ite _ _ fun e => r0 _

/-- An array that is, row by row, the first layer in the multiplying arrangement of the first program's host-side
    arrays IS the reference's hidden layer. -/
theorem hidden_eq (H : FArr Cert.KernelIdeal.S100000x128)
    (hH : ∀ (n : Fin 100000) (k : Fin 128), H (ix2 n k)
      = hiddenMul (fun k' : Fin 128 => aggregate1 x0 (edgeRow 0 x1) (edgeRow 1 x1) (ix2 n k')) (fun k' : Fin 128 => x0 (ix2 n k'))
          (recipCol (edgeRow 1 x1) (ix2 n (0 : Fin 1))) (fun (k' : Fin 128) (j' : Fin 128) => table128 x2 (ix2 k' j'))
          (fun (k' : Fin 128) (j' : Fin 128) => table128 x4 (ix2 k' j')) (fun j' : Fin 128 => biasRow128 x3 (ix2 (0 : Fin 1) j')) k)
    (n : Fin 100000) (k : Fin 128) : H (ix2 n k) = val_main_v36 (F := Ideal) x0 x1 x2 x3 x4 (ix2 n k) := by
  rw [hH, hidden_row, count19_apply, recip_eq, table_w1l, table_w1r]
  have ha : (fun k' : Fin 128 => aggregate1 x0 (edgeRow 0 x1) (edgeRow 1 x1) (ix2 n k'))
      = fun k' : Fin 128 => val_main_v13 (F := Ideal) x0 x1 (ix2 n k') := funext fun k' => aggregate1_eq x0 x1 n k'
  have hb : (fun j' : Fin 128 => biasRow128 x3 (ix2 (0 : Fin 1) j')) = fun j' : Fin 128 => x3 (ix1 j') :=
    funext fun j' => rowOf_vector_apply x3 _ j'
  rw [ha, hb]
  exact hiddenMul_eq_hiddenDiv _ _ (count x1 n) (one_le_count x1 n) _ _ _ k

/-! ## The second layer -/

/-- THE VALUES AGREE: the first program's result row, written over its host-side arrays and a hidden layer `H` that is
    the first layer of them, is the reference's result — for finite features, first-layer weights and bias, and a finite
    first table of the second layer. -/
theorem result_eq (H : FArr Cert.KernelIdeal.S100000x128)
    (hH : ∀ (n : Fin 100000) (k : Fin 128), H (ix2 n k)
      = hiddenMul (fun k' : Fin 128 => aggregate1 x0 (edgeRow 0 x1) (edgeRow 1 x1) (ix2 n k')) (fun k' : Fin 128 => x0 (ix2 n k'))
          (recipCol (edgeRow 1 x1) (ix2 n (0 : Fin 1))) (fun (k' : Fin 128) (j' : Fin 128) => table128 x2 (ix2 k' j'))
          (fun (k' : Fin 128) (j' : Fin 128) => table128 x4 (ix2 k' j')) (fun j' : Fin 128 => biasRow128 x3 (ix2 (0 : Fin 1) j')) k)
    (r0 : ∀ i, IsReal (x0 i)) (r2 : ∀ i, IsReal (x2 i)) (r3 : ∀ i, IsReal (x3 i)) (r4 : ∀ i, IsReal (x4 i)) (r5 : ∀ i, IsReal (x5 i))
    (n : Fin 100000) (j : Fin 40) :
    outPre (fun j' : Fin 40 => aggregate2 H x5 (edgeRow 0 x1) (edgeRow 1 x1) (ix2 n j')) (fun k : Fin 128 => H (ix2 n k))
        (recipCol (edgeRow 1 x1) (ix2 n (0 : Fin 1))) (fun (k : Fin 128) (j' : Fin 40) => table40 x7 (ix2 k j'))
        (fun j' : Fin 40 => biasRow40 x6 (ix2 (0 : Fin 1) j')) j
      = val_main_v69 (F := Ideal) x0 x1 x2 x3 x4 x5 x6 x7 (ix2 n j) := by
  have hEq := hidden_eq x0 x1 x2 x3 x4 H hH
  rw [out_row, count52_apply, recip_eq, table_w2r]
  -- the own hidden row, the bias row
  have hrow : (fun k : Fin 128 => H (ix2 n k)) = fun k : Fin 128 => val_main_v36 (F := Ideal) x0 x1 x2 x3 x4 (ix2 n k) :=
    funext fun k => hEq n k
  have hb : (fun j' : Fin 40 => biasRow40 x6 (ix2 (0 : Fin 1) j')) = fun j' : Fin 40 => x6 (ix1 j') :=
    funext fun j' => rowOf_vector_apply x6 _ j'
  -- the aggregate of projected rows, as a sum over the arriving edges of projected hidden rows
  have hap : (fun j' : Fin 40 => aggregate2 H x5 (edgeRow 0 x1) (edgeRow 1 x1) (ix2 n j'))
      = fun j' : Fin 40 => ∑ e : Fin 1600000, if lands (val_main_v12 (F := Ideal) x1) e n
          then proj (fun k : Fin 128 => val_main_v36 (F := Ideal) x0 x1 x2 x3 x4 (ix2 (rowOf hN (val_main_v9 (F := Ideal) x1) e) k))
            (fun (k : Fin 128) (j'' : Fin 40) => val_main_v56 (F := Ideal) x5 (ix2 k j'')) j' else 0 := by
    funext j'
    rw [aggregate2_apply, dstCol_eq, srcCol_eq]
    refine Finset.sum_congr rfl fun e _ => if_congr Iff.rfl ?_ rfl
    rw [projected_apply, table_w2l]
    unfold proj
    exact Finset.sum_congr rfl fun k _ => by rw [hEq]
  -- the reference's aggregate, as the sum over the arriving edges of hidden rows
  have ha : (fun k : Fin 128 => val_main_v46 (F := Ideal) x0 x1 x2 x3 x4 (ix2 n k))
      = fun k : Fin 128 => ∑ e : Fin 1600000, if lands (val_main_v12 (F := Ideal) x1) e n
          then val_main_v36 (F := Ideal) x0 x1 x2 x3 x4 (ix2 (rowOf hN (val_main_v9 (F := Ideal) x1) e) k) else 0 :=
    funext fun k => agg46_apply x0 x1 x2 x3 x4 n k
  rw [hrow, hb, hap, ha]
  exact outPre_eq_outDiv (fun e : Fin 1600000 => lands (val_main_v12 (F := Ideal) x1) e n)
    (fun (e : Fin 1600000) (k : Fin 128) => val_main_v36 (F := Ideal) x0 x1 x2 x3 x4 (ix2 (rowOf hN (val_main_v9 (F := Ideal) x1) e) k))
    _ (count x1 n) (one_le_count x1 n) _ _ _ (fun e k => hidden_isReal x0 x1 x2 x3 x4 r0 r2 r3 r4 _ k)
    (fun k j' => isReal_table_w2l x5 r5 k j') j

end Cert.Bridge

end
-- ==== Proof.Finite.lean ====
/-
  From the precondition to "every floating-point input entry is a real number".

  The precondition is a predicate on the eight argument arrays that answers a single bit: for each of the seven
  floating-point arrays it tests, entry by entry, whether the absolute value max x (-x) is strictly below plus
  infinity, folds the answers of one array together by "and" from the bit 1, and joins the seven folded bits by
  "and".  The claim's hypothesis is that the answer is the bit 1.

  A conjunction of bits is 1 only when every conjunct is 1, and an "and"-fold from 1 that comes out 1 met only 1s; so
  at every entry x of every array, max x (-x) < ⊤.  An extended real is ⊥, ⊤ or a real number: at ⊥ and at ⊤ the
  absolute value is ⊤, which is not below ⊤; what is left is a real number.
-/
import proofs.«159132_j75479755259981_2_alg».proof.Proof.Gen.Pre_finite_inputs
import proofs.«159132_j75479755259981_2_alg».proof.Proof.LibRealLaw
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic
open Cert.Scores (IsReal)
open Cert.Pre_finite_inputs

/-- The shape of a single value has one index. -/
instance subsingleton_scalar_idx : Subsingleton S_.Idx := ⟨fun a b => funext fun d => d.elim0⟩

/-- An extended real whose absolute value max x (-x) tests as strictly below the single-precision word of plus
    infinity is a real number: at ⊥ and at ⊤ the absolute value is ⊤. -/
theorem isReal_of_abs_lt_inf (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- An array all of whose entries pass the test "absolute value below plus infinity" (the test folded by "and" from
    the bit 1 into a single bit that is 1) has real entries. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) (i : s.Idx) : IsReal (x i) :=
  isReal_of_abs_lt_inf (x i) (Host.reduce_andi_all _ _ hr hu ValueIdx.ix0 e i)

/-- If the precondition answers the bit 1 on the eight argument arrays, every entry of each of the seven
    floating-point arrays is a real number (the second array holds integers and is not tested). -/
theorem all_real (x0 : FVec Ideal S100000x128 .f32) (x1 : IVec S2x1600000 32) (x2 : FVec Ideal S128x128 .f32)
    (x3 : FVec Ideal S128 .f32) (x4 : FVec Ideal S128x128 .f32) (x5 : FVec Ideal S40x128 .f32)
    (x6 : FVec Ideal S40 .f32) (x7 : FVec Ideal S40x128 .f32)
    (h : Cert.Pre_finite_inputs.fn (F := Ideal) x0 x1 x2 x3 x4 x5 x6 x7 = fun _ => 1#1) :
    (∀ i, IsReal (x0 i)) ∧ (∀ i, IsReal (x2 i)) ∧ (∀ i, IsReal (x3 i)) ∧ (∀ i, IsReal (x4 i)) ∧ (∀ i, IsReal (x5 i))
      ∧ (∀ i, IsReal (x6 i)) ∧ (∀ i, IsReal (x7 i)) := by
  have h0 := congrFun h ValueIdx.ix0
  dsimp only [Cert.Pre_finite_inputs.fn, Cert.Pre_finite_inputs.fn_part1] at h0
  simp only [Idealize.ShloMosaic.andi, IntOp.andi_eq_one] at h0
  obtain ⟨⟨⟨⟨⟨⟨e0, e2⟩, e3⟩, e4⟩, e5⟩, e6⟩, e7⟩ := h0
  exact ⟨real_of_all x0 _ _ _ e0, real_of_all x2 _ _ _ e2, real_of_all x3 _ _ _ e3, real_of_all x4 _ _ _ e4,
    real_of_all x5 _ _ _ e5, real_of_all x6 _ _ _ e6, real_of_all x7 _ _ _ e7⟩

end Cert.Finite

end
-- ==== Proof.lean ====
/-
  Two layers of mean-aggregating graph convolution with unit-length rows, a maximum with zero between the layers
  and a log-softmax at the end: a program with two on-chip kernels against a plain array program.

  Both programs count, per node, the edges that arrive (clamped below by one), and aggregate over those edges the
  source node's row.  The program with kernels multiplies the aggregate by the reciprocal count and adds the bias
  last, where the plain program divides by the count and adds the bias in the middle; and in the second layer it
  projects every hidden row through the first weight table BEFORE aggregating.  Over the extended reals the first
  difference is no difference at all (a count is a real number at least one, and addition is commutative and
  associative), so the two hidden layers are equal; for finite inputs the hidden layer is real, and then the second
  difference is the linearity of the projection.  Changes of float format are the identity; sums may be taken in any
  order or tiling.

  The modules: the kernels' rows (Region0Row, Region0, Region1), the host operations of the program with kernels
  (KernelHost, KernelHostRead) and its run with the result kept (KernelRun, KernelValue); the plain program's run read
  stretch by stretch (RefRun over RefOps) and its layers and aggregates read at an index (RefRows, RefAgg over RefRead);
  the row formulas (Spec), their algebra (Algebra), finiteness from the precondition (Finite), and the comparison
  (Bridge).  Here: the frames, and the two runs side by side.
-/
import proofs.«159132_j75479755259981_2_alg».proof.Defs
import proofs.«159132_j75479755259981_2_alg».proof.Proof.Gen.Kernel
import proofs.«159132_j75479755259981_2_alg».proof.Proof.Gen.Kernel.Skeleton
import proofs.«159132_j75479755259981_2_alg».proof.Proof.Gen.Kernel.Launch
import proofs.«159132_j75479755259981_2_alg».proof.Proof.Gen.Kernel.Points
import proofs.«159132_j75479755259981_2_alg».proof.Proof.Gen.Kernel.Frame
import proofs.«159132_j75479755259981_2_alg».proof.Proof.Gen.KernelIdeal
import proofs.«159132_j75479755259981_2_alg».proof.Proof.Gen.KernelIdeal.Skeleton
import proofs.«159132_j75479755259981_2_alg».proof.Proof.Gen.KernelIdeal.Launch
import proofs.«159132_j75479755259981_2_alg».proof.Proof.Gen.KernelIdeal.Points
import proofs.«159132_j75479755259981_2_alg».proof.Proof.Gen.KernelIdeal.Frame
import proofs.«159132_j75479755259981_2_alg».proof.Proof.Gen.ReferenceIdeal
import proofs.«159132_j75479755259981_2_alg».proof.Proof.Gen.Pre_finite_inputs
import proofs.«159132_j75479755259981_2_alg».proof.Proof.KernelValue
import proofs.«159132_j75479755259981_2_alg».proof.Proof.RefRun
import proofs.«159132_j75479755259981_2_alg».proof.Proof.Bridge
import proofs.«159132_j75479755259981_2_alg».proof.Proof.Finite
import Idealize.ShloMosaic.Adequacy
import Idealize.ShloMosaic.Init

noncomputable section

namespace Cert.Proof

open Idealize.ShloMosaic Idealize.ShloMosaic.ValueIdx Idealize.SL.Sem

/-- The program with kernels, as printed: it runs, and its arguments end as launched. -/
theorem frame_kernel : Cert.frame_Kernel := fun m ρ _ => Cert.Kernel.Gen.frame m ρ

/-- The same program read over the extended reals. -/
theorem frame_kernelIdeal : Cert.frame_KernelIdeal := fun m ρ _ => Cert.KernelIdeal.Gen.frame m ρ

/-- The plain program: its run, with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- Nothing was rewritten when the program was read over the extended reals. -/
theorem preserves : Cert.preserves_Kernel_KernelIdeal := trivial

/-- For finite inputs the final contents of the first program's result array are the plain program's staged result of
    the same arguments, entry by entry. -/
theorem values (m : (ℓ : Loc Cert.KernelIdeal.nD Cert.KernelIdeal.τ Cert.KernelIdeal.sig) → Buf (Elt Ideal) ℓ) (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = fun _ => 1#1) :
    (Cert.KernelIdeal.Gen.W4 m ρ c (Proc.devRef .tc Cert.KernelIdeal.main_v45) : Cert.KernelIdeal.HostSide.FArr Cert.KernelIdeal.S100000x40)
      = Cert.ReferenceIdeal.ReadP.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  obtain ⟨r0, r2, r3, r4, r5, _, _⟩ := Cert.Finite.all_real _ _ _ _ _ _ _ _ hpre
  funext i
  obtain ⟨n, j, rfl⟩ : ∃ (n : Fin 100000) (j : Fin 40), i = ix2 n j := ⟨i 0, i 1, eq_ix2 i⟩
  rw [Cert.KernelIdeal.Whole.result_apply m ρ c n j]
  exact Cert.Bridge.result_eq _ _ _ _ _ _ _ _ (Cert.KernelIdeal.Whole.hidden m ρ c) (Cert.KernelIdeal.Whole.hidden_apply m ρ c) r0 r2 r3 r4 r5 n j

/-- The two programs, run from memories agreeing on the arguments, end with equal results. -/
theorem algebraic : Cert.algebraic_KernelIdeal_ReferenceIdeal := by
  intro m ρ m' ρ' hpre hagree
  refine ⟨fun c => Cert.KernelIdeal.Gen.W4 m ρ c (Proc.devRef .tc Cert.KernelIdeal.main_v45), Cert.KernelIdeal.Whole.run_main (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (values m ρ c (hpre c)).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
